-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x100000 : Shape := ⟨3, ![8, 64, 100000]⟩
abbrev S8x3x100000 : Shape := ⟨3, ![8, 3, 100000]⟩
abbrev S_ : Shape := ⟨0, ![]⟩

class Facts : Prop where
  bcast_S_S8x64x100000 : S_.BroadcastsInDim S8x64x100000 (![] : Fin 0 → Fin S8x64x100000.rank)
  reducesTo_S8x64x100000_S_d0_1_2 : S8x64x100000.ReducesTo [0, 1, 2] S_
  h_S_ : 0 < S_.numel
  bcast_S_S8x3x100000 : S_.BroadcastsInDim S8x3x100000 (![] : Fin 0 → Fin S8x3x100000.rank)
  reducesTo_S8x3x100000_S_d0_1_2 : S8x3x100000.ReducesTo [0, 1, 2] S_

variable [Facts]

def fn {F : FTy → Type} [FloatOps F] (main_arg0 : FVec F S8x64x100000 .f32) (main_arg1 : FVec F S8x3x100000 .f32) : IVec S_ 1 :=
  let main_v0 : FVec F S8x64x100000 .f32 := Host.absf main_arg0
  let main_cst : FVec F S_ .f32 := constant S_ .f32 0x7F800000#32
  let main_v1 : FVec F S8x64x100000 .f32 := broadcastInDim S8x64x100000 ![] bcast_S_S8x64x100000 main_cst
  let main_v2 : IVec S8x64x100000 1 := cmpf .olt main_v0 main_v1
  let main_c : IVec S_ 1 := constantI S_ 1 1#1
  let main_v3 : IVec S_ 1 := (fun x v => Host.reduce IntOp.andi x v reducesTo_S8x64x100000_S_d0_1_2 h_S_) main_v2 main_c
  let main_v4 : FVec F S8x3x100000 .f32 := Host.absf main_arg1
  let main_cst_0 : FVec F S_ .f32 := constant S_ .f32 0x7F800000#32
  let main_v5 : FVec F S8x3x100000 .f32 := broadcastInDim S8x3x100000 ![] bcast_S_S8x3x100000 main_cst_0
  let main_v6 : IVec S8x3x100000 1 := cmpf .olt main_v4 main_v5
  let main_c_1 : IVec S_ 1 := constantI S_ 1 1#1
  let main_v7 : IVec S_ 1 := (fun x v => Host.reduce IntOp.andi x v reducesTo_S8x3x100000_S_d0_1_2 h_S_) main_v6 main_c_1
  let main_v8 : IVec S_ 1 := andi main_v3 main_v7
  main_v8
-- ==== Kernel.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8x64x102400 : Shape := ⟨3, ![8, 64, 102400]⟩
abbrev S8x102400 : Shape := ⟨2, ![8, 102400]⟩
abbrev S819200 : Shape := ⟨1, ![819200]⟩
abbrev S8x64x32x1024 : Shape := ⟨4, ![8, 64, 32, 1024]⟩
abbrev S1x64x4096 : Shape := ⟨3, ![1, 64, 4096]⟩
abbrev S4096 : Shape := ⟨1, ![4096]⟩
abbrev S1x64x32x1024 : Shape := ⟨4, ![1, 64, 32, 1024]⟩
abbrev S32x1024x64 : Shape := ⟨3, ![32, 1024, 64]⟩
abbrev S1024x32 : Shape := ⟨2, ![1024, 32]⟩
abbrev S64x4096 : Shape := ⟨2, ![64, 4096]⟩
abbrev S1024x4096 : Shape := ⟨2, ![1024, 4096]⟩
abbrev S1x4096 : Shape := ⟨2, ![1, 4096]⟩
abbrev S32x4096 : Shape := ⟨2, ![32, 4096]⟩
abbrev S256x4096 : Shape := ⟨2, ![256, 4096]⟩
abbrev S1024x256 : Shape := ⟨2, ![1024, 256]⟩
abbrev S1x1024x64 : Shape := ⟨3, ![1, 1024, 64]⟩
abbrev S1024x64 : Shape := ⟨2, ![1024, 64]⟩
abbrev S32x1024 : Shape := ⟨2, ![32, 1024]⟩
abbrev S32x1024x1 : Shape := ⟨3, ![32, 1024, 1]⟩
abbrev S64x32x1024 : Shape := ⟨3, ![64, 32, 1024]⟩
abbrev S8x64x32x32x32 : Shape := ⟨5, ![8, 64, 32, 32, 32]⟩

abbrev nBuf : Space → Nat
  | .hbm => 65
  | .vmem => 10
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .f32⟩
  | .hbm, ⟨30, _⟩ => ⟨S8x3x100000, .f32⟩
  | .hbm, ⟨31, _⟩ => ⟨S8x3x100000, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S_, .f32⟩
  | .hbm, ⟨38, _⟩ => ⟨S8x3x100000, .f32⟩
  | .hbm, ⟨39, _⟩ => ⟨S8x3x100000, .f32⟩
  | .hbm, ⟨40, _⟩ => ⟨S8x3x100000, .f32⟩
  | .hbm, ⟨41, _⟩ => ⟨S8x3x100000, .i32⟩
  | .hbm, ⟨42, _⟩ => ⟨S8x1x100000, .i32⟩
  | .hbm, ⟨43, _⟩ => ⟨S8x100000, .i32⟩
  | .hbm, ⟨44, _⟩ => ⟨S8x1x100000, .i32⟩
  | .hbm, ⟨45, _⟩ => ⟨S8x100000, .i32⟩
  | .hbm, ⟨46, _⟩ => ⟨S_, .i32⟩
  | .hbm, ⟨47, _⟩ => ⟨S8x100000, .i32⟩
  | .hbm, ⟨48, _⟩ => ⟨S8x100000, .i32⟩
  | .hbm, ⟨49, _⟩ => ⟨S8x1x100000, .i32⟩
  | .hbm, ⟨50, _⟩ => ⟨S8x100000, .i32⟩
  | .hbm, ⟨51, _⟩ => ⟨S8x100000, .i32⟩
  | .hbm, ⟨52, _⟩ => ⟨S_, .i32⟩
  | .hbm, ⟨53, _⟩ => ⟨S_, .f32⟩
  | .hbm, ⟨54, _⟩ => ⟨S8x64x102400, .f32⟩
  | .hbm, ⟨55, _⟩ => ⟨S_, .i32⟩
  | .hbm, ⟨56, _⟩ => ⟨S_, .i32⟩
  | .hbm, ⟨57, _⟩ => ⟨S8x102400, .i32⟩
  | .hbm, ⟨58, _⟩ => ⟨S_, .i32⟩
  | .hbm, ⟨59, _⟩ => ⟨S_, .i32⟩
  | .hbm, ⟨60, _⟩ => ⟨S8x102400, .i32⟩
  | .hbm, ⟨61, _⟩ => ⟨S819200, .i32⟩
  | .hbm, ⟨62, _⟩ => ⟨S819200, .i32⟩
  | .hbm, ⟨63, _⟩ => ⟨S8x64x32x1024, .f32⟩
  | .hbm, ⟨64, _⟩ => ⟨S8x64x32x32x32, .f32⟩
  | .local _ .vmem, ⟨0, _⟩ => ⟨S1x64x4096, .f32⟩
  | .local _ .vmem, ⟨1, _⟩ => ⟨S1x64x4096, .f32⟩
  | .local _ .vmem, ⟨2, _⟩ => ⟨S4096, .i32⟩
  | .local _ .vmem, ⟨3, _⟩ => ⟨S4096, .i32⟩
  | .local _ .vmem, ⟨4, _⟩ => ⟨S4096, .i32⟩
  | .local _ .vmem, ⟨5, _⟩ => ⟨S4096, .i32⟩
  | .local _ .vmem, ⟨6, _⟩ => ⟨S1x64x32x1024, .f32⟩
  | .local _ .vmem, ⟨7, _⟩ => ⟨S1x64x32x1024, .f32⟩
  | .local _ .vmem, ⟨8, _⟩ => ⟨S32x1024x64, .f32⟩
  | .local _ .vmem, ⟨9, _⟩ => ⟨S1024x32, .f32⟩
  | _, _ => ⟨S8x64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_call2_v0 : Ref sig .tc := ⟨.hbm, 53, rfl⟩
abbrev main_v34 : Ref sig .tc := ⟨.hbm, 54, rfl⟩
abbrev main_c_10 : Ref sig .tc := ⟨.hbm, 55, rfl⟩
abbrev main_call3_v0 : Ref sig .tc := ⟨.hbm, 56, rfl⟩
abbrev main_v35 : Ref sig .tc := ⟨.hbm, 57, rfl⟩
abbrev main_c_11 : Ref sig .tc := ⟨.hbm, 58, rfl⟩
abbrev main_call4_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v430 : BitVec 1 := Scalar.cmpi .eq arg1 c24_i32
  let v431 : BitVec 32 := Scalar.extui v430
  let c0_i32_178 : BitVec 32 := 0#32
  let v432 : BitVec 1 := Scalar.cmpi .ne v431 c0_i32_178
  v432

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  slices_S8x3x100000_S8x1x100000_0_1_0 : S8x3x100000.Slices ![0, 1, 0] S8x1x100000
  bcast_S_S8x100000 : S_.BroadcastsInDim S8x100000 (![] : Fin 0 → Fin S8x100000.rank)
  slices_S8x3x100000_S8x1x100000_0_2_0 : S8x3x100000.Slices ![0, 2, 0] S8x1x100000
  pads_S8x64x100000_S8x64x102400_000_000_024000 : S8x64x100000.Pads (![0, 0, 0] : Fin 3 → Nat) ![0, 0, 2400] ![0, 0, 0] S8x64x102400
  pads_S8x100000_S8x102400_000_024000 : S8x100000.Pads (![0, 0] : Fin 2 → Nat) ![0, 2400] ![0, 0] S8x102400
  shapeCasts_S8x102400_S819200 : S8x102400.ShapeCasts S819200
  inb_S32x1024x64_S32x1024x64_0_0_0 : ∀ a, (![0, 0, 0] : Fin 3 → Nat) a + S32x1024x64.size a ≤ S32x1024x64.size a
  h_S32x1024x64 : 0 < S32x1024x64.numel
  shapeCasts_S32x1024x64_S32x1024x64 : S32x1024x64.ShapeCasts S32x1024x64
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  bitsLt_bf16_f32 : FTy.bits .bf16 < FTy.bits .f32
  inb_S4096_S4096_0 : ∀ a, (![0] : Fin 1 → Nat) a + S4096.size a ≤ S4096.size a
  h_S4096 : 0 < S4096.numel
  shapeCasts_S4096_S4096 : S4096.ShapeCasts S4096
  iota_S1024x4096_d0_w32 : S1024x4096.Iotas .tc 32 [0]
  shapeCasts_S4096_S1x4096 : S4096.ShapeCasts S1x4096
  broadcasts_S1x4096_S1024x4096 : S1x4096.Broadcasts S1024x4096
  natLt_1_32 : 1 < 32
  iota_S32x4096_d0_w32 : S32x4096.Iotas .tc 32 [0]
  broadcasts_S1x4096_S32x4096 : S1x4096.Broadcasts S32x4096
  slices_S32x4096_o0_0_S1x4096 : S32x4096.Slices ![0, 0] S1x4096
  shapeCasts_S1x4096_S4096 : S1x4096.ShapeCasts S4096
  broadcasts_S1x4096_S64x4096 : S1x4096.Broadcasts S64x4096
  slices_S32x4096_o1_0_S1x4096 : S32x4096.Slices ![1, 0] S1x4096
  slices_S32x4096_o2_0_S1x4096 : S32x4096.Slices ![2, 0] S1x4096
  slices_S32x4096_o3_0_S1x4096 : S32x4096.Slices ![3, 0] S1x4096
  concatenates_S64x4096_S64x4096_S64x4096_S64x4096_S256x4096_d0 : Shape.Concatenates [S64x4096, S64x4096, S64x4096, S64x4096] S256x4096 0
  inb_S32x1024x64_S1x1024x64_0_0_0 : ∀ a, (![0, 0, 0] : Fin 3 → Nat) a + S1x1024x64.size a ≤ S32x1024x64.size a
  h_S1x1024x64 : 0 < S1x1024x64.numel
  shapeCasts_S1x1024x64_S1024x64 : S1x1024x64.ShapeCasts S1024x64
  slices_S1024x256_o0_0_S1024x64 : S1024x256.Slices ![0, 0] S1024x64
  shapeCasts_S1024x64_S1x1024x64 : S1024x64.ShapeCasts S1x1024x64
  inb_S32x1024x64_S1x1024x64_1_0_0 : ∀ a, (![1, 0, 0] : Fin 3 → Nat) a + S1x1024x64.size a ≤ S32x1024x64.size a
  slices_S1024x256_o0_64_S1024x64 : S1024x256.Slices ![0, 64] S1024x64
  inb_S32x1024x64_S1x1024x64_2_0_0 : ∀ a, (![2, 0, 0] : Fin 3 → Nat) a + S1x1024x64.size a ≤ S32x1024x64.size a
  slices_S1024x256_o0_128_S1024x64 : S1024x256.Slices ![0, 128] S1024x64
  inb_S32x1024x64_S1x1024x64_3_0_0 : ∀ a, (![3, 0, 0] : Fin 3 → Nat) a + S1x1024x64.size a ≤ S32x1024x64.size a
  slices_S1024x256_o0_192_S1024x64 : S1024x256.Slices ![0, 192] S1024x64
  slices_S32x4096_o4_0_S1x4096 : S32x4096.Slices ![4, 0] S1x4096
  slices_S32x4096_o5_0_S1x4096 : S32x4096.Slices ![5, 0] S1x4096
  slices_S32x4096_o6_0_S1x4096 : S32x4096.Slices ![6, 0] S1x4096
  slices_S32x4096_o7_0_S1x4096 : S32x4096.Slices ![7, 0] S1x4096
  inb_S32x1024x64_S1x1024x64_4_0_0 : ∀ a, (![4, 0, 0] : Fin 3 → Nat) a + S1x1024x64.size a ≤ S32x1024x64.size a
  inb_S32x1024x64_S1x1024x64_5_0_0 : ∀ a, (![5, 0, 0] : Fin 3 → Nat) a + S1x1024x64.size a ≤ S32x1024x64.size a
  inb_S32x1024x64_S1x1024x64_6_0_0 : ∀ a, (![6, 0, 0] : Fin 3 → Nat) a + S1x1024x64.size a ≤ S32x1024x64.size a
  inb_S32x1024x64_S1x1024x64_7_0_0 : ∀ a, (![7, 0, 0] : Fin 3 → Nat) a + S1x1024x64.size a ≤ S32x1024x64.size a
  slices_S32x4096_o8_0_S1x4096 : S32x4096.Slices ![8, 0] S1x4096
  slices_S32x4096_o9_0_S1x4096 : S32x4096.Slices ![9, 0] S1x4096
  slices_S32x4096_o10_0_S1x4096 : S32x4096.Slices ![10, 0] S1x4096
  slices_S32x4096_o11_0_S1x4096 : S32x4096.Slices ![11, 0] S1x4096
  inb_S32x1024x64_S1x1024x64_8_0_0 : ∀ a, (![8, 0, 0] : Fin 3 → Nat) a + S1x1024x64.size a ≤ S32x1024x64.size a
  inb_S32x1024x64_S1x1024x64_9_0_0 : ∀ a, (![9, 0, 0] : Fin 3 → Nat) a + S1x1024x64.size a ≤ S32x1024x64.size a
  inb_S32x1024x64_S1x1024x64_10_0_0 : ∀ a, (![10, 0, 0] : Fin 3 → Nat) a + S1x1024x64.size a ≤ S32x1024x64.size a
  inb_S32x1024x64_S1x1024x64_11_0_0 : ∀ a, (![11, 0, 0] : Fin 3 → Nat) a + S1x1024x64.size a ≤ S32x1024x64.size a
  slices_S32x4096_o12_0_S1x4096 : S32x4096.Slices ![12, 0] S1x4096
  slices_S32x4096_o13_0_S1x4096 : S32x4096.Slices ![13, 0] S1x4096
  slices_S32x4096_o14_0_S1x4096 : S32x4096.Slices ![14, 0] S1x4096
  slices_S32x4096_o15_0_S1x4096 : S32x4096.Slices ![15, 0] S1x4096
  inb_S32x1024x64_S1x1024x64_12_0_0 : ∀ a, (![12, 0, 0] : Fin 3 → Nat) a + S1x1024x64.size a ≤ S32x1024x64.size a
  inb_S32x1024x64_S1x1024x64_13_0_0 : ∀ a, (![13, 0, 0] : Fin 3 → Nat) a + S1x1024x64.size a ≤ S32x1024x64.size a
  inb_S32x1024x64_S1x1024x64_14_0_0 : ∀ a, (![14, 0, 0] : Fin 3 → Nat) a + S1x1024x64.size a ≤ S32x1024x64.size a
  inb_S32x1024x64_S1x1024x64_15_0_0 : ∀ a, (![15, 0, 0] : Fin 3 → Nat) a + S1x1024x64.size a ≤ S32x1024x64.size a
  slices_S32x4096_o16_0_S1x4096 : S32x4096.Slices ![16, 0] S1x4096
  slices_S32x4096_o17_0_S1x4096 : S32x4096.Slices ![17, 0] S1x4096
  slices_S32x4096_o18_0_S1x4096 : S32x4096.Slices ![18, 0] S1x4096
  slices_S32x4096_o19_0_S1x4096 : S32x4096.Slices ![19, 0] S1x4096
  inb_S32x1024x64_S1x1024x64_16_0_0 : ∀ a, (![16, 0, 0] : Fin 3 → Nat) a + S1x1024x64.size a ≤ S32x1024x64.size a
  inb_S32x1024x64_S1x1024x64_17_0_0 : ∀ a, (![17, 0, 0] : Fin 3 → Nat) a + S1x1024x64.size a ≤ S32x1024x64.size a
  inb_S32x1024x64_S1x1024x64_18_0_0 : ∀ a, (![18, 0, 0] : Fin 3 → Nat) a + S1x1024x64.size a ≤ S32x1024x64.size a
  inb_S32x1024x64_S1x1024x64_19_0_0 : ∀ a, (![19, 0, 0] : Fin 3 → Nat) a + S1x1024x64.size a ≤ S32x1024x64.size a
  slices_S32x4096_o20_0_S1x4096 : S32x4096.Slices ![20, 0] S1x4096
  slices_S32x4096_o21_0_S1x4096 : S32x4096.Slices ![21, 0] S1x4096
  slices_S32x4096_o22_0_S1x4096 : S32x4096.Slices ![22, 0] S1x4096
  slices_S32x4096_o23_0_S1x4096 : S32x4096.Slices ![23, 0] S1x4096
  inb_S32x1024x64_S1x1024x64_20_0_0 : ∀ a, (![20, 0, 0] : Fin 3 → Nat) a + S1x1024x64.size a ≤ S32x1024x64.size a
  inb_S32x1024x64_S1x1024x64_21_0_0 : ∀ a, (![21, 0, 0] : Fin 3 → Nat) a + S1x1024x64.size a ≤ S32x1024x64.size a
  inb_S32x1024x64_S1x1024x64_22_0_0 : ∀ a, (![22, 0, 0] : Fin 3 → Nat) a + S1x1024x64.size a ≤ S32x1024x64.size a
  inb_S32x1024x64_S1x1024x64_23_0_0 : ∀ a, (![23, 0, 0] : Fin 3 → Nat) a + S1x1024x64.size a ≤ S32x1024x64.size a
  slices_S32x4096_o24_0_S1x4096 : S32x4096.Slices ![24, 0] S1x4096
  slices_S32x4096_o25_0_S1x4096 : S32x4096.Slices ![25, 0] S1x4096
  slices_S32x4096_o26_0_S1x4096 : S32x4096.Slices ![26, 0] S1x4096
  slices_S32x4096_o27_0_S1x4096 : S32x4096.Slices ![27, 0] S1x4096
  inb_S32x1024x64_S1x1024x64_24_0_0 : ∀ a, (![24, 0, 0] : Fin 3 → Nat) a + S1x1024x64.size a ≤ S32x1024x64.size a
  inb_S32x1024x64_S1x1024x64_25_0_0 : ∀ a, (![25, 0, 0] : Fin 3 → Nat) a + S1x1024x64.size a ≤ S32x1024x64.size a
  inb_S32x1024x64_S1x1024x64_26_0_0 : ∀ a, (![26, 0, 0] : Fin 3 → Nat) a + S1x1024x64.size a ≤ S32x1024x64.size a
  inb_S32x1024x64_S1x1024x64_27_0_0 : ∀ a, (![27, 0, 0] : Fin 3 → Nat) a + S1x1024x64.size a ≤ S32x1024x64.size a
  slices_S32x4096_o28_0_S1x4096 : S32x4096.Slices ![28, 0] S1x4096
  slices_S32x4096_o29_0_S1x4096 : S32x4096.Slices ![29, 0] S1x4096
  slices_S32x4096_o30_0_S1x4096 : S32x4096.Slices ![30, 0] S1x4096
  slices_S32x4096_o31_0_S1x4096 : S32x4096.Slices ![31, 0] S1x4096
  inb_S32x1024x64_S1x1024x64_28_0_0 : ∀ a, (![28, 0, 0] : Fin 3 → Nat) a + S1x1024x64.size a ≤ S32x1024x64.size a
  inb_S32x1024x64_S1x1024x64_29_0_0 : ∀ a, (![29, 0, 0] : Fin 3 → Nat) a + S1x1024x64.size a ≤ S32x1024x64.size a
  inb_S32x1024x64_S1x1024x64_30_0_0 : ∀ a, (![30, 0, 0] : Fin 3 → Nat) a + S1x1024x64.size a ≤ S32x1024x64.size a
  inb_S32x1024x64_S1x1024x64_31_0_0 : ∀ a, (![31, 0, 0] : Fin 3 → Nat) a + S1x1024x64.size a ≤ S32x1024x64.size a
  transposes_S1024x32_p1_0_S32x1024 : S1024x32.Transposes [1, 0] S32x1024
  shapeCasts_S32x1024_S32x1024x1 : S32x1024.ShapeCasts S32x1024x1
  broadcasts_S32x1024x1_S32x1024x64 : S32x1024x1.Broadcasts S32x1024x64
  transposes_S32x1024x64_p2_0_1_S64x32x1024 : S32x1024x64.Transposes [2, 0, 1] S64x32x1024
  inb_S1x64x32x1024_S1x64x32x1024_0_0_0_0 : ∀ a, (![0, 0, 0, 0] : Fin 4 → Nat) a + S1x64x32x1024.size a ≤ S1x64x32x1024.size a
  h_S1x64x32x1024 : 0 < S1x64x32x1024.numel
  shapeCasts_S1x64x32x1024_S64x32x1024 : S1x64x32x1024.ShapeCasts S64x32x1024
  shapeCasts_S64x32x1024_S1x64x32x1024 : S64x32x1024.ShapeCasts S1x64x32x1024
  shapeCasts_S8x64x32x1024_S8x64x32x32x32 : S8x64x32x1024.ShapeCasts S8x64x32x32x32
  dot_S1024x4096_S32x4096_S1024x32_1_1_0_0_n_n_wf : DotDims.WF S1024x4096 S32x4096 S1024x32 [1] [1] [0] [0] [] []
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S8x64x102400.size a
  hwx0_0 : ∀ i : grid0.Coords, EltTy.bits .f32 = 32 ∨ (Rect.block (s := S8x64x102400) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S819200.size a
  hwx0_1 : ∀ i : grid0.Coords, EltTy.bits .i32 = 32 ∨ (Rect.block (s := S819200) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S819200.size a
  hwx0_2 : ∀ i : grid0.Coords, EltTy.bits .i32 = 32 ∨ (Rect.block (s := S819200) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x32x1024.size a ≤ S8x64x32x1024.size a
  hwx0_3 : ∀ i : grid0.Coords, EltTy.bits .f32 = 32 ∨ (Rect.block (s := S8x64x32x1024) S1x64x32x1024.size (cc0_transform_3 i) (hinb0_3 i)).WholeWords (EltTy.packing .f32)

variable [Facts₀]

def dot_S1024x4096_S32x4096_S1024x32_1_1_0_0_n_n : DotDims S1024x4096 S32x4096 S1024x32 where
  lhsContracting := [1]
  rhsContracting := [1]
  lhsNonContracting := [0]
  rhsNonContracting := [0]
  lhsBatch := []
  rhsBatch := []
  wf := dot_S1024x4096_S32x4096_S1024x32_1_1_0_0_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v34) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x64x32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8 : Shape := ⟨1, ![8]⟩
abbrev S800000 : Shape := ⟨1, ![800000]⟩
abbrev S8x100000x64 : Shape := ⟨3, ![8, 100000, 64]⟩
abbrev S800000x64 : Shape := ⟨2, ![800000, 64]⟩
abbrev S262144x64 : Shape := ⟨2, ![262144, 64]⟩
abbrev S800000x1 : Shape := ⟨2, ![800000, 1]⟩
abbrev S262144 : Shape := ⟨1, ![262144]⟩
abbrev S262144x1 : Shape := ⟨2, ![262144, 1]⟩
abbrev S8x32x32x32x64 : Shape := ⟨5, ![8, 32, 32, 32, 64]⟩
abbrev S8x64x32x32x32 : Shape := ⟨5, ![8, 64, 32, 32, 32]⟩

abbrev nBuf : Space → Nat
  | .hbm => 84
  | .vmem => 0
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .f32⟩
  | .hbm, ⟨30, _⟩ => ⟨S8x3x100000, .f32⟩
  | .hbm, ⟨31, _⟩ => ⟨S8x3x100000, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S_, .f32⟩
  | .hbm, ⟨38, _⟩ => ⟨S8x3x100000, .f32⟩
  | .hbm, ⟨39, _⟩ => ⟨S8x3x100000, .f32⟩
  | .hbm, ⟨40, _⟩ => ⟨S8x3x100000, .f32⟩
  | .hbm, ⟨41, _⟩ => ⟨S8x3x100000, .i32⟩
  | .hbm, ⟨42, _⟩ => ⟨S8, .i32⟩
  | .hbm, ⟨43, _⟩ => ⟨S8x1, .i32⟩
  | .hbm, ⟨44, _⟩ => ⟨S_, .i32⟩
  | .hbm, ⟨45, _⟩ => ⟨S8x1, .i32⟩
  | .hbm, ⟨46, _⟩ => ⟨S8x1, .i32⟩
  | .hbm, ⟨47, _⟩ => ⟨S8x1x100000, .i32⟩
  | .hbm, ⟨48, _⟩ => ⟨S8x100000, .i32⟩
  | .hbm, ⟨49, _⟩ => ⟨S_, .i32⟩
  | .hbm, ⟨50, _⟩ => ⟨S8x100000, .i32⟩
  | .hbm, ⟨51, _⟩ => ⟨S8x100000, .i32⟩
  | .hbm, ⟨52, _⟩ => ⟨S8x100000, .i32⟩
  | .hbm, ⟨53, _⟩ => ⟨S8x100000, .i32⟩
  | .hbm, ⟨54, _⟩ => ⟨S8x1x100000, .i32⟩
  | .hbm, ⟨55, _⟩ => ⟨S8x100000, .i32⟩
  | .hbm, ⟨56, _⟩ => ⟨S_, .i32⟩
  | .hbm, ⟨57, _⟩ => ⟨S8x100000, .i32⟩
  | .hbm, ⟨58, _⟩ => ⟨S8x100000, .i32⟩
  | .hbm, ⟨59, _⟩ => ⟨S8x100000, .i32⟩
  | .hbm, ⟨60, _⟩ => ⟨S8x1x100000, .i32⟩
  | .hbm, ⟨61, _⟩ => ⟨S8x100000, .i32⟩
  | .hbm, ⟨62, _⟩ => ⟨S8x100000, .i32⟩
  | .hbm, ⟨63, _⟩ => ⟨S800000, .i32⟩
  | .hbm, ⟨64, _⟩ => ⟨S8x100000x64, .f32⟩
  | .hbm, ⟨65, _⟩ => ⟨S800000x64, .f32⟩
  | .hbm, ⟨66, _⟩ => ⟨S_, .f32⟩
  | .hbm, ⟨67, _⟩ => ⟨S262144x64, .f32⟩
  | .hbm, ⟨68, _⟩ => ⟨S800000x1, .i32⟩
  | .hbm, ⟨69, _⟩ => ⟨S262144x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S262144, .f32⟩
  | .hbm, ⟨74, _⟩ => ⟨S800000x1, .i32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S262144x1, .f32⟩
  | .hbm, ⟨80, _⟩ => ⟨S262144x64, .f32⟩
  | .hbm, ⟨81, _⟩ => ⟨S262144x64, .f32⟩
  | .hbm, ⟨82, _⟩ => ⟨S8x32x32x32x64, .f32⟩
  | .hbm, ⟨83, _⟩ => ⟨S8x64x32x32x32, .f32⟩
  | _, _ => ⟨S8x64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  bcast_S8_S8x1_0 : S8.BroadcastsInDim S8x1 (![0] : Fin 1 → Fin S8x1.rank)
  bcast_S_S8x1 : S_.BroadcastsInDim S8x1 (![] : Fin 0 → Fin S8x1.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  bcast_S8x1_S8x100000_0_1 : S8x1.BroadcastsInDim S8x100000 (![0, 1] : Fin 2 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  shapeCasts_S8x100000_S800000 : S8x100000.ShapeCasts S800000
  transposes_S8x64x100000_S8x100000x64_0_2_1 : S8x64x100000.Transposes [0, 2, 1] S8x100000x64
  shapeCasts_S8x100000x64_S800000x64 : S8x100000x64.ShapeCasts S800000x64
  bcast_S_S262144x64 : S_.BroadcastsInDim S262144x64 (![] : Fin 0 → Fin S262144x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32x32x32x64 : S262144x64.ShapeCasts S8x32x32x32x64
  transposes_S8x32x32x32x64_S8x64x32x32x32_0_4_1_2_3 : S8x32x32x32x64.Transposes [0, 4, 1, 2, 3] S8x64x32x32x32
  scatter_S262144x64_S800000x1_S800000x64_1_0_0_1_wf : ScatterDims.WF S262144x64 S800000x1 S800000x64 [1] [0] [0] 1
  scatter_S262144_S800000x1_S800000_n_0_0_1_wf : ScatterDims.WF S262144 S800000x1 S800000 [] [0] [0] 1

variable [Facts₀]

def scatter_S262144x64_S800000x1_S800000x64_1_0_0_1 : ScatterDims S262144x64 S800000x1 S800000x64 where
  updateWindowDims := [1]
  insertedWindowDims := [0]
  scatterDimsToOperandDims := [0]
  indexVectorDim := 1
  wf := scatter_S262144x64_S800000x1_S800000x64_1_0_0_1_wf
def scatter_S262144_S800000x1_S800000_n_0_0_1 : ScatterDims S262144 S800000x1 S800000 where
  updateWindowDims := []
  insertedWindowDims := [0]
  scatterDimsToOperandDims := [0]
  indexVectorDim := 1
  wf := scatter_S262144_S800000x1_S800000_n_0_0_1_wf

class Facts : Prop extends Facts₀ where

variable [Facts]
-- ==== Proof.Spec.lean ====
/-
  Voxelization of a point cloud, as one function of the feature array and of the integer voxel coordinates.

  Batch `b` has 100000 points; point `n` carries 64 feature channels `feat (b, c, n)` and three integer voxel
  coordinates `W (b, 0, n)`, `W (b, 1, n)`, `W (b, 2, n)`, each read as a natural number. Voxel `(x, y, z)` of batch
  `b` collects the points whose three coordinates are `x`, `y`, `z`: its channel-`c` value is the sum of the
  features of those points divided by their number, the number replaced by one for an empty voxel. Sums are over
  the extended reals, where addition is commutative and associative and `0` is absorbing for the product with a
  `0/1` weight, so the value does not depend on the order or the grouping in which the points are visited.
-/
import Idealize.ShloMosaic.PureOps.Ideal
import Idealize.ShloMosaic.Lib.ValueIdx

noncomputable section

namespace Cert.VoxelSpec

open Idealize.ShloMosaic Idealize.ShloMosaic.ValueIdx

/-- The feature array's shape `[8, 64, 100000]`, the voxel coordinates' `[8, 3, 100000]`, the grid's `[8, 64, 32, 32, 32]`. -/
abbrev SFeat : Shape := ⟨3, ![8, 64, 100000]⟩
abbrev SVox : Shape := ⟨3, ![8, 3, 100000]⟩
abbrev SGrid : Shape := ⟨5, ![8, 64, 32, 32, 32]⟩

/-- Point `n` of batch `b` lies in voxel `(x, y, z)`. -/
def inVoxel (W : SVox.Idx → BitVec 32) (b : Fin 8) (x y z : Fin 32) (n : Fin 100000) : Prop :=
  (W (ix3 b (0 : Fin 3) n)).toNat = x.val ∧ (W (ix3 b (1 : Fin 3) n)).toNat = y.val ∧ (W (ix3 b (2 : Fin 3) n)).toNat = z.val

instance (W : SVox.Idx → BitVec 32) (b : Fin 8) (x y z : Fin 32) (n : Fin 100000) : Decidable (inVoxel W b x y z n) := by
  unfold inVoxel; infer_instance

/-- The sum of channel `c` over the points of batch `b` that lie in voxel `(x, y, z)`. -/
def voxSum (W : SVox.Idx → BitVec 32) (feat : SFeat.Idx → EReal) (b : Fin 8) (c : Fin 64) (x y z : Fin 32) : EReal :=
  ∑ n : Fin 100000, if inVoxel W b x y z n then feat (ix3 b c n) else 0

/-- The number of points of batch `b` that lie in voxel `(x, y, z)`. -/
def voxCount (W : SVox.Idx → BitVec 32) (b : Fin 8) (x y z : Fin 32) : EReal :=
  ∑ n : Fin 100000, if inVoxel W b x y z n then 1 else 0

/-- The voxel grid: per voxel and channel the sum divided by the count, the count at least one. -/
def grid (W : SVox.Idx → BitVec 32) (feat : SFeat.Idx → EReal) : SGrid.Idx → EReal := fun i =>
  Ideal.div (voxSum W feat (i 0) (i 1) (i 2) (i 3) (i 4)) (max (voxCount W (i 0) (i 2) (i 3) (i 4)) 1)

/-- Every voxel coordinate is one of `0 … 31`. -/
def InRange (W : SVox.Idx → BitVec 32) : Prop := ∀ i, (W i).toNat < 32

/-! ## The same sums, visited block by block

The point axis is padded from 100000 to 102400 = 25 · 4096 points and visited in 25 blocks of 4096. A padded point has
feature `0` and both of its integer keys equal to `-1`, which is no voxel's key, so it adds nothing. Within a block a
point is matched to the voxel plane `x` and to the in-plane cell `yz = 32·y + z` by two `0/1` weights. -/

/-- The `0/1` weight of two 32-bit words being equal. -/
def hot (a b : BitVec 32) : EReal := if a = b then 1 else 0

/-- The features of batch `b`, channel `c`, on the padded point axis: `0` past the last point. -/
def featP (feat : SFeat.Idx → EReal) (b : Fin 8) (c : Fin 64) (n : Fin 102400) : EReal :=
  if h : n.val < 100000 then feat (ix3 b c ⟨n.val, h⟩) else 0

/-- The plane key `x` of a point of batch `b` on the padded point axis: `-1` past the last point. -/
def cxP (W : SVox.Idx → BitVec 32) (b : Fin 8) (n : Fin 102400) : BitVec 32 :=
  if h : n.val < 100000 then W (ix3 b (0 : Fin 3) ⟨n.val, h⟩) else 4294967295#32

/-- The in-plane key `32·y + z` (32-bit arithmetic) of a point of batch `b` on the padded point axis: `-1` past the last point. -/
def cyzP (W : SVox.Idx → BitVec 32) (b : Fin 8) (n : Fin 102400) : BitVec 32 :=
  if h : n.val < 100000 then W (ix3 b (1 : Fin 3) ⟨n.val, h⟩) * 32#32 + W (ix3 b (2 : Fin 3) ⟨n.val, h⟩) else 4294967295#32

/-- Point `p` of block `s` on the padded axis. -/
def blockPt (s : Fin 25) (p : Fin 4096) : Fin 102400 := ⟨s.val * 4096 + p.val, by have := s.isLt; have := p.isLt; omega⟩

/-- What block `s` of batch `b` adds to the feature sum of plane `x`, cell `yz`, channel `c`. -/
def blockSum (W : SVox.Idx → BitVec 32) (feat : SFeat.Idx → EReal) (b : Fin 8) (s : Fin 25) (x : Fin 32) (yz : Fin 1024) (c : Fin 64) : EReal :=
  ∑ p : Fin 4096, hot (BitVec.ofNat 32 yz.val) (cyzP W b (blockPt s p)) *
    (featP feat b c (blockPt s p) * hot (BitVec.ofNat 32 x.val) (cxP W b (blockPt s p)))

/-- What block `s` of batch `b` adds to the point count of cell `yz`, plane `x`. -/
def blockCount (W : SVox.Idx → BitVec 32) (b : Fin 8) (s : Fin 25) (yz : Fin 1024) (x : Fin 32) : EReal :=
  ∑ p : Fin 4096, hot (BitVec.ofNat 32 yz.val) (cyzP W b (blockPt s p)) * hot (BitVec.ofNat 32 x.val) (cxP W b (blockPt s p))

/-- The in-plane cell `32·y + z`. -/
def cell (y z : Fin 32) : Fin 1024 := ⟨y.val * 32 + z.val, by have := y.isLt; have := z.isLt; omega⟩

end Cert.VoxelSpec

end
-- ==== Proof.VoxRange.lean ====
/-
  The voxel coordinates lie in `0 … 31`.

  A coordinate is `e` clipped into `[0, 31]`, rounded to the nearest integer (ties to even) and converted to a
  32-bit integer. Whatever the extended real `e` is — an infinity included — `min 31 (max 0 e)` is a real of
  `[0, 31]`; the rounding of a real of `[0, 31]` is one of the integers `0 … 31` (it is the floor or the floor plus
  one, and the latter only when the real is at least the floor plus a half, hence the floor at most `30`); and the
  conversion of such an integer is that integer.
-/
import proofs.«129199_j15135464751874_2_alg».proof.Proof.Gen.ReferenceIdeal.Read
import proofs.«129199_j15135464751874_2_alg».proof.Proof.Spec

noncomputable section

namespace Cert.VoxRange

open Idealize.ShloMosaic Idealize.ShloMosaic.ValueIdx

/-- An extended real between `0` and `31` is a real between `0` and `31`. -/
theorem exists_real_of_mem (a : EReal) (h0 : 0 ≤ a) (h1 : a ≤ 31) : ∃ t : ℝ, a = (t : EReal) ∧ 0 ≤ t ∧ t ≤ 31 := by
  induction a using EReal.rec with
  | bot => exact absurd h0 (by simp)
  | top => exact absurd h1 (by
      have : ((31 : ℝ) : EReal) < ⊤ := EReal.coe_lt_top 31
      intro h
      exact absurd (lt_of_le_of_lt (by exact_mod_cast h) this) (lt_irrefl _))
  | coe t =>
    refine ⟨t, rfl, ?_, ?_⟩
    · exact_mod_cast h0
    · have e31 : ((31 : ℝ) : EReal) = 31 := rfl
      rw [← e31] at h1
      exact EReal.coe_le_coe_iff.1 h1

/-- Rounding half to even keeps a real of `[0, 31]` among the integers `0 … 31`. -/
theorem roundHalfEven_mem (t : ℝ) (h0 : 0 ≤ t) (h1 : t ≤ 31) :
    0 ≤ Ideal.roundHalfEven t ∧ Ideal.roundHalfEven t ≤ 31 := by
  have hf0 : 0 ≤ ⌊t⌋ := Int.floor_nonneg.2 h0
  have hfl : (⌊t⌋ : ℝ) ≤ t := Int.floor_le t
  have hf1 : ⌊t⌋ ≤ 31 := by
    have : (⌊t⌋ : ℝ) ≤ 31 := le_trans hfl h1
    exact_mod_cast this
  unfold Ideal.roundHalfEven
  simp only []
  have hup : ¬ (t - (⌊t⌋ : ℝ) < 1 / 2) → ⌊t⌋ + 1 ≤ 31 := by
    intro h
    have h2 : (⌊t⌋ : ℝ) < 31 := by linarith [not_lt.1 h]
    have h3 : ⌊t⌋ < 31 := by exact_mod_cast h2
    omega
  split_ifs with ha hb hc
  · exact ⟨hf0, hf1⟩
  · exact ⟨by omega, hup ha⟩
  · exact ⟨hf0, hf1⟩
  · exact ⟨by omega, hup ha⟩

/-- The conversion to a 32-bit integer of an integer `k` of `0 … 31`, as a real, reads `k`. -/
theorem fptosi_coe_int (k : ℤ) (h0 : 0 ≤ k) (h1 : k ≤ 31) :
    (Ideal.fptosi 32 (((k : ℝ) : EReal))).toNat = k.toNat := by
  unfold Ideal.fptosi
  rw [Ideal.toIntClamped_coe]
  have hk : (0 : ℝ) ≤ (k : ℝ) := by exact_mod_cast h0
  rw [if_pos hk, Int.floor_intCast]
  have hmin : min (((2 ^ (32 - 1) : Nat) : Int) - 1) k = k := by
    apply min_eq_right; norm_num; omega
  have hmax : max (-((2 ^ (32 - 1) : Nat) : Int)) k = k := by
    apply max_eq_right; norm_num; omega
  rw [hmin, hmax, BitVec.toNat_ofInt]
  congr 1
  exact Int.emod_eq_of_lt h0 (by norm_num; omega)

/-- THE CORE, for one extended real `e`: clipped into `[0, 31]`, rounded half to even and converted to a 32-bit
    integer, it reads a natural number below `32`. -/
theorem fptosi_round_clip_lt (e : EReal) :
    (Ideal.fptosi 32 (Ideal.liftRound Ideal.roundHalfEven (min 31 (max 0 e)))).toNat < 32 := by
  obtain ⟨t, ht, h0, h1⟩ := exists_real_of_mem (min 31 (max 0 e)) (le_min (by norm_num) (le_max_left _ _)) (min_le_left _ _)
  rw [ht, Ideal.liftRound_coe]
  obtain ⟨k0, k1⟩ := roundHalfEven_mem t h0 h1
  rw [fptosi_coe_int _ k0 k1]
  omega

/-- Every voxel coordinate the reference computes is one of `0 … 31`. -/
theorem vox_inRange (x1 : (⟨Cert.ReferenceIdeal.S8x3x100000, .f32⟩ : BufTy).Contents (Elt Ideal)) :
    Cert.VoxelSpec.InRange (Cert.ReferenceIdeal.Read.val_main_v24 (F := Ideal) x1) := by
  intro i
  rw [Cert.ReferenceIdeal.Read.val_main_v24_apply, Cert.ReferenceIdeal.Read.val_main_v23_apply,
    Cert.ReferenceIdeal.Read.val_main_v22_apply, Cert.ReferenceIdeal.Read.val_main_call0_v4_apply,
    Cert.ReferenceIdeal.Read.val_main_call0_v3_apply, Cert.ReferenceIdeal.Read.val_main_c_apply,
    Cert.ReferenceIdeal.Read.val_main_call0_v2_apply, Cert.ReferenceIdeal.Read.val_main_call0_v1_apply,
    Cert.ReferenceIdeal.Read.val_main_call0_v0_apply, Cert.ReferenceIdeal.Read.val_main_cst_7_apply]
  rw [Ideal.hostUnary_roundeven_def, Ideal.minimumf_def, Ideal.maximumf_def, Ideal.ofBits_def, Ideal.ofBits_zero_f32]
  have h31 : FloatOps.sitofp (F := Ideal) FTy.f32 (31#32 : BitVec 32) = (31 : EReal) := by
    show (((31#32 : BitVec 32).toInt : ℝ) : EReal) = 31
    have : (31#32 : BitVec 32).toInt = 31 := by decide
    rw [this]
    have h2 : ((31 : ℤ) : ℝ) = 31 := by norm_num
    rw [h2]; rfl
  rw [h31]
  exact fptosi_round_clip_lt _

end Cert.VoxRange

end
-- ==== Proof.RefKey.lean ====
/-
  The rows of the reference's two scatters: their keys and their features.

  The reference flattens the points of all batches into 800000 rows, row `e = b · 100000 + n` being point `n` of batch
  `b`, and gives each row the key `b · 32768 + vx · 1024 + vy · 32 + vz` computed in 32-bit integers. With the three
  voxel coordinates in `0 … 31` nothing wraps, and the key is the mixed-radix number `((b · 32 + vx) · 32 + vy) · 32 + vz`,
  which determines `b`, `vx`, `vy`, `vz`. The feature row of row `e` holds the 64 channels of that point.
-/
import proofs.«129199_j15135464751874_2_alg».proof.Proof.Gen.ReferenceIdeal.Read
import proofs.«129199_j15135464751874_2_alg».proof.Proof.Spec
import proofs.«129199_j15135464751874_2_alg».proof.Proof.VoxRange

noncomputable section

namespace Cert.RefGrid

open Idealize.ShloMosaic Idealize.ShloMosaic.ValueIdx Cert.ReferenceIdeal Cert.ReferenceIdeal.Read Cert.VoxelSpec

/-! ## Arithmetic of the key -/

/-- With the batch below `8` and the three coordinates below `32`, the 32-bit key does not wrap: read signed it is the
    mixed-radix number. -/
theorem key_toInt (bb : Nat) (hb : bb < 8) (wx wy wz : BitVec 32) (hx : wx.toNat < 32) (hy : wy.toNat < 32)
    (hz : wz.toNat < 32) :
    (IntOp.addi (IntOp.addi (IntOp.addi (IntOp.muli (BitVec.ofNat 32 bb) 32768#32) (IntOp.muli wx 1024#32))
      (IntOp.muli wy 32#32)) wz).toInt = ((((bb * 32 + wx.toNat) * 32 + wy.toNat) * 32 + wz.toNat : Nat) : Int) := by
  unfold IntOp.addi IntOp.muli
  have hbb : (BitVec.ofNat 32 bb).toNat = bb := by
    rw [BitVec.toNat_ofNat]; exact Nat.mod_eq_of_lt (by omega)
  generalize BitVec.ofNat 32 bb = wb at hbb
  have hN : (wb * 32768#32 + wx * 1024#32 + wy * 32#32 + wz).toNat
      = ((bb * 32 + wx.toNat) * 32 + wy.toNat) * 32 + wz.toNat := by
    simp only [BitVec.toNat_add, BitVec.toNat_mul, BitVec.toNat_ofNat]
    omega
  rw [BitVec.toInt_eq_toNat_of_lt (by omega), hN]

/-- The mixed-radix number determines its digits. -/
theorem key_eq_iff (b' b : Nat) (hb' : b' < 8) (hb : b < 8) (vx vy vz x y z : Nat) (hvx : vx < 32) (hvy : vy < 32)
    (hvz : vz < 32) (hx : x < 32) (hy : y < 32) (hz : z < 32) :
    ((((b' * 32 + vx) * 32 + vy) * 32 + vz : Nat) : Int) = ((((b * 32 + x) * 32 + y) * 32 + z : Nat) : Int) ↔
      b' = b ∧ vx = x ∧ vy = y ∧ vz = z := by
  omega

/-! ## The rows -/

/-- Row `b · 100000 + n` of the flattened points: point `n` of batch `b`. -/
def row (b : Fin 8) (n : Fin 100000) : Fin 800000 := ⟨n.val + 100000 * b.val, by omega⟩

/-- Row `((b · 32 + x) · 32 + y) · 32 + z` of the flattened grid: voxel `(x, y, z)` of batch `b`. -/
def vrow (b : Fin 8) (x y z : Fin 32) : Fin 262144 := ⟨((b.val * 32 + x.val) * 32 + y.val) * 32 + z.val, by omega⟩

/-- A sum over the 800000 rows is the sum over the batches of the sums over their points. -/
theorem sum_rows {M : Type*} [AddCommMonoid M] (f : Fin 800000 → M) :
    ∑ e, f e = ∑ b : Fin 8, ∑ n : Fin 100000, f (row b n) := by
  rw [← Fintype.sum_prod_type']
  exact (Fintype.sum_equiv (finProdFinEquiv (m := 8) (n := 100000)) (fun p => f (row p.1 p.2)) f (fun p => rfl)).symm

/-- Of a double sum whose terms vanish off batch `b`, the part over batch `b`. -/
theorem sum_batch {M : Type*} [AddCommMonoid M] (b : Fin 8) (P : Fin 8 → Fin 100000 → Prop) [∀ b' n, Decidable (P b' n)]
    (g : Fin 8 → Fin 100000 → M) :
    (∑ b' : Fin 8, ∑ n : Fin 100000, if b' = b ∧ P b' n then g b' n else 0) = ∑ n : Fin 100000, if P b n then g b n else 0 := by
  rw [Finset.sum_eq_single b]
  · refine Finset.sum_congr rfl fun n _ => ?_
    simp only [true_and]
  · intro b' _ hne
    refine Finset.sum_eq_zero fun n _ => ?_
    rw [if_neg (fun h => hne h.1)]
  · intro h; exact absurd (Finset.mem_univ b) h

/-! ## The key and the features of a row -/

/-- The feature row of point `n` of batch `b` holds its channels. -/
theorem feat_row (x0 : (⟨S8x64x100000, .f32⟩ : BufTy).Contents (Elt Ideal)) (b : Fin 8) (n : Fin 100000) (c : Fin 64) :
    val_main_v45 (F := Ideal) x0 (ix2 (row b n) c) = x0 (ix3 b c n) := by
  rw [val_main_v45_apply, val_main_v44_apply]
  refine congrArg x0 (funext fun a => Fin.ext ?_)
  have hb := b.isLt; have hn := n.isLt; have hc := c.isLt
  match a with
  | ⟨0, _⟩ => show ((n.val + 100000 * b.val) * 64 + c.val) / 6400000 = b.val; omega
  | ⟨1, _⟩ => show ((n.val + 100000 * b.val) * 64 + c.val) % 64 = c.val; omega
  | ⟨2, _⟩ => show ((n.val + 100000 * b.val) * 64 + c.val) / 64 % 100000 = n.val; omega

/-- The key of point `n` of batch `b`, read signed, is the mixed-radix number of the batch and the three coordinates. -/
theorem key_row (x1 : (⟨S8x3x100000, .f32⟩ : BufTy).Contents (Elt Ideal)) (b : Fin 8) (n : Fin 100000) :
    (val_main_v47 (F := Ideal) x1 (ix2 (row b n) (0 : Fin 1))).toInt
      = ((((b.val * 32 + (val_main_v24 (F := Ideal) x1 (ix3 b (0 : Fin 3) n)).toNat) * 32
          + (val_main_v24 (F := Ideal) x1 (ix3 b (1 : Fin 3) n)).toNat) * 32
          + (val_main_v24 (F := Ideal) x1 (ix3 b (2 : Fin 3) n)).toNat : Nat) : Int) := by
  have hW := Cert.VoxRange.vox_inRange x1
  have hb := b.isLt; have hn := n.isLt
  rw [val_main_v47_apply, val_main_v43_apply, val_main_v42_apply, val_main_v39_apply, val_main_v34_apply,
    val_main_v33_apply, val_main_v28_apply, val_main_v26_apply, val_main_v25_apply, val_main_v27_apply,
    val_main_c_8_apply, val_main_v32_apply, val_main_v30_apply, val_main_v29_apply, val_main_v31_apply,
    val_main_c_9_apply, val_main_v38_apply, val_main_v36_apply, val_main_v35_apply, val_main_v37_apply,
    val_main_c_10_apply, val_main_v41_apply, val_main_v40_apply]
  have e0 : idx_main_v29 (idx_main_v30 (idx_main_v43 (idx_main_v47 (ix2 (row b n) (0 : Fin 1))))) = ix3 b (0 : Fin 3) n := by
    funext a; refine Fin.ext ?_
    match a with
    | ⟨0, _⟩ => show ((n.val + 100000 * b.val) / 100000 * 100000 + (n.val + 100000 * b.val) % 100000) / 100000 = b.val; omega
    | ⟨1, _⟩ => rfl
    | ⟨2, _⟩ => show ((n.val + 100000 * b.val) / 100000 * 100000 + (n.val + 100000 * b.val) % 100000) % 100000 = n.val; omega
  have e1 : idx_main_v35 (idx_main_v36 (idx_main_v43 (idx_main_v47 (ix2 (row b n) (0 : Fin 1))))) = ix3 b (1 : Fin 3) n := by
    funext a; refine Fin.ext ?_
    match a with
    | ⟨0, _⟩ => show ((n.val + 100000 * b.val) / 100000 * 100000 + (n.val + 100000 * b.val) % 100000) / 100000 = b.val; omega
    | ⟨1, _⟩ => rfl
    | ⟨2, _⟩ => show ((n.val + 100000 * b.val) / 100000 * 100000 + (n.val + 100000 * b.val) % 100000) % 100000 = n.val; omega
  have e2 : idx_main_v40 (idx_main_v41 (idx_main_v43 (idx_main_v47 (ix2 (row b n) (0 : Fin 1))))) = ix3 b (2 : Fin 3) n := by
    funext a; refine Fin.ext ?_
    match a with
    | ⟨0, _⟩ => show ((n.val + 100000 * b.val) / 100000 * 100000 + (n.val + 100000 * b.val) % 100000) / 100000 = b.val; omega
    | ⟨1, _⟩ => rfl
    | ⟨2, _⟩ => show ((n.val + 100000 * b.val) / 100000 * 100000 + (n.val + 100000 * b.val) % 100000) % 100000 = n.val; omega
  rw [e0, e1, e2]
  have eb : ((idx_main_v26 (idx_main_v33 (idx_main_v43 (idx_main_v47 (ix2 (row b n) (0 : Fin 1)))))) 0).val = b.val := by
    show (n.val + 100000 * b.val) / 100000 = b.val; omega
  rw [eb]
  exact key_toInt b.val hb _ _ _ (hW _) (hW _) (hW _)

end Cert.RefGrid

end
-- ==== Proof.LibScatterRows.lean ====
/-
  The accumulating scatter of rows, read at an element.

  An operand `[N, D]` receives `E` update rows `[E, D]`; row `e` is added onto the operand row whose number is the
  entry `(e, 0)` of an index column `[E, 1]`, read as a signed integer (a row whose index is negative or at least `N`
  is dropped). Over the extended reals the additions commute, so the element `(v, c)` of the result is the operand's
  element plus the sum, over the rows `e` whose index is `v`, of the update's element `(e, c)`. The same holds for
  a vector `[E]` of updates added onto a vector `[N]`.
-/
import Idealize.ShloMosaic.PureOps.Ideal
import Idealize.ShloMosaic.Lib.ValueIdx

noncomputable section

namespace Cert.ScatterRows

open Idealize.ShloMosaic Idealize.ShloMosaic.ValueIdx

/-! ## Rows `[E, D]` onto `[N, D]` -/

/-- The dimension numbers of a scatter of update rows `[E, D]` onto an operand `[N, D]` by an index column `[E, 1]`:
    the updates' axis 1 is the window axis, the operand's axis 0 is the scattered one, the index vector lies on the
    indices' axis 1. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)

/-- The window of update element `(e, c)` starts, on the operand's row axis, at the index `(e, 0)` read signed. -/
theorem rows_start_zero (j : (⟨2, ![E, D]⟩ : Shape).Idx) (idx : IVec ⟨2, ![E, 1]⟩ w) :
    (rowsDims N D E wf).start j idx 0 = (idx (ix2 (j 0) (0 : Fin 1))).toInt := by
  unfold ScatterDims.start
  rw [dif_pos (show (0 : Fin 2) ∈ (rowsDims N D E wf).scatterDimsToOperandDims from List.mem_singleton.mpr rfl)]
  have hsi : (rowsDims N D E wf).siIdx j ⟨List.idxOf (0 : Fin 2) (rowsDims N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and at `0` on the operand's column axis, which the index column does not name. -/
theorem rows_start_one (j : (⟨2, ![E, D]⟩ : Shape).Idx) (idx : IVec ⟨2, ![E, 1]⟩ w) :
    (rowsDims N D E wf).start j idx 1 = 0 := by
  unfold ScatterDims.start
  rw [dif_neg (show ¬ (1 : Fin 2) ∈ (rowsDims N D E wf).scatterDimsToOperandDims from
    (show (1 : Fin 2) ∉ ([0] : List (Fin 2)) by decide))]

/-- The window coordinate of update element `(e, c)` is `0` on the row axis … -/
theorem rows_window_zero (j : (⟨2, ![E, D]⟩ : Shape).Idx) : (rowsDims N D E wf).window j 0 = 0 := by
  unfold ScatterDims.window
  rw [dif_neg (show ¬ (0 : Fin 2) ∈ (rowsDims N D E wf).sKept from
    (show (0 : Fin 2) ∉ (List.finRange 2).filter (fun a => a ∉ ([0] : List (Fin 2))) by decide))]

/-- … and `c` on the column axis. -/
theorem rows_window_one (j : (⟨2, ![E, D]⟩ : Shape).Idx) : (rowsDims N D E wf).window j 1 = (j 1).val := by
  unfold ScatterDims.window
  rw [dif_pos (show (1 : Fin 2) ∈ (rowsDims N D E wf).sKept from
    (show (1 : Fin 2) ∈ (List.finRange 2).filter (fun a => a ∉ ([0] : List (Fin 2))) by decide))]
  rfl

/-- WHERE AN UPDATE ELEMENT LANDS: element `(e, c)` of the updates lands on element `(v, c')` of the operand exactly
    when the index `(e, 0)`, read signed, is `v` and `c = c'`. -/
theorem rows_resultIdx?_eq_some_iff (j : (⟨2, ![E, D]⟩ : Shape).Idx) (idx : IVec ⟨2, ![E, 1]⟩ w)
    (i : (⟨2, ![N, D]⟩ : Shape).Idx) :
    (rowsDims N D E wf).resultIdx? j idx = some i ↔
      (idx (ix2 (j 0) (0 : Fin 1))).toInt = ((i 0).val : Int) ∧ (j 1).val = (i 1).val := by
  unfold ScatterDims.resultIdx?
  have h0 := rows_start_zero wf j idx
  have h1 := rows_start_one wf j idx
  have w0 := rows_window_zero wf j
  have w1 := rows_window_one wf j
  have hi0 : (i 0).val < N := idx2_lt0 i
  have hi1 : (i 1).val < D := idx2_lt1 i
  split
  · rename_i h
    rw [Option.some.injEq]
    constructor
    · intro hE
      have e0 := congrArg (fun k => (k 0).val) hE
      have e1 := congrArg (fun k => (k 1).val) hE
      simp only [h0, h1, w0, w1] at e0 e1
      have g0 := (h 0).1
      rw [h0, w0] at g0
      constructor <;> omega
    · rintro ⟨e0, e1⟩
      funext a; refine Fin.ext ?_
      match a with
      | ⟨0, _⟩ => show ((rowsDims N D E wf).start j idx 0 + ((rowsDims N D E wf).window j 0 : Int)).toNat = (i 0).val; rw [h0, w0]; omega
      | ⟨1, _⟩ => show ((rowsDims N D E wf).start j idx 1 + ((rowsDims N D E wf).window j 1 : Int)).toNat = (i 1).val; rw [h1, w1]; omega
  · rename_i h
    constructor
    · intro hE; exact absurd hE (by simp)
    · rintro ⟨e0, e1⟩
      exfalso; apply h
      intro a
      match a with
      | ⟨0, _⟩ =>
        show 0 ≤ (rowsDims N D E wf).start j idx 0 + ((rowsDims N D E wf).window j 0 : Int) ∧ (rowsDims N D E wf).start j idx 0 + ((rowsDims N D E wf).window j 0 : Int) < (N : Int)
        rw [h0, w0]; omega
      | ⟨1, _⟩ =>
        show 0 ≤ (rowsDims N D E wf).start j idx 1 + ((rowsDims N D E wf).window j 1 : Int) ∧ (rowsDims N D E wf).start j idx 1 + ((rowsDims N D E wf).window j 1 : Int) < (D : Int)
        rw [h1, w1]; omega

/-- THE SCATTER OF ROWS READ AT `(v, c)`: the operand there plus the sum, over the rows `e` whose index `(e, 0)` read
    signed is `v`, of the update at `(e, c)`. -/
theorem hostScatterAdd_rows_apply (x : (⟨2, ![N, D]⟩ : Shape).Idx → EReal) (idx : IVec ⟨2, ![E, 1]⟩ w)
    (upd : (⟨2, ![E, D]⟩ : Shape).Idx → EReal) (v : Fin N) (c : Fin D) :
    Ideal.hostScatterAdd (rowsDims N D E wf) x idx upd (ix2 v c)
      = x (ix2 v c) + ∑ e : Fin E, if (idx (ix2 e (0 : Fin 1))).toInt = (v.val : Int) then upd (ix2 e c) else 0 := by
  unfold Ideal.hostScatterAdd
  congr 1
  rw [Finset.sum_filter, sum_idx2]
  refine Finset.sum_congr rfl fun e _ => ?_
  have hiff : ∀ c' : Fin D, ((rowsDims N D E wf).resultIdx? (ix2 e c') idx = some (ix2 v c)) ↔
      ((idx (ix2 e (0 : Fin 1))).toInt = (v.val : Int) ∧ c' = c) := by
    intro c'
    rw [rows_resultIdx?_eq_some_iff]
    exact and_congr Iff.rfl Fin.val_inj
  simp only [hiff]
  by_cases hv : (idx (ix2 e (0 : Fin 1))).toInt = (v.val : Int)
  · simp only [hv, true_and, if_true]
    rw [Finset.sum_ite_eq' Finset.univ c (fun c' => upd (ix2 e c'))]
    simp
  · simp only [hv, false_and, if_false]
    exact Finset.sum_const_zero

/-- The same for the program's operation `Host.scatterAdd`, which at the ideal values is that exact sum. -/
theorem scatterAdd_rows_apply {φ : FTy} (x : (⟨2, ![N, D]⟩ : Shape).Idx → EReal) (idx : IVec ⟨2, ![E, 1]⟩ w)
    (upd : (⟨2, ![E, D]⟩ : Shape).Idx → EReal) (v : Fin N) (c : Fin D) :
    Host.scatterAdd (F := Ideal) (φ := φ) (rowsDims N D E wf) x idx upd (ix2 v c)
      = x (ix2 v c) + ∑ e : Fin E, if (idx (ix2 e (0 : Fin 1))).toInt = (v.val : Int) then upd (ix2 e c) else 0 :=
  hostScatterAdd_rows_apply wf x idx upd v c

end Rows

/-! ## A vector `[E]` onto `[N]` -/

/-- The dimension numbers of a scatter of update entries `[E]` onto an operand `[N]` by an index column `[E, 1]`: no
    window axis, the operand's only axis is the scattered one, the index vector lies on the indices' axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- The window of update entry `e` starts at the index `(e, 0)` read signed. -/
theorem vec_start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Its window coordinate is `0`: the operand's axis is an inserted one. -/
theorem vec_window_zero (j : (⟨1, ![E]⟩ : Shape).Idx) : (vecDims N E wf).window j 0 = 0 := by
  unfold ScatterDims.window
  rw [dif_neg (show ¬ (0 : Fin 1) ∈ (vecDims N E wf).sKept from
    (show (0 : Fin 1) ∉ (List.finRange 1).filter (fun a => a ∉ ([0] : List (Fin 1))) by decide))]

/-- WHERE AN UPDATE ENTRY LANDS: entry `e` lands on entry `v` of the operand exactly when the index `(e, 0)`, read
    signed, is `v`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) (0 : Fin 1))).toInt = ((i 0).val : Int) := by
  unfold ScatterDims.resultIdx?
  have h0 := vec_start_zero wf j idx
  have w0 := vec_window_zero wf j
  have hi0 : (i 0).val < N := (i 0).isLt
  split
  · rename_i h
    rw [Option.some.injEq]
    constructor
    · intro hE
      have e0 := congrArg (fun k => (k 0).val) hE
      simp only [h0, w0] at e0
      have g0 := (h 0).1
      rw [h0, w0] at g0
      omega
    · intro e0
      funext a; refine Fin.ext ?_
      match a with
      | ⟨0, _⟩ => show ((vecDims N E wf).start j idx 0 + ((vecDims N E wf).window j 0 : Int)).toNat = (i 0).val; rw [h0, w0]; omega
  · rename_i h
    constructor
    · intro hE; exact absurd hE (by simp)
    · intro e0
      exfalso; apply h
      intro a
      match a with
      | ⟨0, _⟩ =>
        show 0 ≤ (vecDims N E wf).start j idx 0 + ((vecDims N E wf).window j 0 : Int) ∧ (vecDims N E wf).start j idx 0 + ((vecDims N E wf).window j 0 : Int) < (N : Int)
        rw [h0, w0]; omega

/-- THE SCATTER OF A VECTOR READ AT `v`: the operand there plus the sum, over the entries `e` whose index `(e, 0)`
    read signed is `v`, of the update at `e`. -/
theorem hostScatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v)
      = x (ix1 v) + ∑ e : Fin E, if (idx (ix2 e (0 : Fin 1))).toInt = (v.val : Int) then upd (ix1 e) else 0 := by
  unfold Ideal.hostScatterAdd
  congr 1
  rw [Finset.sum_filter]
  have hsum : ∀ f : (⟨1, ![E]⟩ : Shape).Idx → EReal, ∑ j, f j = ∑ e : Fin E, f (ix1 e) := by
    intro f
    refine (Fintype.sum_equiv ⟨fun e : Fin E => (ix1 e : (⟨1, ![E]⟩ : Shape).Idx), fun j => j 0, fun _ => rfl,
      fun j => (eq_ix1 j).symm⟩ _ _ (fun _ => rfl)).symm
  rw [hsum]
  refine Finset.sum_congr rfl fun e _ => ?_
  have hiff : ((vecDims N E wf).resultIdx? (ix1 e) idx = some (ix1 v)) ↔
      ((idx (ix2 e (0 : Fin 1))).toInt = (v.val : Int)) := by
    exact vec_resultIdx?_eq_some_iff wf (ix1 e) idx (ix1 v)
  simp only [hiff]

/-- The same for the program's operation `Host.scatterAdd`, which at the ideal values is that exact sum. -/
theorem scatterAdd_vec_apply {φ : FTy} (x : (⟨1, ![N]⟩ : Shape).Idx → EReal) (idx : IVec ⟨2, ![E, 1]⟩ w)
    (upd : (⟨1, ![E]⟩ : Shape).Idx → EReal) (v : Fin N) :
    Host.scatterAdd (F := Ideal) (φ := φ) (vecDims N E wf) x idx upd (ix1 v)
      = x (ix1 v) + ∑ e : Fin E, if (idx (ix2 e (0 : Fin 1))).toInt = (v.val : Int) then upd (ix1 e) else 0 :=
  hostScatterAdd_vec_apply wf x idx upd v

end Vec

end Cert.ScatterRows

end
-- ==== Proof.RefGrid.lean ====
/-
  The reference's voxel grid is the specification's.

  Row `e = b' · 100000 + n` of the flattened points lands on row `((b · 32 + x) · 32 + y) · 32 + z` of the flattened grid
  exactly when `b' = b` and point `n` of batch `b` lies in voxel `(x, y, z)`. The two accumulating scatters therefore
  add, onto that row, exactly the features (respectively a `1`) of the points of batch `b` lying in the voxel; the
  final reshape and transpose read that row at channel `c`.
-/
import proofs.«129199_j15135464751874_2_alg».proof.Proof.RefKey
import proofs.«129199_j15135464751874_2_alg».proof.Proof.LibScatterRows

noncomputable section

namespace Cert.RefGrid

open Idealize.ShloMosaic Idealize.ShloMosaic.ValueIdx Cert.ReferenceIdeal Cert.ReferenceIdeal.Read Cert.VoxelSpec
  Cert.ScatterRows

/-! ## The two scatters -/

/-- The f32 literal `1.0` is the extended real `1`. -/
theorem ofBits_one_f32 : Ideal.ofBits .f32 0x3F800000#32 = 1 := by
  simp [Ideal.ofBits, Ideal.ieee, -EReal.coe_mul]; norm_num

/-- Point `n` of batch `b'` lands on the row of voxel `(x, y, z)` of batch `b` exactly when `b' = b` and the point lies in
    that voxel. -/
theorem lands_iff (x1 : (⟨S8x3x100000, .f32⟩ : BufTy).Contents (Elt Ideal)) (b' b : Fin 8) (x y z : Fin 32)
    (n : Fin 100000) :
    (val_main_v47 (F := Ideal) x1 (ix2 (row b' n) (0 : Fin 1))).toInt = (((vrow b x y z).val : Nat) : Int) ↔
      b' = b ∧ inVoxel (val_main_v24 (F := Ideal) x1) b' x y z n := by
  have hW := Cert.VoxRange.vox_inRange x1
  rw [key_row]
  exact (key_eq_iff b'.val b.val b'.isLt b.isLt _ _ _ x.val y.val z.val (hW (ix3 b' (0 : Fin 3) n))
    (hW (ix3 b' (1 : Fin 3) n)) (hW (ix3 b' (2 : Fin 3) n)) x.isLt y.isLt z.isLt).trans (and_congr Fin.val_inj Iff.rfl)

/-- The first scatter's dimension numbers are the scatter of rows' at these extents. -/
theorem rows_dims_eq : scatter_S262144x64_S800000x1_S800000x64_1_0_0_1
    = rowsDims 262144 64 800000 Facts₀.scatter_S262144x64_S800000x1_S800000x64_1_0_0_1_wf := rfl

/-- The second scatter's dimension numbers are the scatter of a vector's at these extents. -/
theorem vec_dims_eq : scatter_S262144_S800000x1_S800000_n_0_0_1
    = vecDims 262144 800000 Facts₀.scatter_S262144_S800000x1_S800000_n_0_0_1_wf := rfl

/-- THE SUMS: the first scatter, at the row of voxel `(x, y, z)` of batch `b` and channel `c`, is the sum of channel `c`
    over the points of batch `b` lying in that voxel. -/
theorem sums_eq (x0 : (⟨S8x64x100000, .f32⟩ : BufTy).Contents (Elt Ideal))
    (x1 : (⟨S8x3x100000, .f32⟩ : BufTy).Contents (Elt Ideal)) (b : Fin 8) (c : Fin 64) (x y z : Fin 32) :
    val_main_v48 (F := Ideal) x0 x1 (ix2 (vrow b x y z) c) = voxSum (val_main_v24 (F := Ideal) x1) x0 b c x y z := by
  unfold val_main_v48
  rw [rows_dims_eq, scatterAdd_rows_apply, val_main_v46_apply, val_main_cst_11_apply, Ideal.ofBits_def,
    Ideal.ofBits_zero_f32, zero_add, sum_rows]
  unfold voxSum
  refine Eq.trans ?_ (sum_batch b (fun b' n => inVoxel (val_main_v24 (F := Ideal) x1) b' x y z n)
    (fun b' n => x0 (ix3 b' c n)))
  refine Finset.sum_congr rfl fun b' _ => Finset.sum_congr rfl fun n _ => ?_
  rw [feat_row]
  exact if_congr (lands_iff x1 b' b x y z n) rfl rfl

/-- THE COUNTS: the second scatter, at the row of voxel `(x, y, z)` of batch `b`, is the number of points of batch `b`
    lying in that voxel. -/
theorem counts_eq (x1 : (⟨S8x3x100000, .f32⟩ : BufTy).Contents (Elt Ideal)) (b : Fin 8) (x y z : Fin 32) :
    val_main_v52 (F := Ideal) x1 (ix1 (vrow b x y z)) = voxCount (val_main_v24 (F := Ideal) x1) b x y z := by
  have h51 : val_main_v51 (F := Ideal) x1 = val_main_v47 (F := Ideal) x1 := rfl
  unfold val_main_v52
  rw [vec_dims_eq, scatterAdd_vec_apply, h51, val_main_v50_apply, val_main_cst_13_apply, Ideal.ofBits_def,
    Ideal.ofBits_zero_f32, zero_add, sum_rows]
  unfold voxCount
  refine Eq.trans ?_ (sum_batch b (fun b' n => inVoxel (val_main_v24 (F := Ideal) x1) b' x y z n)
    (fun _ _ => (1 : EReal)))
  refine Finset.sum_congr rfl fun b' _ => Finset.sum_congr rfl fun n _ => ?_
  rw [val_main_v49_apply, val_main_cst_12_apply, Ideal.ofBits_def, ofBits_one_f32]
  exact if_congr (lands_iff x1 b' b x y z n) rfl rfl

/-! ## The grid -/

/-- THE REFERENCE'S RESULT IS THE SPECIFICATION'S GRID of its own voxel coordinates and the features. -/
theorem ref_grid (x0 : (⟨S8x64x100000, .f32⟩ : BufTy).Contents (Elt Ideal))
    (x1 : (⟨S8x3x100000, .f32⟩ : BufTy).Contents (Elt Ideal)) :
    val_main_v59 (F := Ideal) x0 x1 = grid (val_main_v24 (F := Ideal) x1) x0 := by
  funext i
  obtain ⟨b, c, x, y, z, rfl⟩ : ∃ (b : Fin 8) (c : Fin 64) (x y z : Fin 32), i = ix5 b c x y z :=
    ⟨_, _, _, _, _, eq_ix5 i⟩
  have hb := b.isLt; have hc := c.isLt; have hx := x.isLt; have hy := y.isLt; have hz := z.isLt
  rw [val_main_v59_apply, val_main_v58_apply, val_main_v57_apply, Ideal.hostDivf_def]
  have hq : idx_main_v58 (idx_main_v59 (ix5 b c x y z)) = ix2 (vrow b x y z) c := by
    funext a; refine Fin.ext ?_
    match a with
    | ⟨0, _⟩ =>
      show ((((b.val * 32 + x.val) * 32 + y.val) * 32 + z.val) * 64 + c.val) / 64
        = ((b.val * 32 + x.val) * 32 + y.val) * 32 + z.val
      omega
    | ⟨1, _⟩ =>
      show ((((b.val * 32 + x.val) * 32 + y.val) * 32 + z.val) * 64 + c.val) % 64 = c.val
      omega
  rw [hq, sums_eq, val_main_v56_apply, val_main_v55_apply, val_main_v54_apply, Ideal.maximumf_def, val_main_v53_apply,
    val_main_cst_14_apply, Ideal.ofBits_def, ofBits_one_f32]
  have hq2 : idx_main_v55 (idx_main_v56 (ix2 (vrow b x y z) c)) = ix1 (vrow b x y z) := by
    funext a
    match a with
    | ⟨0, _⟩ => rfl
  rw [hq2, counts_eq]
  rfl

end Cert.RefGrid

end
-- ==== Proof.KernelTail.lean ====
/-
  The kernel's last host operation and the buffers its result is read from.

  After the pipelined region the program reshapes the region's output array `[8, 64, 32, 1024]` to the grid
  `[8, 64, 32, 32, 32]`: element `(b, c, x, y, z)` of the result is element `(b, c, x, 32 · y + z)` of the array, the two
  shapes listing the same elements in row-major order. The clipped coordinates are written before the region and
  touched by nothing after it.
-/
import proofs.«129199_j15135464751874_2_alg».proof.Proof.Gen.KernelIdeal.Frame
import proofs.«129199_j15135464751874_2_alg».proof.Proof.Spec
import Idealize.ShloMosaic.Lib.Pipeline.Value
import Idealize.ShloMosaic.Lib.ValueIdx

noncomputable section

namespace Cert.KernelIdeal.Tail

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Idealize.ShloMosaic.StableHlo

variable (m : (ℓ : Loc nD τ sig) → Buf (Elt Ideal) ℓ) (ρ : Dev nD → PrngReg)

/-! ## The two buffers after the last host operation -/

/-- The clipped coordinates end as the region found them. -/
theorem tail_coords (c : Dev nD) :
    Pipeline.afterTail₀ cfgs (dats m) 0 (V0 m) [hostOps1] c main_v22 = V m c main_v22 := by
  unfold Pipeline.afterTail₀
  rw [StableHlo.after_of_forall_not_mem (b := Proc.devRef .tc main_v22) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v22 (by exact (by decide : ∀ w, Pipeline.arrRef spec0 w ≠ main_v22))]

/-- The grid is the region's output array reshaped. -/
theorem tail_grid (c : Dev nD) :
    Pipeline.afterTail₀ cfgs (dats m) 0 (V0 m) [hostOps1] c main_v40
      = shapeCast S8x64x32x32x32 ((dats m 0 c).arrAt 3 (cfgs 0).N) shapeCasts_S8x64x32x1024_S8x64x32x32x32 := by
  unfold Pipeline.afterTail₀
  show StableHlo.after hostOps1 _ (Proc.devRef .tc main_v40) = _
  after_results
  rw [Pipeline.withArrays_arr spec0 launch0.win.arr_inj c _ _ 3]
  generalize (dats m 0 c).arrAt 3 (cfgs 0).N = A
  rfl

/-- The reshape read at an index: element `(b, ch, x, y, z)` of the grid is element `(b, ch, x, 32 · y + z)` of the array. -/
theorem shapeCast_grid_apply (A : S8x64x32x1024.Idx → EReal) (b : Fin 8) (ch : Fin 64) (x y z : Fin 32) :
    shapeCast S8x64x32x32x32 A shapeCasts_S8x64x32x1024_S8x64x32x32x32 (ix5 b ch x y z)
      = A (ix4 b ch x (Cert.VoxelSpec.cell y z)) := by
  have hb := b.isLt; have hc := ch.isLt; have hx := x.isLt; have hy := y.isLt; have hz := z.isLt
  refine shapeCast_apply A shapeCasts_S8x64x32x1024_S8x64x32x32x32 (ix5 b ch x y z) (ix4 b ch x (Cert.VoxelSpec.cell y z)) ?_
  rewrite [Shape.rowMajor_val_four, Shape.rowMajor_val_five]
  show ((b.val * 64 + ch.val) * 32 + x.val) * 1024 + (y.val * 32 + z.val)
    = (((b.val * 64 + ch.val) * 32 + x.val) * 32 + y.val) * 32 + z.val
  omega

/-- The grid read at `(b, ch, x, y, z)`: the region's output array at `(b, ch, x, 32 · y + z)`. -/
theorem tail_grid_apply (c : Dev nD) (b : Fin 8) (ch : Fin 64) (x y z : Fin 32) :
    Pipeline.afterTail₀ cfgs (dats m) 0 (V0 m) [hostOps1] c main_v40 (ix5 b ch x y z)
      = (dats m 0 c).arrAt 3 (cfgs 0).N (ix4 b ch x (Cert.VoxelSpec.cell y z)) := by
  rw [tail_grid]
  generalize (dats m 0 c).arrAt 3 (cfgs 0).N = A
  exact shapeCast_grid_apply A b ch x y z

/-! ## The run -/

/-- THE RUN READ: every weakly fair execution of the program from memory `m` with zero counters terminates, and in
    every final state the grid's buffer and the clipped coordinates' hold what the last host operation leaves, the
    two arguments what they held. -/
theorem kernel_run_named :
    θ_run defs (onTc (τ := τ) (main (F := Ideal))) ⟨m, fun _ => 0, ρ⟩ (fun r => ∀ c : Dev nD,
      r.2.mem ((c.tc : Thread nD τ).loc main_v40) = Pipeline.afterTail₀ cfgs (dats m) 0 (V0 m) [hostOps1] c main_v40
      ∧ r.2.mem ((c.tc : Thread nD τ).loc main_v22) = Pipeline.afterTail₀ cfgs (dats m) 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v40 (Pipeline.mem_restRefs_of main_v40 (by decide) (by decide)),
      (h c).2 main_v22 (Pipeline.mem_restRefs_of main_v22 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.OutputCover.lean ====
/-
  The output array after the run, from what the output's staging buffer holds at the write-backs.

  The grid has 8 · 25 points; point t works on batch t / 25 and on block t % 25 of that batch's points. The output
  array has shape [8, 64, 32, 1024] and its window's block is one batch: shape [1, 64, 32, 1024] at block index
  (t / 25, 0, 0, 0). The block is written back only at the last block of a batch, t % 25 = 24. So if at every such
  point the staging buffer holds, at (0, ch, x, yz), the value G (t / 25, ch, x, yz) of one function G on the whole
  array, then the array ends holding G: entry (b, ch, x, yz) lies in the block written back at the point 25 b + 24,
  and an element of a block sits in the array, on each axis, at the block index times the block's size plus its own
  coordinate.
-/
import proofs.«129199_j15135464751874_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutValue

open Cert.KernelIdeal Cert.KernelIdeal.Gen

variable {F : FTy → Type} [FloatOps F]
variable (m : (ℓ : Loc nD τ sig) → Buf (Elt F) ℓ)

/-- The batch of a grid point is one of the 8 batches. -/
theorem batch_lt (t : Fin cfg0.N) : t.val / 25 < 8 := by
  have hN : cfg0.N = 200 := N_0
  have := t.isLt
  omega

/-- The output window's block index at point `t` is `(t / 25, 0, 0, 0)`: decided over the grid. -/
theorem idx_facts : ∀ t : Fin cfg0.N, win0_3.index t (0 : Fin 4) = t.val / 25 ∧ win0_3.index t (1 : Fin 4) = 0
    ∧ win0_3.index t (2 : Fin 4) = 0 ∧ win0_3.index t (3 : Fin 4) = 0 :=
  (by decide +kernel : ∀ t : Fin grid0.N, _)

/-- What a write-back point writes is its block of `G`: the staging buffer at `(u, ch, x, yz)` sits in the array at
    `(t / 25, ch, x, yz)`. -/
theorem flushed_eq (c : Dev nD) (G : Buf (Elt F) ((c : Thread nD τ).loc main_v39))
    (hG : ∀ (t : Fin cfg0.N), t.val % 25 = 24 → ∀ (u : Fin 1) (ch : Fin 64) (x : Fin 32) (yz : Fin 1024),
      (outsAt0 m c t.val t.isLt).1 (ix4 u ch x yz)
        = (G : S8x64x32x1024.Idx → Elt F .f32) (ix4 (⟨t.val / 25, batch_lt t⟩ : Fin 8) ch x yz))
    (t : Fin cfg0.N) (hf : (cfg0.win 3).flush t = true) :
    (dats m 0 c).flushed 3 t = ((cfg0.win 3).blk t).view.read (Elt F) G := by
  have h24 : t.val % 25 = 24 := (flush0_3 t).mp hf
  obtain ⟨e0, e1, e2, e3⟩ := idx_facts t
  show (cfg0.win 3).cut (grid0.coords t) ((dats m 0 c).after 3 t) = _
  rw [after0_3]
  funext y
  rw [View.read_apply]
  have hy : (cfg0.win 3).xinj (grid0.coords t) y = ix4 (y 0) (y 1) (y 2) (y 3) := by
    funext a
    match a with
    | ⟨0, _⟩ => rfl
    | ⟨1, _⟩ => rfl
    | ⟨2, _⟩ => rfl
    | ⟨3, _⟩ => rfl
  have he : ((cfg0.win 3).blk t).view.emb y = ix4 (⟨t.val / 25, batch_lt t⟩ : Fin 8) (y 1) (y 2) (y 3) := by
    funext a
    apply Fin.ext
    match a with
    | ⟨0, _⟩ =>
      show win0_3.index t (0 : Fin 4) * 1 + 1 * (y 0).val = t.val / 25
      have h0 : (y 0).val < 1 := (y 0).isLt
      omega
    | ⟨1, _⟩ =>
      show win0_3.index t (1 : Fin 4) * 64 + 1 * (y 1).val = (y 1).val
      omega
    | ⟨2, _⟩ =>
      show win0_3.index t (2 : Fin 4) * 32 + 1 * (y 2).val = (y 2).val
      omega
    | ⟨3, _⟩ =>
      show win0_3.index t (3 : Fin 4) * 1024 + 1 * (y 3).val = (y 3).val
      omega
  show (outsAt0 m c t.val t.isLt).1 ((cfg0.win 3).xinj (grid0.coords t) y) = G (((cfg0.win 3).blk t).view.emb y)
  exact (congrArg (outsAt0 m c t.val t.isLt).1 hy).trans
    ((hG t h24 (y 0) (y 1) (y 2) (y 3)).trans (congrArg G he.symm))

/-- An index of the array is in point `t`'s block iff each coordinate is in the block's range on its axis. -/
theorem mem_blk (t : Fin cfg0.N) (i : S8x64x32x1024.Idx) :
    i ∈ ((cfg0.win 3).blk t).view.set ↔ ∀ a : Fin 4, win0_3.index t a * S1x64x32x1024.size a ≤ (i a).val
      ∧ (i a).val < win0_3.index t a * S1x64x32x1024.size a + S1x64x32x1024.size a := by
  show i ∈ ((View.whole main_v39).slice (win0_3.rect t)).set ↔ _
  rw [View.set_slice_whole, Rect.mem_set_unit]
  exact Iff.rfl

/-- Every entry of the array lies in the block written back at the last point of its batch. -/
theorem cover (i : S8x64x32x1024.Idx) :
    ∃ t : Fin cfg0.N, (cfg0.win 3).flush t = true ∧ i ∈ ((cfg0.win 3).blk t).view.set := by
  have hN : cfg0.N = 200 := N_0
  have h0 : (i 0).val < 8 := (i 0).isLt
  have h1 : (i 1).val < 64 := (i 1).isLt
  have h2 : (i 2).val < 32 := (i 2).isLt
  have h3 : (i 3).val < 1024 := (i 3).isLt
  obtain ⟨t, ht⟩ : ∃ t : Fin cfg0.N, t.val = 25 * (i 0).val + 24 := ⟨⟨25 * (i 0).val + 24, by omega⟩, rfl⟩
  obtain ⟨e0, e1, e2, e3⟩ := idx_facts t
  refine ⟨t, (flush0_3 t).mpr (by omega), ?_⟩
  rw [mem_blk]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 64 ≤ (i 1).val ∧ (i 1).val < win0_3.index t (1 : Fin 4) * 64 + 64
    omega
  | ⟨2, _⟩ =>
    show win0_3.index t (2 : Fin 4) * 32 ≤ (i 2).val ∧ (i 2).val < win0_3.index t (2 : Fin 4) * 32 + 32
    omega
  | ⟨3, _⟩ =>
    show win0_3.index t (3 : Fin 4) * 1024 ≤ (i 3).val ∧ (i 3).val < win0_3.index t (3 : Fin 4) * 1024 + 1024
    omega

/-- The output array ends holding `G`, when every write-back point's staging buffer holds its batch of `G`. -/
theorem arrAt_out (c : Dev nD) (G : Buf (Elt F) ((c : Thread nD τ).loc main_v39))
    (hG : ∀ (t : Fin cfg0.N), t.val % 25 = 24 → ∀ (u : Fin 1) (ch : Fin 64) (x : Fin 32) (yz : Fin 1024),
      (outsAt0 m c t.val t.isLt).1 (ix4 u ch x yz)
        = (G : S8x64x32x1024.Idx → Elt F .f32) (ix4 (⟨t.val / 25, batch_lt t⟩ : Fin 8) ch x yz)) :
    (dats m 0 c).arrAt 3 cfg0.N = G :=
  (dats m 0 c).arrAt_eq_of_cover 3 G (flushed_eq m c G hG) cover

end Cert.KernelIdeal.OutValue

end
-- ==== Proof.KernelGrid.lean ====
/-
  The kernel's result is the specification's grid, once the output's staging buffer is known at the write-backs.

  The region's output array `[8, 64, 32, 1024]` is written back one batch at a time, at the last block of each batch.
  If at each of those points the staging buffer holds, at `(0, ch, x, 32 · y + z)`, the grid's value at
  `(batch, ch, x, y, z)`, the array ends holding the grid with its last two axes merged — every `yz < 1024` is
  `32 · (yz / 32) + yz % 32` — and the final reshape splits them again.
-/
import proofs.«129199_j15135464751874_2_alg».proof.Proof.KernelTail
import proofs.«129199_j15135464751874_2_alg».proof.Proof.OutputCover
import proofs.«129199_j15135464751874_2_alg».proof.Proof.Spec

noncomputable section

namespace Cert.KernelIdeal.Tail

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.VoxelSpec

variable (m : (ℓ : Loc nD τ sig) → Buf (Elt Ideal) ℓ)

/-- The grid with its last two axes merged: entry `(b, ch, x, yz)` is the grid's at `(b, ch, x, yz / 32, yz % 32)`. -/
def merged (W : SVox.Idx → BitVec 32) (feat : SFeat.Idx → EReal) : S8x64x32x1024.Idx → EReal := fun i =>
  grid W feat (ix5 (⟨(i 0).val, (i 0).isLt⟩ : Fin 8) (⟨(i 1).val, (i 1).isLt⟩ : Fin 64) (⟨(i 2).val, (i 2).isLt⟩ : Fin 32)
    (⟨(i 3).val / 32, by have h : (i 3).val < 1024 := (i 3).isLt; omega⟩ : Fin 32)
    (⟨(i 3).val % 32, by omega⟩ : Fin 32))

/-- Every in-plane cell is the cell of its quotient and remainder by `32`. -/
theorem cell_div_mod (yz : Fin 1024) :
    cell (⟨yz.val / 32, by have h := yz.isLt; omega⟩ : Fin 32) (⟨yz.val % 32, by omega⟩ : Fin 32) = yz :=
  Fin.ext (by show yz.val / 32 * 32 + yz.val % 32 = yz.val; omega)

/-- The merged grid at a cell `32 · y + z` is the grid at `(y, z)`. -/
theorem merged_cell (W : SVox.Idx → BitVec 32) (feat : SFeat.Idx → EReal) (b : Fin 8) (ch : Fin 64) (x y z : Fin 32) :
    merged W feat (ix4 b ch x (cell y z)) = grid W feat (ix5 b ch x y z) := by
  have hy := y.isLt; have hz := z.isLt
  unfold merged
  refine congrArg (grid W feat) (funext fun a => Fin.ext ?_)
  match a with
  | ⟨0, _⟩ => rfl
  | ⟨1, _⟩ => rfl
  | ⟨2, _⟩ => rfl
  | ⟨3, _⟩ => show (y.val * 32 + z.val) / 32 = y.val; omega
  | ⟨4, _⟩ => show (y.val * 32 + z.val) % 32 = z.val; omega

/-- THE KERNEL'S RESULT IS THE GRID, given the staging buffer at the write-back points. -/
theorem tail_is_grid (c : Dev nD) (W : SVox.Idx → BitVec 32) (feat : SFeat.Idx → EReal)
    (hout : ∀ (t : Fin cfg0.N), t.val % 25 = 24 → ∀ (u : Fin 1) (ch : Fin 64) (x y z : Fin 32),
      (outsAt0 m c t.val t.isLt).1 (ix4 u ch x (cell y z))
        = grid W feat (ix5 (⟨t.val / 25, Cert.KernelIdeal.OutValue.batch_lt t⟩ : Fin 8) ch x y z)) :
    Pipeline.afterTail₀ cfgs (dats m) 0 (V0 m) [hostOps1] c main_v40 = grid W feat := by
  have hA : (dats m 0 c).arrAt 3 cfg0.N = merged W feat := by
    refine Cert.KernelIdeal.OutValue.arrAt_out m c (merged W feat) ?_
    intro t ht u ch x yz
    have h := hout t ht u ch x (⟨yz.val / 32, by have h := yz.isLt; omega⟩ : Fin 32) (⟨yz.val % 32, by omega⟩ : Fin 32)
    rw [cell_div_mod yz] at h
    refine h.trans ?_
    have h2 := merged_cell W feat (⟨t.val / 25, Cert.KernelIdeal.OutValue.batch_lt t⟩ : Fin 8) ch x
      (⟨yz.val / 32, by have h := yz.isLt; omega⟩ : Fin 32) (⟨yz.val % 32, by omega⟩ : Fin 32)
    rw [cell_div_mod yz] at h2
    exact h2.symm
  have hN : (cfgs 0).N = cfg0.N := rfl
  have hA' : (dats m 0 c).arrAt 3 (cfgs 0).N = merged W feat :=
    (congrArg (fun n => (dats m 0 c).arrAt 3 n) hN).trans hA
  have key : ∀ i : S8x64x32x32x32.Idx,
      (Pipeline.afterTail₀ cfgs (dats m) 0 (V0 m) [hostOps1] c main_v40 : S8x64x32x32x32.Idx → EReal) i = grid W feat i := by
    intro i
    obtain ⟨b, ch, x, y, z, rfl⟩ : ∃ (b : Fin 8) (ch : Fin 64) (x y z : Fin 32), i = ix5 b ch x y z :=
      ⟨_, _, _, _, _, eq_ix5 i⟩
    rw [tail_grid_apply, hA']
    exact merged_cell W feat b ch x y z
  exact funext key

end Cert.KernelIdeal.Tail

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.BodyAlgebra.lean ====
/-
  One grouped product of the kernel body, read at an index at the exact extended reals.

  The body multiplies the in-plane one-hot matrix `OY : [1024, 4096]` against the concatenation, along the rows, of four
  masked feature matrices `P0 … P3 : [64, 4096]` (rows against rows, into a zero accumulator), and adds the four
  `[1024, 64]` column bands of the `[1024, 256]` product to four planes of the accumulator. Band `j` of the product at
  `(yz, c)` is the sum over the points `p` of `OY (yz, p) * P_j (c, p)`. A masked feature matrix is the feature matrix
  times one row of the plane one-hot matrix broadcast down the channels: at `(c, p)` it is `FE (c, p) * OX (k, p)`.
-/
import proofs.«129199_j15135464751874_2_alg».proof.Proof.Gen.KernelIdeal.Skeleton
import proofs.«129199_j15135464751874_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

variable [hK : Cert.KernelIdeal.Facts]

/-- The four pieces laid along the rows, as the concatenation takes them. -/
abbrev four (P0 P1 P2 P3 : FVec Ideal S64x4096 .bf16) : List ((s : Shape) × (s.Idx → Ideal .bf16)) :=
  [⟨S64x4096, P0⟩, ⟨S64x4096, P1⟩, ⟨S64x4096, P2⟩, ⟨S64x4096, P3⟩]

/-- Row `64 j + c` of the concatenation is row `c` of piece `j`. -/
theorem concat4_apply (P0 P1 P2 P3 : FVec Ideal S64x4096 .bf16)
    (hc : Shape.Concatenates ((four P0 P1 P2 P3).map (·.1)) S256x4096 0)
    (j : Nat) (hj : j < 4) (Pj : FVec Ideal S64x4096 .bf16) (hPj : (four P0 P1 P2 P3)[j]'hj = ⟨S64x4096, Pj⟩)
    (q : Fin 256) (c : Fin 64) (hq : q.val = 64 * j + c.val) (p : Fin 4096) :
    concatenate S256x4096 0 (four P0 P1 P2 P3) hc (ix2 q p) = Pj (ix2 c p) := by
  refine concatenate_apply_piece (0 : Fin 2) (four P0 P1 P2 P3) hc (ix2 q p) j hj S64x4096 Pj hPj rfl (64 * j) ?_ (ix2 c p) ?_ ?_
  · have : j = 0 ∨ j = 1 ∨ j = 2 ∨ j = 3 := by omega
    rcases this with rfl | rfl | rfl | rfl <;> rfl
  · intro b hb
    match b with
    | ⟨0, _⟩ => exact absurd rfl hb
    | ⟨1, _⟩ => rfl
  · show 64 * j + c.val = q.val
    exact hq.symm

/-- Column band `j` of the grouped product at `(yz, c)`: the sum over the points of the one-hot weight times piece `j`. -/
theorem band_apply (OY : FVec Ideal S1024x4096 .bf16) (P0 P1 P2 P3 : FVec Ideal S64x4096 .bf16)
    (hc : Shape.Concatenates ((four P0 P1 P2 P3).map (·.1)) S256x4096 0)
    (j : Nat) (hj : j < 4) (Pj : FVec Ideal S64x4096 .bf16) (hPj : (four P0 P1 P2 P3)[j]'hj = ⟨S64x4096, Pj⟩)
    (hs : S1024x256.Slices ![0, 64 * j] S1024x64) (yz : Fin 1024) (c : Fin 64) :
    extractStridedSlice S1024x64 ![0, 64 * j]
      (matmul dot_S1024x4096_S256x4096_S1024x256_1_1_0_0_n_n none OY (concatenate S256x4096 0 (four P0 P1 P2 P3) hc)
        (constant S1024x256 .f32 0x00000000#32)) hs (ix2 yz c)
      = ∑ p : Fin 4096, OY (ix2 yz p) * Pj (ix2 c p) := by
  rw [slice2_axis1_eq (64 * j) _ hs yz c]
  refine (Cert.LibMatmulNT.matmul_zero_apply dot_S1024x4096_S256x4096_S1024x256_1_1_0_0_n_n_wf none OY
    (concatenate S256x4096 0 (four P0 P1 P2 P3) hc) yz _).trans ?_
  refine Finset.sum_congr rfl fun p _ => ?_
  rw [concat4_apply P0 P1 P2 P3 hc j hj Pj hPj _ c rfl p]

/-- A masked feature matrix at `(c, p)`: the feature times row `k` of the plane one-hot matrix. -/
theorem mask_apply (FE : FVec Ideal S64x4096 .bf16) (OX : FVec Ideal S32x4096 .bf16) (k : Nat)
    (hs : S32x4096.Slices ![k, 0] S1x4096) (h1 : S1x4096.ShapeCasts S4096) (h2 : S4096.ShapeCasts S1x4096)
    (hb : S1x4096.Broadcasts S64x4096) (c : Fin 64) (p : Fin 4096) :
    mulf FE (broadcastTo S64x4096 (shapeCast S1x4096 (shapeCast S4096 (extractStridedSlice S1x4096 ![k, 0] OX hs) h1) h2) hb) (ix2 c p)
      = FE (ix2 c p) * OX (ix2 ⟨k, by have := hs.2 0; simpa using this⟩ p) := by
  rw [mulf_apply, broadcastTo_1b_ab_apply, shapeCast_a_1a_apply, shapeCast_1a_a_apply]
  congr 1
  exact slice2_axis0_apply k OX hs (0 : Fin 1) p _ rfl

end Cert.KernelIdeal.Body

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.BodyOthers.lean ====
/-
  The remaining stores of the kernel body, read at an index at the exact extended reals: the count accumulator's update,
  the two resets, and the final normalisation.

  The count accumulator `[1024, 32]` gains at `(yz, x)` the sum over the block's points of the product of the two one-hot
  weights. A reset stores zeros. The final store divides plane `x`, cell `yz`, channel `c` of the feature accumulator by
  the count of `(yz, x)` raised to at least one, and lays the quotient out as `[1, 64, 32, 1024]` (channel first).
-/
import proofs.«129199_j15135464751874_2_alg».proof.Proof.BodyAlgebra
import proofs.«129199_j15135464751874_2_alg».proof.Proof.LibRank3Layout

set_option maxRecDepth 16384

noncomputable section

namespace Cert.KernelIdeal.Body

open Cert.KernelIdeal Cert.KernelIdeal.Gen Idealize.ShloMosaic Idealize.ShloMosaic.ValueIdx

variable [hK : Cert.KernelIdeal.Facts]

/-- The count accumulator after the body. -/
theorem count_apply (X1 X2 : Vec Ideal S4096 .i32) (prev : Vec Ideal S1024x32 .f32) (yz : Fin 1024) (x : Fin 32) :
    k0_pay9 X1 X2 prev (ix2 yz x)
      = prev (ix2 yz x) + ∑ p : Fin 4096, k0_pay7 X2 (ix2 yz p) * k0_pay8 X1 (ix2 x p) := by
  unfold k0_pay9
  rw [shapeCast_self, addf_apply]
  refine congrArg (prev (ix2 yz x) + ·) ?_
  exact Cert.LibMatmulNT.matmul_zero_apply dot_S1024x4096_S32x4096_S1024x32_1_1_0_0_n_n_wf none (k0_pay7 X2) (k0_pay8 X1) yz x

/-- The feature accumulator's reset value is zero everywhere. -/
theorem zeroAcc_apply (i : S32x1024x64.Idx) : k0_pay4 (F := Ideal) i = 0 := by
  unfold k0_pay4
  rw [shapeCast_self, broadcast_apply]
  exact Ideal.ofBits_zero_f32

/-- The count accumulator's reset value is zero everywhere. -/
theorem zeroCnt_apply (i : S1024x32.Idx) : k0_pay5 (F := Ideal) i = 0 := by
  unfold k0_pay5
  rw [shapeCast_self, broadcast_apply]
  exact Ideal.ofBits_zero_f32

/-- The final store at `(u, c, x, yz)`: the accumulated sum over the count raised to at least one. -/
theorem final_apply (acc : Vec Ideal S32x1024x64 .f32) (cnt : Vec Ideal S1024x32 .f32)
    (u : Fin 1) (c : Fin 64) (x : Fin 32) (yz : Fin 1024) :
    k0_pay3 acc cnt (ix4 u c x yz)
      = Ideal.div (acc (ix3 x yz c)) (max (cnt (ix2 yz x)) (Ideal.ofBits .f32 0x3F800000#32)) := by
  unfold k0_pay3
  rw [shapeCast_abc_1abc_apply]
  rw [transpose_apply [2, 0, 1] _ _ (ix3 c x yz) (ix3 x yz c) (fun b => by
    match b with
    | ⟨0, _⟩ => rfl
    | ⟨1, _⟩ => rfl
    | ⟨2, _⟩ => rfl)]
  rw [divf_apply, Cert.LibRank3.broadcastTo_lane_apply, Cert.LibRank3.shapeCast_keepdim_apply, transpose_ix2_apply,
    maximumf_apply, broadcast_apply]
  rfl

end Cert.KernelIdeal.Body

end
-- ==== Proof.BodyCases.lean ====
/-
  What one run of the kernel body leaves in the feature accumulator, assembled from its 32 plane stores.

  One run adds to the accumulator `[32, 1024, 64]`, at plane `x`, cell `yz`, channel `c`, the block's addend: the sum over
  the block's points of the in-plane weight, the feature and the plane weight. The body does this one plane at a time; each
  plane's store covers exactly that plane, so the accumulator after the run is the old contents plus the addend
  everywhere. At the first block of a batch the accumulator is first overwritten with zeros, and each plane's old
  contents are read back through the stores made so far: the planes stored so far hold their addend, the others zero.
-/
import proofs.«129199_j15135464751874_2_alg».proof.Proof.BodyOthers
import Idealize.ShloMosaic.Lib.Pipeline.FrameBody

set_option maxRecDepth 16384

noncomputable section

namespace Cert.KernelIdeal.Body

open Cert.KernelIdeal Cert.KernelIdeal.Gen Idealize.ShloMosaic Idealize.ShloMosaic.ValueIdx

variable [hK : Cert.KernelIdeal.Facts]

/-- One block's addend to the feature accumulator at plane `x`, cell `yz`, channel `c`. -/
def addendAt (x0 : Vec Ideal S1x64x4096 .f32) (x1 x2 : Vec Ideal S4096 .i32) (x : Fin 32) (yz : Fin 1024) (c : Fin 64) : EReal :=
  ∑ p : Fin 4096, k0_pay7 x2 (ix2 yz p) * (k0_pay6 x0 (ix2 c p) * k0_pay8 x1 (ix2 x p))

/-- One block's addend to the count accumulator at cell `yz`, plane `x`. -/
def cntAddendAt (x1 x2 : Vec Ideal S4096 .i32) (yz : Fin 1024) (x : Fin 32) : EReal :=
  ∑ p : Fin 4096, k0_pay7 x2 (ix2 yz p) * k0_pay8 x1 (ix2 x p)

/-- The feature accumulator after a run that found it at `xs0`. -/
def accStep (x0 : Vec Ideal S1x64x4096 .f32) (x1 x2 : Vec Ideal S4096 .i32) (xs0 : Vec Ideal S32x1024x64 .f32) :
    Vec Ideal S32x1024x64 .f32 :=
  fun i => xs0 i + addendAt x0 x1 x2 (i 0) (i 1) (i 2)

theorem accStep_apply (x0 : Vec Ideal S1x64x4096 .f32) (x1 x2 : Vec Ideal S4096 .i32) (xs0 : Vec Ideal S32x1024x64 .f32)
    (x : Fin 32) (yz : Fin 1024) (c : Fin 64) :
    accStep x0 x1 x2 xs0 (ix3 x yz c) = xs0 (ix3 x yz c) + addendAt x0 x1 x2 x yz c := rfl

/-- The count accumulator after a run that found it at `xs1`. -/
def cntStep (x1 x2 : Vec Ideal S4096 .i32) (xs1 : Vec Ideal S1024x32 .f32) : Vec Ideal S1024x32 .f32 :=
  fun i => xs1 i + cntAddendAt x1 x2 (i 0) (i 1)

theorem cntStep_apply (x1 x2 : Vec Ideal S4096 .i32) (xs1 : Vec Ideal S1024x32 .f32) (yz : Fin 1024) (x : Fin 32) :
    cntStep x1 x2 xs1 (ix2 yz x) = xs1 (ix2 yz x) + cntAddendAt x1 x2 yz x := rfl

/-- The count store's payload is the count accumulator after the run. -/
theorem count_eq (x1 x2 : Vec Ideal S4096 .i32) (xs1 : Vec Ideal S1024x32 .f32) :
    k0_pay9 x1 x2 xs1 = cntStep x1 x2 xs1 := by
  funext i
  obtain ⟨yz, x, rfl⟩ : ∃ (yz : Fin 1024) (x : Fin 32), i = ix2 yz x := ⟨i 0, i 1, eq_ix2 i⟩
  exact count_apply x1 x2 xs1 yz x

/-- Plane `k`'s rectangle in the accumulator places its local index `(0, yz, c)` at `(k, yz, c)`. -/
theorem plane_emb (k : Nat) (hk : k < 32) (inb : ∀ a, (![k, 0, 0] : Fin 3 → Nat) a + S1x1024x64.size a ≤ S32x1024x64.size a)
    (u : Fin 1) (yz : Fin 1024) (c : Fin 64) :
    (Rect.unit (s := S32x1024x64) ![k, 0, 0] S1x1024x64.size inb).emb (ix3 u yz c) = ix3 (⟨k, hk⟩ : Fin 32) yz c := by
  funext a
  apply Fin.ext
  have hu : u.val = 0 := by omega
  match a with
  | ⟨0, _⟩ => show k + 1 * u.val = k; omega
  | ⟨1, _⟩ => show 0 + 1 * yz.val = yz.val; omega
  | ⟨2, _⟩ => show 0 + 1 * c.val = c.val; omega

/-- An index lies in plane `k`'s rectangle exactly when its plane coordinate is `k`. -/
theorem mem_plane_iff (k : Nat) (inb : ∀ a, (![k, 0, 0] : Fin 3 → Nat) a + S1x1024x64.size a ≤ S32x1024x64.size a)
    (x : Fin 32) (yz : Fin 1024) (c : Fin 64) :
    ix3 x yz c ∈ (Rect.unit (s := S32x1024x64) ![k, 0, 0] S1x1024x64.size inb).set ↔ x.val = k := by
  rw [Rect.mem_set_unit]
  constructor
  · intro h
    have h0 := h ⟨0, by decide⟩
    have : (![k, 0, 0] : Fin 3 → Nat) ⟨0, by decide⟩ = k := rfl
    have h0' : k ≤ x.val ∧ x.val < k + 1 := h0
    omega
  · intro hx a
    match a with
    | ⟨0, _⟩ => show k ≤ x.val ∧ x.val < k + 1; omega
    | ⟨1, _⟩ => show 0 ≤ yz.val ∧ yz.val < 0 + 1024; omega
    | ⟨2, _⟩ => show 0 ≤ c.val ∧ c.val < 0 + 64; omega

/-- A plane store whose payload is the old plane plus the addend agrees with `accStep` on its rectangle. -/
theorem plane_piece (k : Nat) (hk : k < 32) (inb : ∀ a, (![k, 0, 0] : Fin 3 → Nat) a + S1x1024x64.size a ≤ S32x1024x64.size a)
    (x0 : Vec Ideal S1x64x4096 .f32) (x1 x2 : Vec Ideal S4096 .i32) (xs0 : Vec Ideal S32x1024x64 .f32)
    (pay : Vec Ideal S1x1024x64 .f32)
    (h : ∀ (u : Fin 1) (yz : Fin 1024) (c : Fin 64), pay (ix3 u yz c)
      = View.ld xs0 (Rect.unit (s := S32x1024x64) ![k, 0, 0] S1x1024x64.size inb) (ix3 (0 : Fin 1) yz c)
        + addendAt x0 x1 x2 ⟨k, hk⟩ yz c) :
    ∀ x : (Rect.unit (s := S32x1024x64) ![k, 0, 0] S1x1024x64.size inb).shape.Idx,
      pay x = accStep x0 x1 x2 xs0 ((Rect.unit (s := S32x1024x64) ![k, 0, 0] S1x1024x64.size inb).emb x) := by
  intro x
  obtain ⟨u, yz, c, rfl⟩ : ∃ (u : Fin 1) (yz : Fin 1024) (c : Fin 64), x = ix3 u yz c := ⟨x 0, x 1, x 2, eq_ix3 x⟩
  rw [h u yz c, plane_emb k hk inb u yz c, accStep_apply]
  show xs0 ((Rect.unit (s := S32x1024x64) ![k, 0, 0] S1x1024x64.size inb).emb (ix3 (0 : Fin 1) yz c)) + _ = _
  rw [plane_emb k hk inb 0 yz c]

/-- Off plane `k`, a store of plane `k` leaves what the earlier stores left. -/
theorem canon_cons_plane_of_ne (k : Nat) (inb : ∀ a, (![k, 0, 0] : Fin 3 → Nat) a + S1x1024x64.size a ≤ S32x1024x64.size a)
    (pay : Vec Ideal S1x1024x64 .f32) (L : List (View.Piece (Elt Ideal) S32x1024x64 .f32))
    (x : Fin 32) (yz : Fin 1024) (c : Fin 64) (h : x.val ≠ k) :
    View.canon ((⟨Rect.unit (s := S32x1024x64) ![k, 0, 0] S1x1024x64.size inb, pay⟩ : View.Piece (Elt Ideal) S32x1024x64 .f32) :: L) (ix3 x yz c)
      = View.canon L (ix3 x yz c) := by
  have hm : ix3 x yz c ∉ (Rect.unit (s := S32x1024x64) ![k, 0, 0] S1x1024x64.size inb).set :=
    fun hm => h ((mem_plane_iff k inb x yz c).mp hm)
  exact View.canon_cons_of_not_mem
    (⟨Rect.unit (s := S32x1024x64) ![k, 0, 0] S1x1024x64.size inb, pay⟩ : View.Piece (Elt Ideal) S32x1024x64 .f32) L hm

/-- On plane `k`, a store of plane `k` leaves its payload. -/
theorem canon_cons_plane_self (k : Nat) (hk : k < 32) (inb : ∀ a, (![k, 0, 0] : Fin 3 → Nat) a + S1x1024x64.size a ≤ S32x1024x64.size a)
    (pay : Vec Ideal S1x1024x64 .f32) (L : List (View.Piece (Elt Ideal) S32x1024x64 .f32)) (yz : Fin 1024) (c : Fin 64) :
    View.canon ((⟨Rect.unit (s := S32x1024x64) ![k, 0, 0] S1x1024x64.size inb, pay⟩ : View.Piece (Elt Ideal) S32x1024x64 .f32) :: L)
        (ix3 (⟨k, hk⟩ : Fin 32) yz c)
      = pay (ix3 (0 : Fin 1) yz c) := by
  rw [← plane_emb k hk inb 0 yz c]
  exact View.canon_cons_emb (Rect.unit (s := S32x1024x64) ![k, 0, 0] S1x1024x64.size inb) pay L (ix3 (0 : Fin 1) yz c)

/-! ## The first block of a batch: the planes stored so far over the zero fill -/

/-- After the zero fill and the stores of planes `0 … k - 1`: those planes hold their addend, the others zero. -/
def FilledTo (x0 : Vec Ideal S1x64x4096 .f32) (x1 x2 : Vec Ideal S4096 .i32) (k : Nat)
    (L : List (View.Piece (Elt Ideal) S32x1024x64 .f32)) : Prop :=
  (∀ (x : Fin 32) (yz : Fin 1024) (c : Fin 64), k ≤ x.val → View.canon L (ix3 x yz c) = 0) ∧
  (∀ (x : Fin 32) (yz : Fin 1024) (c : Fin 64), x.val < k → View.canon L (ix3 x yz c) = 0 + addendAt x0 x1 x2 x yz c)

/-- The zero fill alone. -/
theorem filledTo_zero (x0 : Vec Ideal S1x64x4096 .f32) (x1 x2 : Vec Ideal S4096 .i32) {off : Fin 3 → Nat} (hoff : off = fun _ => 0)
    (inb : ∀ a, off a + S32x1024x64.size a ≤ S32x1024x64.size a) :
    FilledTo x0 x1 x2 0 [(⟨Rect.unit (s := S32x1024x64) off S32x1024x64.size inb, k0_pay4 (F := Ideal)⟩ : View.Piece (Elt Ideal) S32x1024x64 .f32)] := by
  refine ⟨fun x yz c _ => ?_, fun x yz c h => absurd h (Nat.not_lt_zero _)⟩
  rw [View.canon_unit_zero hoff inb]
  exact zeroAcc_apply _

/-- One more plane stored: its payload is what the stores so far hold there (zero) plus the addend. -/
theorem filledTo_succ {sg : RefSig} {κ : Kind} {sp : Space} (v : View sg κ sp S32x1024x64 .f32)
    (x0 : Vec Ideal S1x64x4096 .f32) (x1 x2 : Vec Ideal S4096 .i32) (k : Nat) (hk : k < 32)
    (L : List (View.Piece (Elt Ideal) S32x1024x64 .f32)) (hL : FilledTo x0 x1 x2 k L)
    (inb : ∀ a, (![k, 0, 0] : Fin 3 → Nat) a + S1x1024x64.size a ≤ S32x1024x64.size a)
    (pay : Vec Ideal S1x1024x64 .f32)
    (hpay : ∀ (u : Fin 1) (yz : Fin 1024) (c : Fin 64), pay (ix3 u yz c)
      = v.readCov L (Rect.unit (s := S32x1024x64) ![k, 0, 0] S1x1024x64.size inb).toLoadRect (ix3 (0 : Fin 1) yz c)
        + addendAt x0 x1 x2 ⟨k, hk⟩ yz c) :
    FilledTo x0 x1 x2 (k + 1)
      ((⟨Rect.unit (s := S32x1024x64) ![k, 0, 0] S1x1024x64.size inb, pay⟩ : View.Piece (Elt Ideal) S32x1024x64 .f32) :: L) := by
  have hprev : ∀ (yz : Fin 1024) (c : Fin 64),
      v.readCov L (Rect.unit (s := S32x1024x64) ![k, 0, 0] S1x1024x64.size inb).toLoadRect (ix3 (0 : Fin 1) yz c) = 0 := by
    intro yz c
    rw [View.readCov_eq_canon']
    show View.canon L ((Rect.unit (s := S32x1024x64) ![k, 0, 0] S1x1024x64.size inb).emb (ix3 (0 : Fin 1) yz c)) = 0
    rw [plane_emb k hk inb 0 yz c]
    exact hL.1 ⟨k, hk⟩ yz c (le_refl _)
  constructor
  · intro x yz c hx
    rw [canon_cons_plane_of_ne k inb pay L x yz c (by omega)]
    exact hL.1 x yz c (by omega)
  · intro x yz c hx
    by_cases hxk : x.val = k
    · obtain rfl : x = ⟨k, hk⟩ := Fin.ext hxk
      rw [canon_cons_plane_self k hk inb pay L yz c, hpay, hprev]
    · rw [canon_cons_plane_of_ne k inb pay L x yz c hxk]
      exact hL.2 x yz c (by omega)

/-! ## A later block: the planes stored so far over the old contents -/

/-- After the stores of planes `0 … k - 1` over old contents `xs0`: those planes hold the old contents plus the addend. -/
def PlanesTo (x0 : Vec Ideal S1x64x4096 .f32) (x1 x2 : Vec Ideal S4096 .i32) (xs0 : Vec Ideal S32x1024x64 .f32) (k : Nat)
    (L : List (View.Piece (Elt Ideal) S32x1024x64 .f32)) : Prop :=
  ∀ (x : Fin 32) (yz : Fin 1024) (c : Fin 64), x.val < k →
    View.canon L (ix3 x yz c) = xs0 (ix3 x yz c) + addendAt x0 x1 x2 x yz c

/-- No store yet. -/
theorem planesTo_nil (x0 : Vec Ideal S1x64x4096 .f32) (x1 x2 : Vec Ideal S4096 .i32) (xs0 : Vec Ideal S32x1024x64 .f32) :
    PlanesTo x0 x1 x2 xs0 0 [] :=
  fun x yz c h => absurd h (Nat.not_lt_zero _)

/-- One more plane stored: its payload is the old plane, read from the old contents, plus the addend. -/
theorem planesTo_succ (x0 : Vec Ideal S1x64x4096 .f32) (x1 x2 : Vec Ideal S4096 .i32) (xs0 : Vec Ideal S32x1024x64 .f32)
    (k : Nat) (hk : k < 32) (L : List (View.Piece (Elt Ideal) S32x1024x64 .f32)) (hL : PlanesTo x0 x1 x2 xs0 k L)
    (inb : ∀ a, (![k, 0, 0] : Fin 3 → Nat) a + S1x1024x64.size a ≤ S32x1024x64.size a)
    (pay : Vec Ideal S1x1024x64 .f32)
    (hpay : ∀ (u : Fin 1) (yz : Fin 1024) (c : Fin 64), pay (ix3 u yz c)
      = View.ld xs0 (Rect.unit (s := S32x1024x64) ![k, 0, 0] S1x1024x64.size inb) (ix3 (0 : Fin 1) yz c)
        + addendAt x0 x1 x2 ⟨k, hk⟩ yz c) :
    PlanesTo x0 x1 x2 xs0 (k + 1)
      ((⟨Rect.unit (s := S32x1024x64) ![k, 0, 0] S1x1024x64.size inb, pay⟩ : View.Piece (Elt Ideal) S32x1024x64 .f32) :: L) := by
  intro x yz c hx
  by_cases hxk : x.val = k
  · obtain rfl : x = ⟨k, hk⟩ := Fin.ext hxk
    rw [canon_cons_plane_self k hk inb pay L yz c, hpay]
    show xs0 ((Rect.unit (s := S32x1024x64) ![k, 0, 0] S1x1024x64.size inb).emb (ix3 (0 : Fin 1) yz c)) + _ = _
    rw [plane_emb k hk inb 0 yz c]
  · rw [canon_cons_plane_of_ne k inb pay L x yz c hxk]
    exact hL x yz c (by omega)

/-- All 32 planes stored: the accumulator after the run, everywhere. -/
theorem planesTo_all (x0 : Vec Ideal S1x64x4096 .f32) (x1 x2 : Vec Ideal S4096 .i32) (xs0 : Vec Ideal S32x1024x64 .f32)
    (L : List (View.Piece (Elt Ideal) S32x1024x64 .f32)) (hL : PlanesTo x0 x1 x2 xs0 32 L) :
    View.canon L = accStep x0 x1 x2 xs0 := by
  funext y
  obtain ⟨x, yz, c, rfl⟩ : ∃ (x : Fin 32) (yz : Fin 1024) (c : Fin 64), y = ix3 x yz c := ⟨y 0, y 1, y 2, eq_ix3 y⟩
  exact hL x yz c x.isLt

/-- All 32 planes stored over the zero fill: the accumulator after a batch's first run, everywhere. -/
theorem filledTo_all (x0 : Vec Ideal S1x64x4096 .f32) (x1 x2 : Vec Ideal S4096 .i32)
    (L : List (View.Piece (Elt Ideal) S32x1024x64 .f32)) (hL : FilledTo x0 x1 x2 32 L) :
    View.canon L = accStep x0 x1 x2 (fun _ => 0) := by
  funext y
  obtain ⟨x, yz, c, rfl⟩ : ∃ (x : Fin 32) (yz : Fin 1024) (c : Fin 64), y = ix3 x yz c := ⟨y 0, y 1, y 2, eq_ix3 y⟩
  exact hL.2 x yz c x.isLt

end Cert.KernelIdeal.Body

end
-- ==== Proof.BodyPlanes0.lean ====
/-
  Planes 0 to 7 of the feature accumulator after one run of the kernel body, read at an index at the exact extended reals.

  The body adds to plane `x` of the accumulator `[32, 1024, 64]` one `[1024, 64]` column band of a grouped product. Written
  out, plane `x` at cell `yz` and channel `c` becomes what it held plus the sum over the 4096 points `p` of the block of
  `OY (yz, p) * (FE (c, p) * OX (x, p))`: the in-plane one-hot weight, the feature, the plane one-hot weight.
-/
import proofs.«129199_j15135464751874_2_alg».proof.Proof.BodyAlgebra

noncomputable section

namespace Cert.KernelIdeal.Body

open Cert.KernelIdeal Cert.KernelIdeal.Gen Idealize.ShloMosaic Idealize.ShloMosaic.ValueIdx

variable [hK : Cert.KernelIdeal.Facts]

/-- Plane 0 of the accumulator after the body: what it held plus, at cell `yz` and channel `c`, the sum over the block's points of the in-plane weight times the feature times the weight of plane 0. -/
theorem plane_0 (X0 : Vec Ideal S1x64x4096 .f32) (X1 X2 : Vec Ideal S4096 .i32) (prev : Vec Ideal S1x1024x64 .f32)
    (u : Fin 1) (yz : Fin 1024) (c : Fin 64) :
    (k0_pay14 (k0_pay6 X0) (k0_pay7 X2) (k0_pay8 X1) (k0_pay10 X0 X1) (k0_pay11 X0 X1) (k0_pay12 X1) prev) (ix3 u yz c)
      = prev (ix3 (0 : Fin 1) yz c) + ∑ p : Fin 4096, k0_pay7 X2 (ix2 yz p) * (k0_pay6 X0 (ix2 c p) * k0_pay8 X1 (ix2 (0 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 1 of the accumulator after the body: what it held plus, at cell `yz` and channel `c`, the sum over the block's points of the in-plane weight times the feature times the weight of plane 1. -/
theorem plane_1 (X0 : Vec Ideal S1x64x4096 .f32) (X1 X2 : Vec Ideal S4096 .i32) (prev : Vec Ideal S1x1024x64 .f32)
    (u : Fin 1) (yz : Fin 1024) (c : Fin 64) :
    (k0_pay15 (k0_pay6 X0) (k0_pay7 X2) (k0_pay8 X1) (k0_pay10 X0 X1) (k0_pay11 X0 X1) (k0_pay12 X1) prev) (ix3 u yz c)
      = prev (ix3 (0 : Fin 1) yz c) + ∑ p : Fin 4096, k0_pay7 X2 (ix2 yz p) * (k0_pay6 X0 (ix2 c p) * k0_pay8 X1 (ix2 (1 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 2 of the accumulator after the body: what it held plus, at cell `yz` and channel `c`, the sum over the block's points of the in-plane weight times the feature times the weight of plane 2. -/
theorem plane_2 (X0 : Vec Ideal S1x64x4096 .f32) (X1 X2 : Vec Ideal S4096 .i32) (prev : Vec Ideal S1x1024x64 .f32)
    (u : Fin 1) (yz : Fin 1024) (c : Fin 64) :
    (k0_pay16 (k0_pay6 X0) (k0_pay7 X2) (k0_pay8 X1) (k0_pay10 X0 X1) (k0_pay11 X0 X1) (k0_pay12 X1) prev) (ix3 u yz c)
      = prev (ix3 (0 : Fin 1) yz c) + ∑ p : Fin 4096, k0_pay7 X2 (ix2 yz p) * (k0_pay6 X0 (ix2 c p) * k0_pay8 X1 (ix2 (2 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 3 of the accumulator after the body: what it held plus, at cell `yz` and channel `c`, the sum over the block's points of the in-plane weight times the feature times the weight of plane 3. -/
theorem plane_3 (X0 : Vec Ideal S1x64x4096 .f32) (X1 X2 : Vec Ideal S4096 .i32) (prev : Vec Ideal S1x1024x64 .f32)
    (u : Fin 1) (yz : Fin 1024) (c : Fin 64) :
    (k0_pay18 (k0_pay17 (k0_pay6 X0) (k0_pay7 X2) (k0_pay8 X1) (k0_pay10 X0 X1) (k0_pay11 X0 X1) (k0_pay12 X1) prev)) (ix3 u yz c)
      = prev (ix3 (0 : Fin 1) yz c) + ∑ p : Fin 4096, k0_pay7 X2 (ix2 yz p) * (k0_pay6 X0 (ix2 c p) * k0_pay8 X1 (ix2 (3 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

/-- Plane 4 of the accumulator after the body: what it held plus, at cell `yz` and channel `c`, the sum over the block's points of the in-plane weight times the feature times the weight of plane 4. -/
theorem plane_4 (X0 : Vec Ideal S1x64x4096 .f32) (X1 X2 : Vec Ideal S4096 .i32) (prev : Vec Ideal S1x1024x64 .f32)
    (u : Fin 1) (yz : Fin 1024) (c : Fin 64) :
    (k0_pay20 (k0_pay6 X0) (k0_pay7 X2) (k0_pay8 X1) prev) (ix3 u yz c)
      = prev (ix3 (0 : Fin 1) yz c) + ∑ p : Fin 4096, k0_pay7 X2 (ix2 yz p) * (k0_pay6 X0 (ix2 c p) * k0_pay8 X1 (ix2 (4 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 5 of the accumulator after the body: what it held plus, at cell `yz` and channel `c`, the sum over the block's points of the in-plane weight times the feature times the weight of plane 5. -/
theorem plane_5 (X0 : Vec Ideal S1x64x4096 .f32) (X1 X2 : Vec Ideal S4096 .i32) (prev : Vec Ideal S1x1024x64 .f32)
    (u : Fin 1) (yz : Fin 1024) (c : Fin 64) :
    (k0_pay21 (k0_pay6 X0) (k0_pay7 X2) (k0_pay8 X1) prev) (ix3 u yz c)
      = prev (ix3 (0 : Fin 1) yz c) + ∑ p : Fin 4096, k0_pay7 X2 (ix2 yz p) * (k0_pay6 X0 (ix2 c p) * k0_pay8 X1 (ix2 (5 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 6 of the accumulator after the body: what it held plus, at cell `yz` and channel `c`, the sum over the block's points of the in-plane weight times the feature times the weight of plane 6. -/
theorem plane_6 (X0 : Vec Ideal S1x64x4096 .f32) (X1 X2 : Vec Ideal S4096 .i32) (prev : Vec Ideal S1x1024x64 .f32)
    (u : Fin 1) (yz : Fin 1024) (c : Fin 64) :
    (k0_pay22 (k0_pay19 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (6 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 7 of the accumulator after the body: what it held plus, at cell `yz` and channel `c`, the sum over the block's points of the in-plane weight times the feature times the weight of plane 7. -/
theorem plane_7 (X0 : Vec Ideal S1x64x4096 .f32) (X1 X2 : Vec Ideal S4096 .i32) (prev : Vec Ideal S1x1024x64 .f32)
    (u : Fin 1) (yz : Fin 1024) (c : Fin 64) :
    (k0_pay23 (k0_pay19 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (7 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

end Cert.KernelIdeal.Body

end
-- ==== Proof.BodyPlanes1.lean ====
/-
  Planes 8 to 15 of the feature accumulator after one run of the kernel body, read at an index at the exact extended reals.

  The body adds to plane `x` of the accumulator `[32, 1024, 64]` one `[1024, 64]` column band of a grouped product. Written
  out, plane `x` at cell `yz` and channel `c` becomes what it held plus the sum over the 4096 points `p` of the block of
  `OY (yz, p) * (FE (c, p) * OX (x, p))`: the in-plane one-hot weight, the feature, the plane one-hot weight.
-/
import proofs.«129199_j15135464751874_2_alg».proof.Proof.BodyAlgebra

noncomputable section

namespace Cert.KernelIdeal.Body

open Cert.KernelIdeal Cert.KernelIdeal.Gen Idealize.ShloMosaic Idealize.ShloMosaic.ValueIdx

variable [hK : Cert.KernelIdeal.Facts]

/-- Plane 8 of the accumulator after the body: what it held plus, at cell `yz` and channel `c`, the sum over the block's points of the in-plane weight times the feature times the weight of plane 8. -/
theorem plane_8 (X0 : Vec Ideal S1x64x4096 .f32) (X1 X2 : Vec Ideal S4096 .i32) (prev : Vec Ideal S1x1024x64 .f32)
    (u : Fin 1) (yz : Fin 1024) (c : Fin 64) :
    (k0_pay25 (k0_pay6 X0) (k0_pay7 X2) (k0_pay8 X1) prev) (ix3 u yz c)
      = prev (ix3 (0 : Fin 1) yz c) + ∑ p : Fin 4096, k0_pay7 X2 (ix2 yz p) * (k0_pay6 X0 (ix2 c p) * k0_pay8 X1 (ix2 (8 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 9 of the accumulator after the body: what it held plus, at cell `yz` and channel `c`, the sum over the block's points of the in-plane weight times the feature times the weight of plane 9. -/
theorem plane_9 (X0 : Vec Ideal S1x64x4096 .f32) (X1 X2 : Vec Ideal S4096 .i32) (prev : Vec Ideal S1x1024x64 .f32)
    (u : Fin 1) (yz : Fin 1024) (c : Fin 64) :
    (k0_pay26 (k0_pay24 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (9 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 10 of the accumulator after the body: what it held plus, at cell `yz` and channel `c`, the sum over the block's points of the in-plane weight times the feature times the weight of plane 10. -/
theorem plane_10 (X0 : Vec Ideal S1x64x4096 .f32) (X1 X2 : Vec Ideal S4096 .i32) (prev : Vec Ideal S1x1024x64 .f32)
    (u : Fin 1) (yz : Fin 1024) (c : Fin 64) :
    (k0_pay27 (k0_pay24 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (10 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 11 of the accumulator after the body: what it held plus, at cell `yz` and channel `c`, the sum over the block's points of the in-plane weight times the feature times the weight of plane 11. -/
theorem plane_11 (X0 : Vec Ideal S1x64x4096 .f32) (X1 X2 : Vec Ideal S4096 .i32) (prev : Vec Ideal S1x1024x64 .f32)
    (u : Fin 1) (yz : Fin 1024) (c : Fin 64) :
    (k0_pay28 (k0_pay24 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (11 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

/-- Plane 12 of the accumulator after the body: what it held plus, at cell `yz` and channel `c`, the sum over the block's points of the in-plane weight times the feature times the weight of plane 12. -/
theorem plane_12 (X0 : Vec Ideal S1x64x4096 .f32) (X1 X2 : Vec Ideal S4096 .i32) (prev : Vec Ideal S1x1024x64 .f32)
    (u : Fin 1) (yz : Fin 1024) (c : Fin 64) :
    (k0_pay34 (k0_pay6 X0) (k0_pay7 X2) (k0_pay29 (k0_pay6 X0) (k0_pay8 X1)) (k0_pay30 (k0_pay6 X0) (k0_pay8 X1)) (k0_pay31 (k0_pay6 X0) (k0_pay8 X1)) (k0_pay32 (k0_pay8 X1)) prev) (ix3 u yz c)
      = prev (ix3 (0 : Fin 1) yz c) + ∑ p : Fin 4096, k0_pay7 X2 (ix2 yz p) * (k0_pay6 X0 (ix2 c p) * k0_pay8 X1 (ix2 (12 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 13 of the accumulator after the body: what it held plus, at cell `yz` and channel `c`, the sum over the block's points of the in-plane weight times the feature times the weight of plane 13. -/
theorem plane_13 (X0 : Vec Ideal S1x64x4096 .f32) (X1 X2 : Vec Ideal S4096 .i32) (prev : Vec Ideal S1x1024x64 .f32)
    (u : Fin 1) (yz : Fin 1024) (c : Fin 64) :
    (k0_pay35 (k0_pay6 X0) (k0_pay7 X2) (k0_pay29 (k0_pay6 X0) (k0_pay8 X1)) (k0_pay30 (k0_pay6 X0) (k0_pay8 X1)) (k0_pay31 (k0_pay6 X0) (k0_pay8 X1)) (k0_pay32 (k0_pay8 X1)) prev) (ix3 u yz c)
      = prev (ix3 (0 : Fin 1) yz c) + ∑ p : Fin 4096, k0_pay7 X2 (ix2 yz p) * (k0_pay6 X0 (ix2 c p) * k0_pay8 X1 (ix2 (13 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 14 of the accumulator after the body: what it held plus, at cell `yz` and channel `c`, the sum over the block's points of the in-plane weight times the feature times the weight of plane 14. -/
theorem plane_14 (X0 : Vec Ideal S1x64x4096 .f32) (X1 X2 : Vec Ideal S4096 .i32) (prev : Vec Ideal S1x1024x64 .f32)
    (u : Fin 1) (yz : Fin 1024) (c : Fin 64) :
    (k0_pay36 (k0_pay6 X0) (k0_pay7 X2) (k0_pay29 (k0_pay6 X0) (k0_pay8 X1)) (k0_pay30 (k0_pay6 X0) (k0_pay8 X1)) (k0_pay31 (k0_pay6 X0) (k0_pay8 X1)) (k0_pay32 (k0_pay8 X1)) prev) (ix3 u yz c)
      = prev (ix3 (0 : Fin 1) yz c) + ∑ p : Fin 4096, k0_pay7 X2 (ix2 yz p) * (k0_pay6 X0 (ix2 c p) * k0_pay8 X1 (ix2 (14 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 15 of the accumulator after the body: what it held plus, at cell `yz` and channel `c`, the sum over the block's points of the in-plane weight times the feature times the weight of plane 15. -/
theorem plane_15 (X0 : Vec Ideal S1x64x4096 .f32) (X1 X2 : Vec Ideal S4096 .i32) (prev : Vec Ideal S1x1024x64 .f32)
    (u : Fin 1) (yz : Fin 1024) (c : Fin 64) :
    (k0_pay38 (k0_pay37 (k0_pay6 X0) (k0_pay7 X2) (k0_pay29 (k0_pay6 X0) (k0_pay8 X1)) (k0_pay30 (k0_pay6 X0) (k0_pay8 X1)) (k0_pay31 (k0_pay6 X0) (k0_pay8 X1)) (k0_pay32 (k0_pay8 X1)) prev)) (ix3 u yz c)
      = prev (ix3 (0 : Fin 1) yz c) + ∑ p : Fin 4096, k0_pay7 X2 (ix2 yz p) * (k0_pay6 X0 (ix2 c p) * k0_pay8 X1 (ix2 (15 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

end Cert.KernelIdeal.Body

end
-- ==== Proof.BodyPlanes2.lean ====
/-
  Planes 16 to 23 of the feature accumulator after one run of the kernel body, read at an index at the exact extended reals.

  The body adds to plane `x` of the accumulator `[32, 1024, 64]` one `[1024, 64]` column band of a grouped product. Written
  out, plane `x` at cell `yz` and channel `c` becomes what it held plus the sum over the 4096 points `p` of the block of
  `OY (yz, p) * (FE (c, p) * OX (x, p))`: the in-plane one-hot weight, the feature, the plane one-hot weight.
-/
import proofs.«129199_j15135464751874_2_alg».proof.Proof.BodyAlgebra

noncomputable section

namespace Cert.KernelIdeal.Body

open Cert.KernelIdeal Cert.KernelIdeal.Gen Idealize.ShloMosaic Idealize.ShloMosaic.ValueIdx

variable [hK : Cert.KernelIdeal.Facts]

/-- Plane 16 of the accumulator after the body: what it held plus, at cell `yz` and channel `c`, the sum over the block's points of the in-plane weight times the feature times the weight of plane 16. -/
theorem plane_16 (X0 : Vec Ideal S1x64x4096 .f32) (X1 X2 : Vec Ideal S4096 .i32) (prev : Vec Ideal S1x1024x64 .f32)
    (u : Fin 1) (yz : Fin 1024) (c : Fin 64) :
    (k0_pay40 (k0_pay6 X0) (k0_pay7 X2) (k0_pay8 X1) prev) (ix3 u yz c)
      = prev (ix3 (0 : Fin 1) yz c) + ∑ p : Fin 4096, k0_pay7 X2 (ix2 yz p) * (k0_pay6 X0 (ix2 c p) * k0_pay8 X1 (ix2 (16 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 17 of the accumulator after the body: what it held plus, at cell `yz` and channel `c`, the sum over the block's points of the in-plane weight times the feature times the weight of plane 17. -/
theorem plane_17 (X0 : Vec Ideal S1x64x4096 .f32) (X1 X2 : Vec Ideal S4096 .i32) (prev : Vec Ideal S1x1024x64 .f32)
    (u : Fin 1) (yz : Fin 1024) (c : Fin 64) :
    (k0_pay41 (k0_pay6 X0) (k0_pay7 X2) (k0_pay8 X1) prev) (ix3 u yz c)
      = prev (ix3 (0 : Fin 1) yz c) + ∑ p : Fin 4096, k0_pay7 X2 (ix2 yz p) * (k0_pay6 X0 (ix2 c p) * k0_pay8 X1 (ix2 (17 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 18 of the accumulator after the body: what it held plus, at cell `yz` and channel `c`, the sum over the block's points of the in-plane weight times the feature times the weight of plane 18. -/
theorem plane_18 (X0 : Vec Ideal S1x64x4096 .f32) (X1 X2 : Vec Ideal S4096 .i32) (prev : Vec Ideal S1x1024x64 .f32)
    (u : Fin 1) (yz : Fin 1024) (c : Fin 64) :
    (k0_pay43 (k0_pay42 (k0_pay6 X0) (k0_pay7 X2) (k0_pay8 X1) prev)) (ix3 u yz c)
      = prev (ix3 (0 : Fin 1) yz c) + ∑ p : Fin 4096, k0_pay7 X2 (ix2 yz p) * (k0_pay6 X0 (ix2 c p) * k0_pay8 X1 (ix2 (18 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 19 of the accumulator after the body: what it held plus, at cell `yz` and channel `c`, the sum over the block's points of the in-plane weight times the feature times the weight of plane 19. -/
theorem plane_19 (X0 : Vec Ideal S1x64x4096 .f32) (X1 X2 : Vec Ideal S4096 .i32) (prev : Vec Ideal S1x1024x64 .f32)
    (u : Fin 1) (yz : Fin 1024) (c : Fin 64) :
    (k0_pay44 (k0_pay39 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (19 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

/-- Plane 20 of the accumulator after the body: what it held plus, at cell `yz` and channel `c`, the sum over the block's points of the in-plane weight times the feature times the weight of plane 20. -/
theorem plane_20 (X0 : Vec Ideal S1x64x4096 .f32) (X1 X2 : Vec Ideal S4096 .i32) (prev : Vec Ideal S1x1024x64 .f32)
    (u : Fin 1) (yz : Fin 1024) (c : Fin 64) :
    (k0_pay46 (k0_pay6 X0) (k0_pay7 X2) (k0_pay8 X1) prev) (ix3 u yz c)
      = prev (ix3 (0 : Fin 1) yz c) + ∑ p : Fin 4096, k0_pay7 X2 (ix2 yz p) * (k0_pay6 X0 (ix2 c p) * k0_pay8 X1 (ix2 (20 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 21 of the accumulator after the body: what it held plus, at cell `yz` and channel `c`, the sum over the block's points of the in-plane weight times the feature times the weight of plane 21. -/
theorem plane_21 (X0 : Vec Ideal S1x64x4096 .f32) (X1 X2 : Vec Ideal S4096 .i32) (prev : Vec Ideal S1x1024x64 .f32)
    (u : Fin 1) (yz : Fin 1024) (c : Fin 64) :
    (k0_pay47 (k0_pay45 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (21 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 22 of the accumulator after the body: what it held plus, at cell `yz` and channel `c`, the sum over the block's points of the in-plane weight times the feature times the weight of plane 22. -/
theorem plane_22 (X0 : Vec Ideal S1x64x4096 .f32) (X1 X2 : Vec Ideal S4096 .i32) (prev : Vec Ideal S1x1024x64 .f32)
    (u : Fin 1) (yz : Fin 1024) (c : Fin 64) :
    (k0_pay48 (k0_pay45 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (22 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 23 of the accumulator after the body: what it held plus, at cell `yz` and channel `c`, the sum over the block's points of the in-plane weight times the feature times the weight of plane 23. -/
theorem plane_23 (X0 : Vec Ideal S1x64x4096 .f32) (X1 X2 : Vec Ideal S4096 .i32) (prev : Vec Ideal S1x1024x64 .f32)
    (u : Fin 1) (yz : Fin 1024) (c : Fin 64) :
    (k0_pay49 (k0_pay45 (k0_pay6 X0) (k0_pay7 X2) (k0_pay8 X1)) prev) (ix3 u yz c)
      = prev (ix3 (0 : Fin 1) yz c) + ∑ p : Fin 4096, k0_pay7 X2 (ix2 yz p) * (k0_pay6 X0 (ix2 c p) * k0_pay8 X1 (ix2 (23 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

end Cert.KernelIdeal.Body

end
-- ==== Proof.BodyPlanes3.lean ====
/-
  Planes 24 to 31 of the feature accumulator after one run of the kernel body, read at an index at the exact extended reals.

  The body adds to plane `x` of the accumulator `[32, 1024, 64]` one `[1024, 64]` column band of a grouped product. Written
  out, plane `x` at cell `yz` and channel `c` becomes what it held plus the sum over the 4096 points `p` of the block of
  `OY (yz, p) * (FE (c, p) * OX (x, p))`: the in-plane one-hot weight, the feature, the plane one-hot weight.
-/
import proofs.«129199_j15135464751874_2_alg».proof.Proof.BodyAlgebra

noncomputable section

namespace Cert.KernelIdeal.Body

open Cert.KernelIdeal Cert.KernelIdeal.Gen Idealize.ShloMosaic Idealize.ShloMosaic.ValueIdx

variable [hK : Cert.KernelIdeal.Facts]

/-- Plane 24 of the accumulator after the body: what it held plus, at cell `yz` and channel `c`, the sum over the block's points of the in-plane weight times the feature times the weight of plane 24. -/
theorem plane_24 (X0 : Vec Ideal S1x64x4096 .f32) (X1 X2 : Vec Ideal S4096 .i32) (prev : Vec Ideal S1x1024x64 .f32)
    (u : Fin 1) (yz : Fin 1024) (c : Fin 64) :
    (k0_pay55 (k0_pay7 X2) (k0_pay50 (k0_pay6 X0) (k0_pay8 X1)) (k0_pay51 (k0_pay6 X0) (k0_pay8 X1)) (k0_pay52 (k0_pay6 X0) (k0_pay8 X1)) (k0_pay53 (k0_pay6 X0) (k0_pay8 X1)) prev) (ix3 u yz c)
      = prev (ix3 (0 : Fin 1) yz c) + ∑ p : Fin 4096, k0_pay7 X2 (ix2 yz p) * (k0_pay6 X0 (ix2 c p) * k0_pay8 X1 (ix2 (24 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 25 of the accumulator after the body: what it held plus, at cell `yz` and channel `c`, the sum over the block's points of the in-plane weight times the feature times the weight of plane 25. -/
theorem plane_25 (X0 : Vec Ideal S1x64x4096 .f32) (X1 X2 : Vec Ideal S4096 .i32) (prev : Vec Ideal S1x1024x64 .f32)
    (u : Fin 1) (yz : Fin 1024) (c : Fin 64) :
    (k0_pay56 (k0_pay7 X2) (k0_pay50 (k0_pay6 X0) (k0_pay8 X1)) (k0_pay51 (k0_pay6 X0) (k0_pay8 X1)) (k0_pay52 (k0_pay6 X0) (k0_pay8 X1)) (k0_pay53 (k0_pay6 X0) (k0_pay8 X1)) prev) (ix3 u yz c)
      = prev (ix3 (0 : Fin 1) yz c) + ∑ p : Fin 4096, k0_pay7 X2 (ix2 yz p) * (k0_pay6 X0 (ix2 c p) * k0_pay8 X1 (ix2 (25 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 26 of the accumulator after the body: what it held plus, at cell `yz` and channel `c`, the sum over the block's points of the in-plane weight times the feature times the weight of plane 26. -/
theorem plane_26 (X0 : Vec Ideal S1x64x4096 .f32) (X1 X2 : Vec Ideal S4096 .i32) (prev : Vec Ideal S1x1024x64 .f32)
    (u : Fin 1) (yz : Fin 1024) (c : Fin 64) :
    (k0_pay57 (k0_pay7 X2) (k0_pay50 (k0_pay6 X0) (k0_pay8 X1)) (k0_pay51 (k0_pay6 X0) (k0_pay8 X1)) (k0_pay52 (k0_pay6 X0) (k0_pay8 X1)) (k0_pay53 (k0_pay6 X0) (k0_pay8 X1)) prev) (ix3 u yz c)
      = prev (ix3 (0 : Fin 1) yz c) + ∑ p : Fin 4096, k0_pay7 X2 (ix2 yz p) * (k0_pay6 X0 (ix2 c p) * k0_pay8 X1 (ix2 (26 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 27 of the accumulator after the body: what it held plus, at cell `yz` and channel `c`, the sum over the block's points of the in-plane weight times the feature times the weight of plane 27. -/
theorem plane_27 (X0 : Vec Ideal S1x64x4096 .f32) (X1 X2 : Vec Ideal S4096 .i32) (prev : Vec Ideal S1x1024x64 .f32)
    (u : Fin 1) (yz : Fin 1024) (c : Fin 64) :
    (k0_pay58 (k0_pay7 X2) (k0_pay50 (k0_pay6 X0) (k0_pay8 X1)) (k0_pay51 (k0_pay6 X0) (k0_pay8 X1)) (k0_pay52 (k0_pay6 X0) (k0_pay8 X1)) (k0_pay53 (k0_pay6 X0) (k0_pay8 X1)) prev) (ix3 u yz c)
      = prev (ix3 (0 : Fin 1) yz c) + ∑ p : Fin 4096, k0_pay7 X2 (ix2 yz p) * (k0_pay6 X0 (ix2 c p) * k0_pay8 X1 (ix2 (27 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

/-- Plane 28 of the accumulator after the body: what it held plus, at cell `yz` and channel `c`, the sum over the block's points of the in-plane weight times the feature times the weight of plane 28. -/
theorem plane_28 (X0 : Vec Ideal S1x64x4096 .f32) (X1 X2 : Vec Ideal S4096 .i32) (prev : Vec Ideal S1x1024x64 .f32)
    (u : Fin 1) (yz : Fin 1024) (c : Fin 64) :
    (k0_pay61 (k0_pay6 X0) (k0_pay7 X2) (k0_pay8 X1) (k0_pay59 (k0_pay8 X1)) prev) (ix3 u yz c)
      = prev (ix3 (0 : Fin 1) yz c) + ∑ p : Fin 4096, k0_pay7 X2 (ix2 yz p) * (k0_pay6 X0 (ix2 c p) * k0_pay8 X1 (ix2 (28 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 0 (by omega) _ rfl _ yz c).trans ?_
  refine Finset.sum_congr rfl fun p _ => ?_
  rw [mask_apply]
  rfl

/-- Plane 29 of the accumulator after the body: what it held plus, at cell `yz` and channel `c`, the sum over the block's points of the in-plane weight times the feature times the weight of plane 29. -/
theorem plane_29 (X0 : Vec Ideal S1x64x4096 .f32) (X1 X2 : Vec Ideal S4096 .i32) (prev : Vec Ideal S1x1024x64 .f32)
    (u : Fin 1) (yz : Fin 1024) (c : Fin 64) :
    (k0_pay62 (k0_pay6 X0) (k0_pay7 X2) (k0_pay8 X1) (k0_pay59 (k0_pay8 X1)) prev) (ix3 u yz c)
      = prev (ix3 (0 : Fin 1) yz c) + ∑ p : Fin 4096, k0_pay7 X2 (ix2 yz p) * (k0_pay6 X0 (ix2 c p) * k0_pay8 X1 (ix2 (29 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 1 (by omega) _ rfl _ yz c).trans ?_
  refine Finset.sum_congr rfl fun p _ => ?_
  rw [mask_apply]
  rfl

/-- Plane 30 of the accumulator after the body: what it held plus, at cell `yz` and channel `c`, the sum over the block's points of the in-plane weight times the feature times the weight of plane 30. -/
theorem plane_30 (X0 : Vec Ideal S1x64x4096 .f32) (X1 X2 : Vec Ideal S4096 .i32) (prev : Vec Ideal S1x1024x64 .f32)
    (u : Fin 1) (yz : Fin 1024) (c : Fin 64) :
    (k0_pay1 (k0_pay63 (k0_pay6 X0) (k0_pay7 X2) (k0_pay8 X1) (k0_pay59 (k0_pay8 X1)) prev)) (ix3 u yz c)
      = prev (ix3 (0 : Fin 1) yz c) + ∑ p : Fin 4096, k0_pay7 X2 (ix2 yz p) * (k0_pay6 X0 (ix2 c p) * k0_pay8 X1 (ix2 (30 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 2 (by omega) _ rfl _ yz c).trans ?_
  refine Finset.sum_congr rfl fun p _ => ?_
  rw [mask_apply]
  rfl

/-- Plane 31 of the accumulator after the body: what it held plus, at cell `yz` and channel `c`, the sum over the block's points of the in-plane weight times the feature times the weight of plane 31. -/
theorem plane_31 (X0 : Vec Ideal S1x64x4096 .f32) (X1 X2 : Vec Ideal S4096 .i32) (prev : Vec Ideal S1x1024x64 .f32)
    (u : Fin 1) (yz : Fin 1024) (c : Fin 64) :
    (k0_pay2 (k0_pay60 (k0_pay6 X0) (k0_pay7 X2) (k0_pay8 X1) (k0_pay59 (k0_pay8 X1))) prev) (ix3 u yz c)
      = prev (ix3 (0 : Fin 1) yz c) + ∑ p : Fin 4096, k0_pay7 X2 (ix2 yz p) * (k0_pay6 X0 (ix2 c p) * k0_pay8 X1 (ix2 (31 : Fin 32) p)) := by
  simp only [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [shapeCast_ab_1ab_apply, addf_apply, shapeCast_1ab_ab_apply]
  congr 1
  refine (band_apply (k0_pay7 X2) _ _ _ _ _ 3 (by omega) _ rfl _ yz c).trans ?_
  refine Finset.sum_congr rfl fun p _ => ?_
  rw [mask_apply]
  rfl

end Cert.KernelIdeal.Body

end
-- ==== Proof.CaseA.lean ====
/-
  The first block of a batch: what the kernel body leaves in the two accumulators.

  Both accumulators are first overwritten with zeros; the body then adds the block's addends as at any other block. The
  feature accumulator ends at the block's addend over zero, the count accumulator at the block's count addend over zero.
-/
import proofs.«129199_j15135464751874_2_alg».proof.Proof.BodyCases
import proofs.«129199_j15135464751874_2_alg».proof.Proof.BodyPlanes0
import proofs.«129199_j15135464751874_2_alg».proof.Proof.BodyPlanes1
import proofs.«129199_j15135464751874_2_alg».proof.Proof.BodyPlanes2
import proofs.«129199_j15135464751874_2_alg».proof.Proof.BodyPlanes3
import proofs.«129199_j15135464751874_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem

private theorem hz1 : (![0] : Fin 1 → Nat) = fun _ => 0 := funext fun a => by fin_cases a; rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- The first block of a batch leaves the feature accumulator at zero plus the block's addend. -/
theorem soutA0_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : cond0_0 i) (hc1 : ¬cond0_1 i) (x0 : Vec Ideal S1x64x4096 .f32) (x1 : Vec Ideal S4096 .i32) (x2 : Vec Ideal S4096 .i32) :
    sout0_A_0 (F := Ideal) c i arg2 harg2 arg3 harg3 arg4 harg4 arg5 harg5 arg6 harg6 arg7 harg7 hc0 hc1 x0 x1 x2 = accStep x0 x1 x2 (fun _ => 0) := by
  unfold sout0_A_0
  rw [View.read_writes_eq_canon _ _ _ (scover0_A_0 c i arg2 harg2 arg3 harg3 arg4 harg4 arg5 harg5 arg6 harg6 arg7 harg7 hc0 hc1 x0 x1 x2)]
  refine filledTo_all x0 x1 x2 _ ?_
  unfold kernelRun0_A
  dsimp only
  sl_unfold_words
  simp only [View.readAt_eq_ld, harg2.read_unread, harg3.read_unread, harg4.read_unread,
    View.ld_unit_zero (S := S1x64x4096) hz3, View.ld_unit_zero (S := S4096) hz1]
  refine filledTo_succ _ x0 x1 x2 31 (by decide) _ ?_ _ _ (plane_31 x0 x1 x2 _)
  refine filledTo_succ _ x0 x1 x2 30 (by decide) _ ?_ _ _ (plane_30 x0 x1 x2 _)
  refine filledTo_succ _ x0 x1 x2 29 (by decide) _ ?_ _ _ (plane_29 x0 x1 x2 _)
  refine filledTo_succ _ x0 x1 x2 28 (by decide) _ ?_ _ _ (plane_28 x0 x1 x2 _)
  refine filledTo_succ _ x0 x1 x2 27 (by decide) _ ?_ _ _ (plane_27 x0 x1 x2 _)
  refine filledTo_succ _ x0 x1 x2 26 (by decide) _ ?_ _ _ (plane_26 x0 x1 x2 _)
  refine filledTo_succ _ x0 x1 x2 25 (by decide) _ ?_ _ _ (plane_25 x0 x1 x2 _)
  refine filledTo_succ _ x0 x1 x2 24 (by decide) _ ?_ _ _ (plane_24 x0 x1 x2 _)
  refine filledTo_succ _ x0 x1 x2 23 (by decide) _ ?_ _ _ (plane_23 x0 x1 x2 _)
  refine filledTo_succ _ x0 x1 x2 22 (by decide) _ ?_ _ _ (plane_22 x0 x1 x2 _)
  refine filledTo_succ _ x0 x1 x2 21 (by decide) _ ?_ _ _ (plane_21 x0 x1 x2 _)
  refine filledTo_succ _ x0 x1 x2 20 (by decide) _ ?_ _ _ (plane_20 x0 x1 x2 _)
  refine filledTo_succ _ x0 x1 x2 19 (by decide) _ ?_ _ _ (plane_19 x0 x1 x2 _)
  refine filledTo_succ _ x0 x1 x2 18 (by decide) _ ?_ _ _ (plane_18 x0 x1 x2 _)
  refine filledTo_succ _ x0 x1 x2 17 (by decide) _ ?_ _ _ (plane_17 x0 x1 x2 _)
  refine filledTo_succ _ x0 x1 x2 16 (by decide) _ ?_ _ _ (plane_16 x0 x1 x2 _)
  refine filledTo_succ _ x0 x1 x2 15 (by decide) _ ?_ _ _ (plane_15 x0 x1 x2 _)
  refine filledTo_succ _ x0 x1 x2 14 (by decide) _ ?_ _ _ (plane_14 x0 x1 x2 _)
  refine filledTo_succ _ x0 x1 x2 13 (by decide) _ ?_ _ _ (plane_13 x0 x1 x2 _)
  refine filledTo_succ _ x0 x1 x2 12 (by decide) _ ?_ _ _ (plane_12 x0 x1 x2 _)
  refine filledTo_succ _ x0 x1 x2 11 (by decide) _ ?_ _ _ (plane_11 x0 x1 x2 _)
  refine filledTo_succ _ x0 x1 x2 10 (by decide) _ ?_ _ _ (plane_10 x0 x1 x2 _)
  refine filledTo_succ _ x0 x1 x2 9 (by decide) _ ?_ _ _ (plane_9 x0 x1 x2 _)
  refine filledTo_succ _ x0 x1 x2 8 (by decide) _ ?_ _ _ (plane_8 x0 x1 x2 _)
  refine filledTo_succ _ x0 x1 x2 7 (by decide) _ ?_ _ _ (plane_7 x0 x1 x2 _)
  refine filledTo_succ _ x0 x1 x2 6 (by decide) _ ?_ _ _ (plane_6 x0 x1 x2 _)
  refine filledTo_succ _ x0 x1 x2 5 (by decide) _ ?_ _ _ (plane_5 x0 x1 x2 _)
  refine filledTo_succ _ x0 x1 x2 4 (by decide) _ ?_ _ _ (plane_4 x0 x1 x2 _)
  refine filledTo_succ _ x0 x1 x2 3 (by decide) _ ?_ _ _ (plane_3 x0 x1 x2 _)
  refine filledTo_succ _ x0 x1 x2 2 (by decide) _ ?_ _ _ (plane_2 x0 x1 x2 _)
  refine filledTo_succ _ x0 x1 x2 1 (by decide) _ ?_ _ _ (plane_1 x0 x1 x2 _)
  refine filledTo_succ _ x0 x1 x2 0 (by decide) _ ?_ _ _ (plane_0 x0 x1 x2 _)
  exact filledTo_zero x0 x1 x2 hz3 _

/-- The first block of a batch leaves the count accumulator at zero plus the block's count addend. -/
theorem soutA1_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : cond0_0 i) (hc1 : ¬cond0_1 i) (x0 : Vec Ideal S1x64x4096 .f32) (x1 : Vec Ideal S4096 .i32) (x2 : Vec Ideal S4096 .i32) :
    sout0_A_1 (F := Ideal) c i arg2 harg2 arg3 harg3 arg4 harg4 arg5 harg5 arg6 harg6 arg7 harg7 hc0 hc1 x0 x1 x2 = cntStep x1 x2 (fun _ => 0) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1024x32) hz2, View.readCov_unit_zero (S := S1024x32) _ hz2]
  simp only [View.readAt_eq_ld, harg3.read_unread, harg4.read_unread,
    View.ld_unit_zero (S := S4096) hz1]
  rw [count_eq x1 x2]
  exact congrArg (cntStep x1 x2) (funext fun j => zeroCnt_apply j)

end Cert.KernelIdeal.Body

end
-- ==== Proof.CaseB.lean ====
/-
  A middle block of a batch (neither its first nor its last): what the kernel body leaves in the two accumulators.

  The feature accumulator ends at its old contents plus the block's addend (32 plane stores, each covering its plane);
  the count accumulator at its old contents plus the block's count addend (one store of the whole buffer).
-/
import proofs.«129199_j15135464751874_2_alg».proof.Proof.BodyCases
import proofs.«129199_j15135464751874_2_alg».proof.Proof.BodyPlanes0
import proofs.«129199_j15135464751874_2_alg».proof.Proof.BodyPlanes1
import proofs.«129199_j15135464751874_2_alg».proof.Proof.BodyPlanes2
import proofs.«129199_j15135464751874_2_alg».proof.Proof.BodyPlanes3
import proofs.«129199_j15135464751874_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem

private theorem hz1 : (![0] : Fin 1 → Nat) = fun _ => 0 := funext fun a => by fin_cases a; rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- A middle block leaves the feature accumulator at its old contents plus the block's addend. -/
theorem soutB0_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : ¬cond0_0 i) (hc1 : ¬cond0_1 i) (x0 : Vec Ideal S1x64x4096 .f32) (x1 : Vec Ideal S4096 .i32) (x2 : Vec Ideal S4096 .i32) (xs0 : Vec Ideal S32x1024x64 .f32) (xs1 : Vec Ideal S1024x32 .f32) :
    sout0_B_0 (F := Ideal) c i arg2 harg2 arg3 harg3 arg4 harg4 arg5 harg5 arg6 harg6 arg7 harg7 hc0 hc1 x0 x1 x2 xs0 xs1 = accStep x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  refine planesTo_all x0 x1 x2 xs0 _ ?_
  unfold kernelRun0_B
  dsimp only
  sl_unfold_words
  simp only [View.readAt_eq_ld, harg2.read_unread, harg3.read_unread, harg4.read_unread, harg6.read_unread, harg7.read_unread,
    View.ld_unit_zero (S := S1x64x4096) hz3, View.ld_unit_zero (S := S4096) hz1]
  refine planesTo_succ x0 x1 x2 xs0 31 (by decide) _ ?_ _ _ (plane_31 x0 x1 x2 _)
  refine planesTo_succ x0 x1 x2 xs0 30 (by decide) _ ?_ _ _ (plane_30 x0 x1 x2 _)
  refine planesTo_succ x0 x1 x2 xs0 29 (by decide) _ ?_ _ _ (plane_29 x0 x1 x2 _)
  refine planesTo_succ x0 x1 x2 xs0 28 (by decide) _ ?_ _ _ (plane_28 x0 x1 x2 _)
  refine planesTo_succ x0 x1 x2 xs0 27 (by decide) _ ?_ _ _ (plane_27 x0 x1 x2 _)
  refine planesTo_succ x0 x1 x2 xs0 26 (by decide) _ ?_ _ _ (plane_26 x0 x1 x2 _)
  refine planesTo_succ x0 x1 x2 xs0 25 (by decide) _ ?_ _ _ (plane_25 x0 x1 x2 _)
  refine planesTo_succ x0 x1 x2 xs0 24 (by decide) _ ?_ _ _ (plane_24 x0 x1 x2 _)
  refine planesTo_succ x0 x1 x2 xs0 23 (by decide) _ ?_ _ _ (plane_23 x0 x1 x2 _)
  refine planesTo_succ x0 x1 x2 xs0 22 (by decide) _ ?_ _ _ (plane_22 x0 x1 x2 _)
  refine planesTo_succ x0 x1 x2 xs0 21 (by decide) _ ?_ _ _ (plane_21 x0 x1 x2 _)
  refine planesTo_succ x0 x1 x2 xs0 20 (by decide) _ ?_ _ _ (plane_20 x0 x1 x2 _)
  refine planesTo_succ x0 x1 x2 xs0 19 (by decide) _ ?_ _ _ (plane_19 x0 x1 x2 _)
  refine planesTo_succ x0 x1 x2 xs0 18 (by decide) _ ?_ _ _ (plane_18 x0 x1 x2 _)
  refine planesTo_succ x0 x1 x2 xs0 17 (by decide) _ ?_ _ _ (plane_17 x0 x1 x2 _)
  refine planesTo_succ x0 x1 x2 xs0 16 (by decide) _ ?_ _ _ (plane_16 x0 x1 x2 _)
  refine planesTo_succ x0 x1 x2 xs0 15 (by decide) _ ?_ _ _ (plane_15 x0 x1 x2 _)
  refine planesTo_succ x0 x1 x2 xs0 14 (by decide) _ ?_ _ _ (plane_14 x0 x1 x2 _)
  refine planesTo_succ x0 x1 x2 xs0 13 (by decide) _ ?_ _ _ (plane_13 x0 x1 x2 _)
  refine planesTo_succ x0 x1 x2 xs0 12 (by decide) _ ?_ _ _ (plane_12 x0 x1 x2 _)
  refine planesTo_succ x0 x1 x2 xs0 11 (by decide) _ ?_ _ _ (plane_11 x0 x1 x2 _)
  refine planesTo_succ x0 x1 x2 xs0 10 (by decide) _ ?_ _ _ (plane_10 x0 x1 x2 _)
  refine planesTo_succ x0 x1 x2 xs0 9 (by decide) _ ?_ _ _ (plane_9 x0 x1 x2 _)
  refine planesTo_succ x0 x1 x2 xs0 8 (by decide) _ ?_ _ _ (plane_8 x0 x1 x2 _)
  refine planesTo_succ x0 x1 x2 xs0 7 (by decide) _ ?_ _ _ (plane_7 x0 x1 x2 _)
  refine planesTo_succ x0 x1 x2 xs0 6 (by decide) _ ?_ _ _ (plane_6 x0 x1 x2 _)
  refine planesTo_succ x0 x1 x2 xs0 5 (by decide) _ ?_ _ _ (plane_5 x0 x1 x2 _)
  refine planesTo_succ x0 x1 x2 xs0 4 (by decide) _ ?_ _ _ (plane_4 x0 x1 x2 _)
  refine planesTo_succ x0 x1 x2 xs0 3 (by decide) _ ?_ _ _ (plane_3 x0 x1 x2 _)
  refine planesTo_succ x0 x1 x2 xs0 2 (by decide) _ ?_ _ _ (plane_2 x0 x1 x2 _)
  refine planesTo_succ x0 x1 x2 xs0 1 (by decide) _ ?_ _ _ (plane_1 x0 x1 x2 _)
  refine planesTo_succ x0 x1 x2 xs0 0 (by decide) _ ?_ _ _ (plane_0 x0 x1 x2 _)
  exact planesTo_nil x0 x1 x2 xs0

/-- A middle block leaves the count accumulator at its old contents plus the block's count addend. -/
theorem soutB1_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : ¬cond0_0 i) (hc1 : ¬cond0_1 i) (x0 : Vec Ideal S1x64x4096 .f32) (x1 : Vec Ideal S4096 .i32) (x2 : Vec Ideal S4096 .i32) (xs0 : Vec Ideal S32x1024x64 .f32) (xs1 : Vec Ideal S1024x32 .f32) :
    sout0_B_1 (F := Ideal) c i arg2 harg2 arg3 harg3 arg4 harg4 arg5 harg5 arg6 harg6 arg7 harg7 hc0 hc1 x0 x1 x2 xs0 xs1 = cntStep x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg3.read_unread, harg4.read_unread, harg7.read_unread,
    View.ld_unit_zero (S := S4096) hz1, View.ld_unit_zero (S := S1024x32) hz2]
  exact count_eq x1 x2 xs1

end Cert.KernelIdeal.Body

end
-- ==== Proof.CaseC.lean ====
/-
  The last block of a batch: what the kernel body leaves in the two accumulators and in the output block.

  The accumulators gain the block's addends as at a middle block; the body then reads both back and stores, into the
  output block `[1, 64, 32, 1024]`, the feature sums divided by the counts raised to at least one, channel first.
-/
import proofs.«129199_j15135464751874_2_alg».proof.Proof.BodyCases
import proofs.«129199_j15135464751874_2_alg».proof.Proof.BodyPlanes0
import proofs.«129199_j15135464751874_2_alg».proof.Proof.BodyPlanes1
import proofs.«129199_j15135464751874_2_alg».proof.Proof.BodyPlanes2
import proofs.«129199_j15135464751874_2_alg».proof.Proof.BodyPlanes3
import proofs.«129199_j15135464751874_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem

private theorem hz1 : (![0] : Fin 1 → Nat) = fun _ => 0 := funext fun a => by fin_cases a; rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- The 32 plane stores of the last block, over the old contents. -/
theorem runC_planes (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : ¬cond0_0 i) (hc1 : cond0_1 i) (x0 : Vec Ideal S1x64x4096 .f32) (x1 : Vec Ideal S4096 .i32) (x2 : Vec Ideal S4096 .i32) (xs0 : Vec Ideal S32x1024x64 .f32) (xs1 : Vec Ideal S1024x32 .f32) :
    PlanesTo x0 x1 x2 xs0 32 (kernelRun0_C (F := Ideal) c i arg2 harg2 arg3 harg3 arg4 harg4 arg5 harg5 arg6 harg6 arg7 harg7 hc0 hc1 x0 x1 x2 xs0 xs1).2.1 := by
  unfold kernelRun0_C
  dsimp only
  sl_unfold_words
  simp only [View.readAt_eq_ld, harg2.read_unread, harg3.read_unread, harg4.read_unread, harg6.read_unread, harg7.read_unread,
    View.ld_unit_zero (S := S1x64x4096) hz3, View.ld_unit_zero (S := S4096) hz1]
  refine planesTo_succ x0 x1 x2 xs0 31 (by decide) _ ?_ _ _ (plane_31 x0 x1 x2 _)
  refine planesTo_succ x0 x1 x2 xs0 30 (by decide) _ ?_ _ _ (plane_30 x0 x1 x2 _)
  refine planesTo_succ x0 x1 x2 xs0 29 (by decide) _ ?_ _ _ (plane_29 x0 x1 x2 _)
  refine planesTo_succ x0 x1 x2 xs0 28 (by decide) _ ?_ _ _ (plane_28 x0 x1 x2 _)
  refine planesTo_succ x0 x1 x2 xs0 27 (by decide) _ ?_ _ _ (plane_27 x0 x1 x2 _)
  refine planesTo_succ x0 x1 x2 xs0 26 (by decide) _ ?_ _ _ (plane_26 x0 x1 x2 _)
  refine planesTo_succ x0 x1 x2 xs0 25 (by decide) _ ?_ _ _ (plane_25 x0 x1 x2 _)
  refine planesTo_succ x0 x1 x2 xs0 24 (by decide) _ ?_ _ _ (plane_24 x0 x1 x2 _)
  refine planesTo_succ x0 x1 x2 xs0 23 (by decide) _ ?_ _ _ (plane_23 x0 x1 x2 _)
  refine planesTo_succ x0 x1 x2 xs0 22 (by decide) _ ?_ _ _ (plane_22 x0 x1 x2 _)
  refine planesTo_succ x0 x1 x2 xs0 21 (by decide) _ ?_ _ _ (plane_21 x0 x1 x2 _)
  refine planesTo_succ x0 x1 x2 xs0 20 (by decide) _ ?_ _ _ (plane_20 x0 x1 x2 _)
  refine planesTo_succ x0 x1 x2 xs0 19 (by decide) _ ?_ _ _ (plane_19 x0 x1 x2 _)
  refine planesTo_succ x0 x1 x2 xs0 18 (by decide) _ ?_ _ _ (plane_18 x0 x1 x2 _)
  refine planesTo_succ x0 x1 x2 xs0 17 (by decide) _ ?_ _ _ (plane_17 x0 x1 x2 _)
  refine planesTo_succ x0 x1 x2 xs0 16 (by decide) _ ?_ _ _ (plane_16 x0 x1 x2 _)
  refine planesTo_succ x0 x1 x2 xs0 15 (by decide) _ ?_ _ _ (plane_15 x0 x1 x2 _)
  refine planesTo_succ x0 x1 x2 xs0 14 (by decide) _ ?_ _ _ (plane_14 x0 x1 x2 _)
  refine planesTo_succ x0 x1 x2 xs0 13 (by decide) _ ?_ _ _ (plane_13 x0 x1 x2 _)
  refine planesTo_succ x0 x1 x2 xs0 12 (by decide) _ ?_ _ _ (plane_12 x0 x1 x2 _)
  refine planesTo_succ x0 x1 x2 xs0 11 (by decide) _ ?_ _ _ (plane_11 x0 x1 x2 _)
  refine planesTo_succ x0 x1 x2 xs0 10 (by decide) _ ?_ _ _ (plane_10 x0 x1 x2 _)
  refine planesTo_succ x0 x1 x2 xs0 9 (by decide) _ ?_ _ _ (plane_9 x0 x1 x2 _)
  refine planesTo_succ x0 x1 x2 xs0 8 (by decide) _ ?_ _ _ (plane_8 x0 x1 x2 _)
  refine planesTo_succ x0 x1 x2 xs0 7 (by decide) _ ?_ _ _ (plane_7 x0 x1 x2 _)
  refine planesTo_succ x0 x1 x2 xs0 6 (by decide) _ ?_ _ _ (plane_6 x0 x1 x2 _)
  refine planesTo_succ x0 x1 x2 xs0 5 (by decide) _ ?_ _ _ (plane_5 x0 x1 x2 _)
  refine planesTo_succ x0 x1 x2 xs0 4 (by decide) _ ?_ _ _ (plane_4 x0 x1 x2 _)
  refine planesTo_succ x0 x1 x2 xs0 3 (by decide) _ ?_ _ _ (plane_3 x0 x1 x2 _)
  refine planesTo_succ x0 x1 x2 xs0 2 (by decide) _ ?_ _ _ (plane_2 x0 x1 x2 _)
  refine planesTo_succ x0 x1 x2 xs0 1 (by decide) _ ?_ _ _ (plane_1 x0 x1 x2 _)
  refine planesTo_succ x0 x1 x2 xs0 0 (by decide) _ ?_ _ _ (plane_0 x0 x1 x2 _)
  exact planesTo_nil x0 x1 x2 xs0

/-- The last block leaves the feature accumulator at its old contents plus the block's addend. -/
theorem soutC0_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : ¬cond0_0 i) (hc1 : cond0_1 i) (x0 : Vec Ideal S1x64x4096 .f32) (x1 : Vec Ideal S4096 .i32) (x2 : Vec Ideal S4096 .i32) (xs0 : Vec Ideal S32x1024x64 .f32) (xs1 : Vec Ideal S1024x32 .f32) :
    sout0_C_0 (F := Ideal) c i arg2 harg2 arg3 harg3 arg4 harg4 arg5 harg5 arg6 harg6 arg7 harg7 hc0 hc1 x0 x1 x2 xs0 xs1 = accStep x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  exact planesTo_all x0 x1 x2 xs0 _ (runC_planes c i arg2 harg2 arg3 harg3 arg4 harg4 arg5 harg5 arg6 harg6 arg7 harg7 hc0 hc1 x0 x1 x2 xs0 xs1)

/-- The last block leaves the count accumulator at its old contents plus the block's count addend. -/
theorem soutC1_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : ¬cond0_0 i) (hc1 : cond0_1 i) (x0 : Vec Ideal S1x64x4096 .f32) (x1 : Vec Ideal S4096 .i32) (x2 : Vec Ideal S4096 .i32) (xs0 : Vec Ideal S32x1024x64 .f32) (xs1 : Vec Ideal S1024x32 .f32) :
    sout0_C_1 (F := Ideal) c i arg2 harg2 arg3 harg3 arg4 harg4 arg5 harg5 arg6 harg6 arg7 harg7 hc0 hc1 x0 x1 x2 xs0 xs1 = cntStep x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg3.read_unread, harg4.read_unread, harg7.read_unread,
    View.ld_unit_zero (S := S4096) hz1, View.ld_unit_zero (S := S1024x32) hz2]
  exact count_eq x1 x2 xs1

/-- The last block's output block: the normalisation of the two accumulators as the block leaves them. -/
theorem outC3_eq (c : Dev nD) (i : grid0.Coords) (arg2 : Memref sig .tc .vmem S1x64x4096 .f32) (harg2 : arg2.IsWhole) (arg3 : Memref sig .tc .vmem S4096 .i32) (harg3 : arg3.IsWhole) (arg4 : Memref sig .tc .vmem S4096 .i32) (harg4 : arg4.IsWhole) (arg5 : Memref sig .tc .vmem S1x64x32x1024 .f32) (harg5 : arg5.IsWhole) (arg6 : Memref sig .tc .vmem S32x1024x64 .f32) (harg6 : arg6.IsWhole) (arg7 : Memref sig .tc .vmem S1024x32 .f32) (harg7 : arg7.IsWhole) (hc0 : ¬cond0_0 i) (hc1 : cond0_1 i) (x0 : Vec Ideal S1x64x4096 .f32) (x1 : Vec Ideal S4096 .i32) (x2 : Vec Ideal S4096 .i32) (xs0 : Vec Ideal S32x1024x64 .f32) (xs1 : Vec Ideal S1024x32 .f32) :
    out0_C_3 (F := Ideal) c i arg2 harg2 arg3 harg3 arg4 harg4 arg5 harg5 arg6 harg6 arg7 harg7 hc0 hc1 x0 x1 x2 xs0 xs1 = k0_pay3 (accStep x0 x1 x2 xs0) (cntStep x1 x2 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  have h := runC_planes c i arg2 harg2 arg3 harg3 arg4 harg4 arg5 harg5 arg6 harg6 arg7 harg7 hc0 hc1 x0 x1 x2 xs0 xs1
  revert h
  unfold kernelRun0_C
  dsimp only
  sl_unfold_words
  intro h
  rw [View.canon_unit_zero hz4]
  simp only [View.readAt_eq_ld, harg2.read_unread, harg3.read_unread, harg4.read_unread, harg6.read_unread, harg7.read_unread,
    View.ld_unit_zero (S := S1x64x4096) hz3, View.ld_unit_zero (S := S4096) hz1, View.ld_unit_zero (S := S1024x32) hz2] at h ⊢
  rw [View.readCov_unit_zero (S := S1024x32) _ hz2, count_eq x1 x2 xs1, View.readCov_eq_canon']
  show k0_pay3 (View.ld (View.canon _) (Rect.unit (s := S32x1024x64) ![0, 0, 0] S32x1024x64.size _)) _ = _
  rw [View.ld_unit_zero (S := S32x1024x64) hz3, planesTo_all x0 x1 x2 xs0 _ h]

end Cert.KernelIdeal.Body

end
-- ==== Proof.Accumulation.lean ====
/-
  The accumulators over a batch's run of 25 blocks, and the output block its last block stores.

  Grid point `t` is block `t % 25` of batch `t / 25`. At a batch's first block the two accumulators are reset and gain
  that block's addends; at every later block they gain the block's addends over what the block before left. So after the
  batch's last block the feature accumulator holds, at every index, zero plus the sum over the batch's 25 blocks of the
  blocks' addends, and likewise the count accumulator; the output block stored there is their quotient.
-/
import proofs.«129199_j15135464751874_2_alg».proof.Proof.CaseA
import proofs.«129199_j15135464751874_2_alg».proof.Proof.CaseB
import proofs.«129199_j15135464751874_2_alg».proof.Proof.CaseC

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (accAt eq_accAt_of_mod accAt_add_apply)

variable (m : (ℓ : Loc nD τ sig) → Buf (Elt Ideal) ℓ)

/-- The three input blocks the body loads at point `t`: features `[1, 64, 4096]`, plane keys and in-plane keys `[4096]`. -/
def blk0 (c : Dev nD) (t : Fin cfg0.N) : Vec Ideal S1x64x4096 .f32 := iblk m c 0 t
def blk1 (c : Dev nD) (t : Fin cfg0.N) : Vec Ideal S4096 .i32 := iblk m c 1 t
def blk2 (c : Dev nD) (t : Fin cfg0.N) : Vec Ideal S4096 .i32 := iblk m c 2 t

/-- The feature accumulator after a batch's first block. -/
theorem acc_reset (c : Dev nD) (t : Fin cfg0.N) (h0 : t.val % 25 = 0) :
    (outsAt0 m c t.val t.isLt).2.1 = accStep (blk0 m c t) (blk1 m c t) (blk2 m c t) (fun _ => 0) := by
  have h1 : ¬t.val % 25 = 24 := by omega
  rw [outsAt0_A m c t h0 h1]
  dsimp only
  exact soutA0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- The count accumulator after a batch's first block. -/
theorem cnt_reset (c : Dev nD) (t : Fin cfg0.N) (h0 : t.val % 25 = 0) :
    (outsAt0 m c t.val t.isLt).2.2 = cntStep (blk1 m c t) (blk2 m c t) (fun _ => 0) := by
  have h1 : ¬t.val % 25 = 24 := by omega
  rw [outsAt0_A m c t h0 h1]
  dsimp only
  exact soutA1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- The feature accumulator after a later block, over what the block before left. -/
theorem acc_step (c : Dev nD) (t : Fin cfg0.N) (h0 : ¬t.val % 25 = 0) :
    (outsAt0 m c t.val t.isLt).2.1 = accStep (blk0 m c t) (blk1 m c t) (blk2 m c t)
      (outsAt0 m c (t.val - 1) (Nat.lt_of_le_of_lt (Nat.sub_le _ _) t.isLt)).2.1 := by
  by_cases h1 : t.val % 25 = 24
  · rw [outsAt0_C m c t h0 h1]
    dsimp only
    exact soutC0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact soutB0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- The count accumulator after a later block, over what the block before left. -/
theorem cnt_step (c : Dev nD) (t : Fin cfg0.N) (h0 : ¬t.val % 25 = 0) :
    (outsAt0 m c t.val t.isLt).2.2 = cntStep (blk1 m c t) (blk2 m c t)
      (outsAt0 m c (t.val - 1) (Nat.lt_of_le_of_lt (Nat.sub_le _ _) t.isLt)).2.2 := by
  by_cases h1 : t.val % 25 = 24
  · rw [outsAt0_C m c t h0 h1]
    dsimp only
    exact soutC1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact soutB1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- The output block a batch's last block stores: the normalisation of the two accumulators as that block leaves them. -/
theorem out_last (c : Dev nD) (t : Fin cfg0.N) (h1 : t.val % 25 = 24) :
    (outsAt0 m c t.val t.isLt).1 = k0_pay3 (outsAt0 m c t.val t.isLt).2.1 (outsAt0 m c t.val t.isLt).2.2 := by
  have h0 : ¬t.val % 25 = 0 := by omega
  rw [outsAt0_C m c t h0 h1]
  dsimp only
  rw [outC3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, soutC0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, soutC1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]

/-- Block `n`'s addend to the feature accumulator (zero past the grid). -/
def addN (c : Dev nD) (n : Nat) : S32x1024x64.Idx → EReal := fun i =>
  if h : n < cfg0.N then addendAt (blk0 m c ⟨n, h⟩) (blk1 m c ⟨n, h⟩) (blk2 m c ⟨n, h⟩) (i 0) (i 1) (i 2) else 0

/-- Block `n`'s addend to the count accumulator (zero past the grid). -/
def cntN (c : Dev nD) (n : Nat) : S1024x32.Idx → EReal := fun i =>
  if h : n < cfg0.N then cntAddendAt (blk1 m c ⟨n, h⟩) (blk2 m c ⟨n, h⟩) (i 0) (i 1) else 0

/-- After a batch's last block the feature accumulator is zero plus the sum of the batch's 25 blocks' addends. -/
theorem acc_last (c : Dev nD) (t : Fin cfg0.N) (h1 : t.val % 25 = 24) (i : S32x1024x64.Idx) :
    (outsAt0 m c t.val t.isLt).2.1 i = 0 + ∑ s ∈ Finset.range 25, addN m c (25 * (t.val / 25) + s) i := by
  have hN : cfg0.N = 200 := N_0
  have ht := t.isLt
  have hlt : 25 * (t.val / 25) + t.val % 25 < cfg0.N := by rw [Nat.div_add_mod]; exact t.isLt
  have e := eq_accAt_of_mod (N := cfg0.N) (fun n h => (outsAt0 m c n h).2.1) 25
    (fun n h => accStep (blk0 m c ⟨n, h⟩) (blk1 m c ⟨n, h⟩) (blk2 m c ⟨n, h⟩) (fun _ => 0))
    (fun n h acc => accStep (blk0 m c ⟨n, h⟩) (blk1 m c ⟨n, h⟩) (blk2 m c ⟨n, h⟩) acc)
    (fun n h hn => acc_reset m c ⟨n, h⟩ hn)
    (fun n h hn => acc_step m c ⟨n + 1, h⟩ hn)
    (by decide) t.val t.isLt hlt
  rw [e]
  have := accAt_add_apply (N := cfg0.N)
    (fun n h => accStep (blk0 m c ⟨n, h⟩) (blk1 m c ⟨n, h⟩) (blk2 m c ⟨n, h⟩) (fun _ => 0))
    (fun n h acc => accStep (blk0 m c ⟨n, h⟩) (blk1 m c ⟨n, h⟩) (blk2 m c ⟨n, h⟩) acc)
    (fun _ => (0 : EReal)) (addN m c) (25 * (t.val / 25)) 24
    (fun h i => by
      show (0 : EReal) + addendAt _ _ _ (i 0) (i 1) (i 2) = 0 + addN m c _ i
      unfold addN; rw [dif_pos h])
    (fun n h acc i _ _ => by
      show acc i + addendAt _ _ _ (i 0) (i 1) (i 2) = acc i + addN m c n i
      unfold addN; rw [dif_pos h])
    (t.val % 25) (by omega) hlt i
  rw [this, h1]

/-- After a batch's last block the count accumulator is zero plus the sum of the batch's 25 blocks' count addends. -/
theorem cnt_last (c : Dev nD) (t : Fin cfg0.N) (h1 : t.val % 25 = 24) (i : S1024x32.Idx) :
    (outsAt0 m c t.val t.isLt).2.2 i = 0 + ∑ s ∈ Finset.range 25, cntN m c (25 * (t.val / 25) + s) i := by
  have hN : cfg0.N = 200 := N_0
  have ht := t.isLt
  have hlt : 25 * (t.val / 25) + t.val % 25 < cfg0.N := by rw [Nat.div_add_mod]; exact t.isLt
  have e := eq_accAt_of_mod (N := cfg0.N) (fun n h => (outsAt0 m c n h).2.2) 25
    (fun n h => cntStep (blk1 m c ⟨n, h⟩) (blk2 m c ⟨n, h⟩) (fun _ => 0))
    (fun n h acc => cntStep (blk1 m c ⟨n, h⟩) (blk2 m c ⟨n, h⟩) acc)
    (fun n h hn => cnt_reset m c ⟨n, h⟩ hn)
    (fun n h hn => cnt_step m c ⟨n + 1, h⟩ hn)
    (by decide) t.val t.isLt hlt
  rw [e]
  have := accAt_add_apply (N := cfg0.N)
    (fun n h => cntStep (blk1 m c ⟨n, h⟩) (blk2 m c ⟨n, h⟩) (fun _ => 0))
    (fun n h acc => cntStep (blk1 m c ⟨n, h⟩) (blk2 m c ⟨n, h⟩) acc)
    (fun _ => (0 : EReal)) (cntN m c) (25 * (t.val / 25)) 24
    (fun h i => by
      show (0 : EReal) + cntAddendAt _ _ (i 0) (i 1) = 0 + cntN m c _ i
      unfold cntN; rw [dif_pos h])
    (fun n h acc i _ _ => by
      show acc i + cntAddendAt _ _ (i 0) (i 1) = acc i + cntN m c n i
      unfold cntN; rw [dif_pos h])
    (t.val % 25) (by omega) hlt i
  rw [this, h1]

end Cert.KernelIdeal.Body

end
-- ==== Proof.BodyValues.lean ====
/-
  The kernel body's three shared values, read at an index at the exact extended reals.

  The body loads one block of features `x0 : [1, 64, 4096]` and two blocks of integer keys (`[4096]` each). From them it
  forms the feature matrix `[64, 4096]` (a change of float format, which is the identity on the extended reals), and two
  `0/1` matrices: entry `(r, p)` of a one-hot matrix is `1` when the key of point `p` is the row number `r` and `0`
  otherwise (an integer comparison against a row iota, widened and converted).
-/
import proofs.«129199_j15135464751874_2_alg».proof.Proof.Gen.KernelIdeal.Skeleton
import proofs.«129199_j15135464751874_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.VoxelSpec

variable [hK : Cert.KernelIdeal.Facts]

/-- A one-bit comparison result widened to 32 bits and converted to a float is the `0/1` weight of the two words being equal. -/
theorem sitofp_cmpi_eq (a b : BitVec 32) :
    (FloatOps.sitofp (F := Ideal) .f32 ((IntOp.cmpi .eq a b).setWidth 32) : EReal) = hot a b := by
  unfold hot IntOp.cmpi
  by_cases h : a = b
  · subst h
    rw [if_pos rfl, show (a == a) = true from by simp]
    show ((((BitVec.setWidth 32 (BitVec.ofBool true)).toInt : ℤ) : ℝ) : EReal) = 1
    rw [show (BitVec.setWidth 32 (BitVec.ofBool true)).toInt = 1 from by decide]
    simp
  · rw [if_neg h, show (a == b) = false from by simpa using h]
    show ((((BitVec.setWidth 32 (BitVec.ofBool false)).toInt : ℤ) : ℝ) : EReal) = 0
    rw [show (BitVec.setWidth 32 (BitVec.ofBool false)).toInt = 0 from by decide]
    simp

/-- The feature matrix at `(c, p)` is the loaded block at `(0, c, p)`. -/
theorem featMat_apply (x0 : Vec Ideal S1x64x4096 .f32) (c : Fin 64) (p : Fin 4096) :
    k0_pay6 (F := Ideal) x0 (ix2 c p) = x0 (ix3 (0 : Fin 1) c p) := by
  unfold k0_pay6
  exact shapeCast_1ab_ab_apply x0 _ c p

/-- The in-plane one-hot matrix at `(yz, p)`: the weight of cell `yz` against the in-plane key of point `p`. -/
theorem hotCell_apply (x2 : Vec Ideal S4096 .i32) (yz : Fin 1024) (p : Fin 4096) :
    k0_pay7 (F := Ideal) x2 (ix2 yz p) = hot (BitVec.ofNat 32 yz.val) (x2 (ix1 p)) := by
  unfold k0_pay7
  show (FloatOps.sitofp (F := Ideal) .f32 ((IntOp.cmpi .eq (iota .tc S1024x4096 32 [0] _ (ix2 yz p))
    (broadcastTo S1024x4096 (shapeCast S1x4096 (shapeCast S4096 x2 _) _) _ (ix2 yz p))).setWidth 32) : EReal) = _
  rw [iota_single_apply, broadcastTo_1b_ab_apply, shapeCast_a_1a_apply, shapeCast_self, sitofp_cmpi_eq]

/-- The plane one-hot matrix at `(x, p)`: the weight of plane `x` against the plane key of point `p`. -/
theorem hotPlane_apply (x1 : Vec Ideal S4096 .i32) (x : Fin 32) (p : Fin 4096) :
    k0_pay8 (F := Ideal) x1 (ix2 x p) = hot (BitVec.ofNat 32 x.val) (x1 (ix1 p)) := by
  unfold k0_pay8
  show (FloatOps.sitofp (F := Ideal) .f32 ((IntOp.cmpi .eq (iota .tc S32x4096 32 [0] _ (ix2 x p))
    (broadcastTo S32x4096 (shapeCast S1x4096 (shapeCast S4096 x1 _) _) _ (ix2 x p))).setWidth 32) : EReal) = _
  rw [iota_single_apply, broadcastTo_1b_ab_apply, shapeCast_a_1a_apply, shapeCast_self, sitofp_cmpi_eq]

end Cert.KernelIdeal.Body

end
-- ==== Proof.BodyBridge.lean ====
/-
  One block's addends, as the kernel body computes them from its loaded blocks, are the specification's block sums.

  The body's feature matrix, in-plane weight matrix and plane weight matrix read, at a point `p` of the block, the
  loaded feature and the two `0/1` weights of the loaded keys against the cell and the plane. When the loaded blocks
  are block `s` of batch `b` on the padded point axis, each term of the body's sum over the block's points is the
  specification's term at the same point, so the sums agree. A sum over the first 25 natural numbers of a function
  that agrees with a function on the 25 block numbers is the sum over the block numbers.
-/
import proofs.«129199_j15135464751874_2_alg».proof.Proof.BodyCases
import proofs.«129199_j15135464751874_2_alg».proof.Proof.BodyValues
import proofs.«129199_j15135464751874_2_alg».proof.Proof.Spec
import Mathlib.Algebra.BigOperators.Fin

noncomputable section

namespace Cert.KernelIdeal.Body

open Cert.KernelIdeal Cert.KernelIdeal.Gen Cert.VoxelSpec Idealize.ShloMosaic Idealize.ShloMosaic.ValueIdx

variable [hK : Cert.KernelIdeal.Facts]

/-- The body's feature addend of a block is the specification's block sum, when the loaded blocks are that block. -/
theorem addendAt_eq_blockSum (x0 : Vec Ideal S1x64x4096 .f32) (x1 x2 : Vec Ideal S4096 .i32)
    (W : SVox.Idx → BitVec 32) (feat : SFeat.Idx → EReal) (b : Fin 8) (s : Fin 25)
    (h0 : ∀ (ch : Fin 64) (p : Fin 4096), x0 (ix3 (0 : Fin 1) ch p) = featP feat b ch (blockPt s p))
    (h1 : ∀ p : Fin 4096, x1 (ix1 p) = cxP W b (blockPt s p))
    (h2 : ∀ p : Fin 4096, x2 (ix1 p) = cyzP W b (blockPt s p))
    (x : Fin 32) (yz : Fin 1024) (ch : Fin 64) :
    addendAt x0 x1 x2 x yz ch = blockSum W feat b s x yz ch := by
  unfold addendAt blockSum
  refine Finset.sum_congr rfl (fun p _ => ?_)
  rw [hotCell_apply x2 yz p, featMat_apply x0 ch p, hotPlane_apply x1 x p, h0 ch p, h1 p, h2 p]

/-- The body's count addend of a block is the specification's block count, when the loaded keys are that block's. -/
theorem cntAddendAt_eq_blockCount (x1 x2 : Vec Ideal S4096 .i32)
    (W : SVox.Idx → BitVec 32) (b : Fin 8) (s : Fin 25)
    (h1 : ∀ p : Fin 4096, x1 (ix1 p) = cxP W b (blockPt s p))
    (h2 : ∀ p : Fin 4096, x2 (ix1 p) = cyzP W b (blockPt s p))
    (yz : Fin 1024) (x : Fin 32) :
    cntAddendAt x1 x2 yz x = blockCount W b s yz x := by
  unfold cntAddendAt blockCount
  refine Finset.sum_congr rfl (fun p _ => ?_)
  rw [hotCell_apply x2 yz p, hotPlane_apply x1 x p, h1 p, h2 p]

/-- A sum over the first 25 natural numbers of a function that agrees with `g` on the 25 block numbers is the sum of `g`. -/
theorem sum_range_eq_sum_blocks (f : ℕ → EReal) (g : Fin 25 → EReal) (h : ∀ s : Fin 25, f s.val = g s) :
    ∑ s ∈ Finset.range 25, f s = ∑ s : Fin 25, g s := by
  rw [← Fin.sum_univ_eq_sum_range]
  exact Finset.sum_congr rfl (fun s _ => h s)

/-- The same, for the sum over the first `n` natural numbers and a function on `Fin n`. -/
theorem sum_range_eq_sum_fin {n : ℕ} (f : ℕ → EReal) (g : Fin n → EReal) (h : ∀ s : Fin n, f s.val = g s) :
    ∑ s ∈ Finset.range n, f s = ∑ s : Fin n, g s := by
  rw [← Fin.sum_univ_eq_sum_range]
  exact Finset.sum_congr rfl (fun s _ => h s)

end Cert.KernelIdeal.Body

end
-- ==== Proof.BlockSums.lean ====
/-
  The voxel sums and counts, visited block by block on the padded point axis, agree with the plain sums over the
  100000 points.

  The padded axis has 102400 = 25 · 4096 points. A point past the last one carries the key -1 twice, which is the
  key of no plane and of no in-plane cell, so its two 0/1 weights vanish and it adds nothing. For a real point the
  plane weight is 1 exactly when its first coordinate is x, and the cell weight is 1 exactly when its second and
  third coordinates are y and z: the 32-bit word 32·v₁ + v₂ does not wrap when both coordinates are below 32, and
  32·y + z = 32·v₁ + v₂ with z, v₂ < 32 forces y = v₁ and z = v₂. The product of the two weights with a feature is
  the feature when both match and 0 otherwise. Since addition of extended reals is commutative and associative, the
  double sum over blocks and positions within a block is the sum over the padded axis, and the sum over the padded
  axis of a function that vanishes past the last point is the sum over the points.
-/
import proofs.«129199_j15135464751874_2_alg».proof.Proof.Spec
import Mathlib.Algebra.BigOperators.Fin

noncomputable section

namespace Cert.VoxelBlocks

open Cert.VoxelSpec Idealize.ShloMosaic Idealize.ShloMosaic.ValueIdx

/-! ## Sums over blocks and over the padded axis -/

/-- A block number and a position within the block, as one point of the padded axis: `(s, p) ↦ 4096·s + p`. -/
def blockEquiv : Fin 25 × Fin 4096 ≃ Fin 102400 where
  toFun sp := blockPt sp.1 sp.2
  invFun n := (⟨n.val / 4096, by have := n.isLt; omega⟩, ⟨n.val % 4096, by omega⟩)
  left_inv := by
    rintro ⟨s, p⟩
    have hs := s.isLt
    have hp := p.isLt
    apply Prod.ext
    · apply Fin.ext
      show (s.val * 4096 + p.val) / 4096 = s.val
      omega
    · apply Fin.ext
      show (s.val * 4096 + p.val) % 4096 = p.val
      omega
  right_inv := by
    intro n
    apply Fin.ext
    show n.val / 4096 * 4096 + n.val % 4096 = n.val
    omega

/-- The double sum over the 25 blocks and the 4096 positions of a block is the sum over the padded axis. -/
theorem sum_blockPt {M : Type*} [AddCommMonoid M] (g : Fin 102400 → M) :
    ∑ s : Fin 25, ∑ p : Fin 4096, g (blockPt s p) = ∑ n : Fin 102400, g n := by
  rw [← Fintype.sum_prod_type' (f := fun s p => g (blockPt s p))]
  exact Fintype.sum_equiv blockEquiv _ _ (fun _ => rfl)

/-- A function on the padded axis, read at every natural number: `0` outside the axis. -/
def onNat {M : Type*} [AddCommMonoid M] (g : Fin 102400 → M) (k : ℕ) : M :=
  if h : k < 102400 then g ⟨k, h⟩ else 0

/-- The sum over the padded axis of a function vanishing past the last point is the sum over the points. -/
theorem sum_pad {M : Type*} [AddCommMonoid M] (g : Fin 102400 → M)
    (hg : ∀ n : Fin 102400, 100000 ≤ n.val → g n = 0) :
    ∑ n : Fin 102400, g n = ∑ n : Fin 100000, g ⟨n.val, by have := n.isLt; omega⟩ := by
  have h1 : ∑ n : Fin 102400, g n = ∑ k ∈ Finset.range 102400, onNat g k := by
    rw [← Fin.sum_univ_eq_sum_range]
    refine Finset.sum_congr rfl (fun n _ => ?_)
    unfold onNat
    rw [dif_pos n.isLt]
  have h2 : ∑ n : Fin 100000, g ⟨n.val, by have := n.isLt; omega⟩ = ∑ k ∈ Finset.range 100000, onNat g k := by
    rw [← Fin.sum_univ_eq_sum_range]
    refine Finset.sum_congr rfl (fun n _ => ?_)
    unfold onNat
    rw [dif_pos (by have := n.isLt; omega)]
  rw [h1, h2]
  symm
  refine Finset.sum_subset ?_ ?_
  · intro k hk
    rw [Finset.mem_range] at hk ⊢
    omega
  · intro k hk hk'
    rw [Finset.mem_range] at hk hk'
    unfold onNat
    rw [dif_pos hk]
    exact hg ⟨k, hk⟩ (by show 100000 ≤ k; omega)

/-! ## The two weights at a point -/

/-- The product of two `0/1` weights with a value in between: the value when both match, `0` otherwise. -/
theorem hot_mul_mul_hot (a a' e e' : BitVec 32) (f : EReal) :
    hot a a' * (f * hot e e') = if a = a' ∧ e = e' then f else 0 := by
  unfold hot
  by_cases h1 : a = a'
  · by_cases h2 : e = e'
    · rw [if_pos h1, if_pos h2, if_pos ⟨h1, h2⟩, one_mul, mul_one]
    · rw [if_pos h1, if_neg h2, if_neg (fun h : a = a' ∧ e = e' => h2 h.2), mul_zero, mul_zero]
  · rw [if_neg h1, if_neg (fun h : a = a' ∧ e = e' => h1 h.1), zero_mul]

/-- The product of two `0/1` weights: `1` when both match, `0` otherwise. -/
theorem hot_mul_hot (a a' e e' : BitVec 32) :
    hot a a' * hot e e' = if a = a' ∧ e = e' then 1 else 0 := by
  have h := hot_mul_mul_hot a a' e e' 1
  rw [one_mul] at h
  exact h

/-- The key `-1` is the key of no plane. -/
theorem plane_ne_neg_one (x : Fin 32) : BitVec.ofNat 32 x.val ≠ 4294967295#32 := by
  intro h
  have h' := congrArg BitVec.toNat h
  rw [BitVec.toNat_ofNat, BitVec.toNat_ofNat] at h'
  have := x.isLt
  omega

/-- The key `-1` is the key of no in-plane cell. -/
theorem cell_ne_neg_one (yz : Fin 1024) : BitVec.ofNat 32 yz.val ≠ 4294967295#32 := by
  intro h
  have h' := congrArg BitVec.toNat h
  rw [BitVec.toNat_ofNat, BitVec.toNat_ofNat] at h'
  have := yz.isLt
  omega

/-- The plane key `x` is a word `w` exactly when `w` reads as `x`. -/
theorem plane_eq_iff (x : Fin 32) (w : BitVec 32) : BitVec.ofNat 32 x.val = w ↔ w.toNat = x.val := by
  have hx := x.isLt
  constructor
  · intro h
    rw [← h, BitVec.toNat_ofNat]
    omega
  · intro h
    apply BitVec.eq_of_toNat_eq
    rw [BitVec.toNat_ofNat, h]
    omega

/-- The cell key `32·y + z` is the word `32·w₁ + w₂` of two coordinates below 32 exactly when they read as `y` and `z`. -/
theorem cell_eq_iff (y z : Fin 32) (w1 w2 : BitVec 32) (h1 : w1.toNat < 32) (h2 : w2.toNat < 32) :
    BitVec.ofNat 32 (cell y z).val = w1 * 32#32 + w2 ↔ w1.toNat = y.val ∧ w2.toNat = z.val := by
  have hy := y.isLt
  have hz := z.isLt
  have hr : (w1 * 32#32 + w2).toNat = w1.toNat * 32 + w2.toNat := by
    rw [BitVec.toNat_add, BitVec.toNat_mul, BitVec.toNat_ofNat]
    omega
  have hl : (BitVec.ofNat 32 (cell y z).val).toNat = y.val * 32 + z.val := by
    rw [BitVec.toNat_ofNat]
    show (y.val * 32 + z.val) % 2 ^ 32 = y.val * 32 + z.val
    omega
  constructor
  · intro h
    have h' := congrArg BitVec.toNat h
    rw [hl, hr] at h'
    omega
  · rintro ⟨e1, e2⟩
    apply BitVec.eq_of_toNat_eq
    rw [hl, hr, e1, e2]

/-! ## One point of the padded axis -/

/-- What point `n` of the padded axis adds to the feature sum of plane `x`, cell `yz`, channel `c`. -/
def ptSum (W : SVox.Idx → BitVec 32) (feat : SFeat.Idx → EReal) (b : Fin 8) (x : Fin 32) (yz : Fin 1024) (c : Fin 64)
    (n : Fin 102400) : EReal :=
  hot (BitVec.ofNat 32 yz.val) (cyzP W b n) * (featP feat b c n * hot (BitVec.ofNat 32 x.val) (cxP W b n))

/-- What point `n` of the padded axis adds to the point count of cell `yz`, plane `x`. -/
def ptCount (W : SVox.Idx → BitVec 32) (b : Fin 8) (yz : Fin 1024) (x : Fin 32) (n : Fin 102400) : EReal :=
  hot (BitVec.ofNat 32 yz.val) (cyzP W b n) * hot (BitVec.ofNat 32 x.val) (cxP W b n)

/-- A padded point adds nothing to a feature sum. -/
theorem ptSum_pad (W : SVox.Idx → BitVec 32) (feat : SFeat.Idx → EReal) (b : Fin 8) (x : Fin 32) (yz : Fin 1024)
    (c : Fin 64) (n : Fin 102400) (hn : 100000 ≤ n.val) : ptSum W feat b x yz c n = 0 := by
  unfold ptSum
  rw [hot_mul_mul_hot]
  refine if_neg (fun h => ?_)
  have h2 := h.2
  unfold cxP at h2
  rw [dif_neg (by omega)] at h2
  exact plane_ne_neg_one x h2

/-- A padded point adds nothing to a point count. -/
theorem ptCount_pad (W : SVox.Idx → BitVec 32) (b : Fin 8) (yz : Fin 1024) (x : Fin 32)
    (n : Fin 102400) (hn : 100000 ≤ n.val) : ptCount W b yz x n = 0 := by
  unfold ptCount
  rw [hot_mul_hot]
  refine if_neg (fun h => ?_)
  have h2 := h.2
  unfold cxP at h2
  rw [dif_neg (by omega)] at h2
  exact plane_ne_neg_one x h2

/-- At a real point both weights match exactly when the point lies in the voxel. -/
theorem match_iff_inVoxel (W : SVox.Idx → BitVec 32) (hW : InRange W) (b : Fin 8) (x y z : Fin 32) (n : Fin 100000) :
    (BitVec.ofNat 32 (cell y z).val = cyzP W b ⟨n.val, by have := n.isLt; omega⟩ ∧
      BitVec.ofNat 32 x.val = cxP W b ⟨n.val, by have := n.isLt; omega⟩) ↔ inVoxel W b x y z n := by
  unfold cyzP cxP inVoxel
  rw [dif_pos n.isLt, dif_pos n.isLt]
  rw [cell_eq_iff y z _ _ (hW _) (hW _), plane_eq_iff]
  constructor
  · rintro ⟨⟨a1, a2⟩, a0⟩
    exact ⟨a0, a1, a2⟩
  · rintro ⟨a0, a1, a2⟩
    exact ⟨⟨a1, a2⟩, a0⟩

/-- A real point adds its feature to the sum of the voxel it lies in, and nothing to the others. -/
theorem ptSum_real (W : SVox.Idx → BitVec 32) (hW : InRange W) (feat : SFeat.Idx → EReal) (b : Fin 8) (c : Fin 64)
    (x y z : Fin 32) (n : Fin 100000) :
    ptSum W feat b x (cell y z) c ⟨n.val, by have := n.isLt; omega⟩ =
      if inVoxel W b x y z n then feat (ix3 b c n) else 0 := by
  unfold ptSum
  rw [hot_mul_mul_hot]
  refine if_congr (match_iff_inVoxel W hW b x y z n) ?_ rfl
  unfold featP
  rw [dif_pos n.isLt]

/-- A real point adds one to the count of the voxel it lies in, and nothing to the others. -/
theorem ptCount_real (W : SVox.Idx → BitVec 32) (hW : InRange W) (b : Fin 8) (x y z : Fin 32) (n : Fin 100000) :
    ptCount W b (cell y z) x ⟨n.val, by have := n.isLt; omega⟩ = if inVoxel W b x y z n then 1 else 0 := by
  unfold ptCount
  rw [hot_mul_hot]
  exact if_congr (match_iff_inVoxel W hW b x y z n) rfl rfl

/-! ## The block sums add up to the voxel sums -/

/-- The 25 block contributions to a feature sum add up to the voxel's feature sum. -/
theorem sum_blocks (W : SVox.Idx → BitVec 32) (hW : InRange W) (feat : SFeat.Idx → EReal) (b : Fin 8) (c : Fin 64)
    (x y z : Fin 32) :
    ∑ s : Fin 25, blockSum W feat b s x (cell y z) c = voxSum W feat b c x y z := by
  have h0 : ∑ s : Fin 25, blockSum W feat b s x (cell y z) c =
      ∑ s : Fin 25, ∑ p : Fin 4096, ptSum W feat b x (cell y z) c (blockPt s p) := rfl
  rw [h0, sum_blockPt, sum_pad _ (ptSum_pad W feat b x (cell y z) c)]
  unfold voxSum
  exact Finset.sum_congr rfl (fun n _ => ptSum_real W hW feat b c x y z n)

/-- The 25 block contributions to a point count add up to the voxel's point count. -/
theorem count_blocks (W : SVox.Idx → BitVec 32) (hW : InRange W) (b : Fin 8) (x y z : Fin 32) :
    ∑ s : Fin 25, blockCount W b s (cell y z) x = voxCount W b x y z := by
  have h0 : ∑ s : Fin 25, blockCount W b s (cell y z) x =
      ∑ s : Fin 25, ∑ p : Fin 4096, ptCount W b (cell y z) x (blockPt s p) := rfl
  rw [h0, sum_blockPt, sum_pad _ (ptCount_pad W b (cell y z) x)]
  unfold voxCount
  exact Finset.sum_congr rfl (fun n _ => ptCount_real W hW b x y z n)

/-! ## The running sums over the blocks -/

/-- The feature sum of plane `x`, cell `yz`, channel `c` after the first `k` blocks. -/
def accUpTo (W : SVox.Idx → BitVec 32) (feat : SFeat.Idx → EReal) (b : Fin 8) (x : Fin 32) (yz : Fin 1024) (c : Fin 64) :
    ℕ → EReal
  | 0 => 0
  | k + 1 => accUpTo W feat b x yz c k + (if h : k < 25 then blockSum W feat b ⟨k, h⟩ x yz c else 0)

/-- The point count of cell `yz`, plane `x` after the first `k` blocks. -/
def cntUpTo (W : SVox.Idx → BitVec 32) (b : Fin 8) (yz : Fin 1024) (x : Fin 32) : ℕ → EReal
  | 0 => 0
  | k + 1 => cntUpTo W b yz x k + (if h : k < 25 then blockCount W b ⟨k, h⟩ yz x else 0)

/-- Before any block the running feature sum is `0`. -/
theorem accUpTo_zero (W : SVox.Idx → BitVec 32) (feat : SFeat.Idx → EReal) (b : Fin 8) (x : Fin 32) (yz : Fin 1024)
    (c : Fin 64) : accUpTo W feat b x yz c 0 = 0 := rfl

/-- Block `k` adds its contribution to the running feature sum. -/
theorem accUpTo_succ (W : SVox.Idx → BitVec 32) (feat : SFeat.Idx → EReal) (b : Fin 8) (x : Fin 32) (yz : Fin 1024)
    (c : Fin 64) (k : ℕ) :
    accUpTo W feat b x yz c (k + 1) =
      accUpTo W feat b x yz c k + (if h : k < 25 then blockSum W feat b ⟨k, h⟩ x yz c else 0) := rfl

/-- Block `s` adds its contribution to the running feature sum. -/
theorem accUpTo_succ_fin (W : SVox.Idx → BitVec 32) (feat : SFeat.Idx → EReal) (b : Fin 8) (x : Fin 32) (yz : Fin 1024)
    (c : Fin 64) (s : Fin 25) :
    accUpTo W feat b x yz c (s.val + 1) = accUpTo W feat b x yz c s.val + blockSum W feat b s x yz c := by
  rw [accUpTo_succ, dif_pos s.isLt]

/-- Before any block the running point count is `0`. -/
theorem cntUpTo_zero (W : SVox.Idx → BitVec 32) (b : Fin 8) (yz : Fin 1024) (x : Fin 32) : cntUpTo W b yz x 0 = 0 := rfl

/-- Block `k` adds its contribution to the running point count. -/
theorem cntUpTo_succ (W : SVox.Idx → BitVec 32) (b : Fin 8) (yz : Fin 1024) (x : Fin 32) (k : ℕ) :
    cntUpTo W b yz x (k + 1) = cntUpTo W b yz x k + (if h : k < 25 then blockCount W b ⟨k, h⟩ yz x else 0) := rfl

/-- Block `s` adds its contribution to the running point count. -/
theorem cntUpTo_succ_fin (W : SVox.Idx → BitVec 32) (b : Fin 8) (yz : Fin 1024) (x : Fin 32) (s : Fin 25) :
    cntUpTo W b yz x (s.val + 1) = cntUpTo W b yz x s.val + blockCount W b s yz x := by
  rw [cntUpTo_succ, dif_pos s.isLt]

/-- A running sum built block by block is the sum over the blocks visited. -/
theorem run_eq_sum_range (F : ℕ → EReal) (r : ℕ → EReal) (h0 : r 0 = 0) (hs : ∀ k, r (k + 1) = r k + F k) (k : ℕ) :
    r k = ∑ i ∈ Finset.range k, F i := by
  induction k with
  | zero => rw [h0, Finset.range_zero, Finset.sum_empty]
  | succ k ih => rw [hs, ih, Finset.sum_range_succ]

/-- After all 25 blocks the running feature sum is the sum of the block contributions. -/
theorem accUpTo_all (W : SVox.Idx → BitVec 32) (feat : SFeat.Idx → EReal) (b : Fin 8) (x : Fin 32) (yz : Fin 1024)
    (c : Fin 64) : accUpTo W feat b x yz c 25 = ∑ s : Fin 25, blockSum W feat b s x yz c := by
  rw [run_eq_sum_range (fun k => if h : k < 25 then blockSum W feat b ⟨k, h⟩ x yz c else 0)
    (accUpTo W feat b x yz c) rfl (fun _ => rfl) 25, ← Fin.sum_univ_eq_sum_range]
  refine Finset.sum_congr rfl (fun s _ => ?_)
  rw [dif_pos s.isLt]

/-- After all 25 blocks the running point count is the sum of the block contributions. -/
theorem cntUpTo_all (W : SVox.Idx → BitVec 32) (b : Fin 8) (yz : Fin 1024) (x : Fin 32) :
    cntUpTo W b yz x 25 = ∑ s : Fin 25, blockCount W b s yz x := by
  rw [run_eq_sum_range (fun k => if h : k < 25 then blockCount W b ⟨k, h⟩ yz x else 0)
    (cntUpTo W b yz x) rfl (fun _ => rfl) 25, ← Fin.sum_univ_eq_sum_range]
  refine Finset.sum_congr rfl (fun s _ => ?_)
  rw [dif_pos s.isLt]

/-- After all 25 blocks the running feature sum is the voxel's feature sum. -/
theorem accUpTo_eq_voxSum (W : SVox.Idx → BitVec 32) (hW : InRange W) (feat : SFeat.Idx → EReal) (b : Fin 8) (c : Fin 64)
    (x y z : Fin 32) : accUpTo W feat b x (cell y z) c 25 = voxSum W feat b c x y z := by
  rw [accUpTo_all, sum_blocks W hW]

/-- After all 25 blocks the running point count is the voxel's point count. -/
theorem cntUpTo_eq_voxCount (W : SVox.Idx → BitVec 32) (hW : InRange W) (b : Fin 8) (x y z : Fin 32) :
    cntUpTo W b (cell y z) x 25 = voxCount W b x y z := by
  rw [cntUpTo_all, count_blocks W hW]

end Cert.VoxelBlocks

end
-- ==== Proof.KernelValue.lean ====
/-
  The output block a batch's last block stores is the voxel grid's slab of that batch.

  After the last block of batch `b` the feature accumulator holds, at plane `x`, cell `32 y + z`, channel `ch`, the sum over
  the batch's 25 blocks of the blocks' addends, which is the sum of channel `ch` over the batch's points lying in voxel
  `(x, y, z)`; the count accumulator holds the number of those points. Their quotient, the count raised to at least one,
  is the grid's value.
-/
import proofs.«129199_j15135464751874_2_alg».proof.Proof.Accumulation
import proofs.«129199_j15135464751874_2_alg».proof.Proof.BodyBridge
import proofs.«129199_j15135464751874_2_alg».proof.Proof.BlockSums

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Cert.VoxelSpec Cert.VoxelBlocks

variable (m : (ℓ : Loc nD τ sig) → Buf (Elt Ideal) ℓ)

/-- The float word of `1.0` is the real number one. -/
theorem ofBits_one : Ideal.ofBits .f32 0x3F800000#32 = 1 := by
  simp [Ideal.ofBits, Ideal.ieee, -EReal.coe_mul]; norm_num

/-- The output block of a batch's last block, entry by entry, given what the three input blocks hold at every point:
    the padded features and the two padded keys of the point's batch and block. -/
theorem out_value_of (c : Dev nD) (W : SVox.Idx → BitVec 32) (feat : SFeat.Idx → EReal) (hW : InRange W)
    (hb0 : ∀ (t : Fin cfg0.N) (b : Fin 8) (s : Fin 25), b.val = t.val / 25 → s.val = t.val % 25 →
      ∀ (ch : Fin 64) (p : Fin 4096), blk0 m c t (ix3 (0 : Fin 1) ch p) = featP feat b ch (blockPt s p))
    (hb1 : ∀ (t : Fin cfg0.N) (b : Fin 8) (s : Fin 25), b.val = t.val / 25 → s.val = t.val % 25 →
      ∀ p : Fin 4096, blk1 m c t (ix1 p) = cxP W b (blockPt s p))
    (hb2 : ∀ (t : Fin cfg0.N) (b : Fin 8) (s : Fin 25), b.val = t.val / 25 → s.val = t.val % 25 →
      ∀ p : Fin 4096, blk2 m c t (ix1 p) = cyzP W b (blockPt s p))
    (t : Fin cfg0.N) (h1 : t.val % 25 = 24) (b : Fin 8) (hb : b.val = t.val / 25)
    (u : Fin 1) (ch : Fin 64) (x y z : Fin 32) :
    (outsAt0 m c t.val t.isLt).1 (ix4 u ch x (cell y z)) = grid W feat (ix5 b ch x y z) := by
  have hN : cfg0.N = 200 := N_0
  have ht := t.isLt
  have hsum : ∑ s ∈ Finset.range 25, addN m c (25 * (t.val / 25) + s) (ix3 x (cell y z) ch)
      = ∑ s : Fin 25, blockSum W feat b s x (cell y z) ch :=
    sum_range_eq_sum_blocks _ _ (fun s => by
      have hlt : 25 * (t.val / 25) + s.val < cfg0.N := by have := s.isLt; omega
      unfold addN
      rw [dif_pos hlt]
      exact addendAt_eq_blockSum _ _ _ W feat b s
        (hb0 ⟨_, hlt⟩ b s (by show b.val = (25 * (t.val / 25) + s.val) / 25; have := s.isLt; omega)
          (by show s.val = (25 * (t.val / 25) + s.val) % 25; have := s.isLt; omega))
        (hb1 ⟨_, hlt⟩ b s (by show b.val = (25 * (t.val / 25) + s.val) / 25; have := s.isLt; omega)
          (by show s.val = (25 * (t.val / 25) + s.val) % 25; have := s.isLt; omega))
        (hb2 ⟨_, hlt⟩ b s (by show b.val = (25 * (t.val / 25) + s.val) / 25; have := s.isLt; omega)
          (by show s.val = (25 * (t.val / 25) + s.val) % 25; have := s.isLt; omega))
        x (cell y z) ch)
  have hcnt : ∑ s ∈ Finset.range 25, cntN m c (25 * (t.val / 25) + s) (ix2 (cell y z) x)
      = ∑ s : Fin 25, blockCount W b s (cell y z) x :=
    sum_range_eq_sum_blocks _ _ (fun s => by
      have hlt : 25 * (t.val / 25) + s.val < cfg0.N := by have := s.isLt; omega
      unfold cntN
      rw [dif_pos hlt]
      exact cntAddendAt_eq_blockCount _ _ W b s
        (hb1 ⟨_, hlt⟩ b s (by show b.val = (25 * (t.val / 25) + s.val) / 25; have := s.isLt; omega)
          (by show s.val = (25 * (t.val / 25) + s.val) % 25; have := s.isLt; omega))
        (hb2 ⟨_, hlt⟩ b s (by show b.val = (25 * (t.val / 25) + s.val) / 25; have := s.isLt; omega)
          (by show s.val = (25 * (t.val / 25) + s.val) % 25; have := s.isLt; omega))
        (cell y z) x)
  rw [out_last m c t h1, final_apply, acc_last m c t h1, cnt_last m c t h1, hsum, hcnt,
    sum_blocks W hW feat b ch x y z, count_blocks W hW b x y z, zero_add, zero_add, ofBits_one]
  rfl

end Cert.KernelIdeal.Body

end
-- ==== Proof.KernelHost.lean ====
/-
  The host side of the voxelization kernel, before the region: what the three arrays the region reads hold, as
  functions of the two arguments.

  The feature array is padded with the float zero from 100000 to 102400 points per batch. The integer voxel
  coordinates are computed from the coordinate argument by the same chain of operations as in the reference; the plane
  key is coordinate 0, the in-plane key is 32 times coordinate 1 plus coordinate 2 in 32-bit arithmetic; both are padded
  with the word -1 and laid out batch after batch on one axis of 8 * 102400 entries.
-/
import proofs.«129199_j15135464751874_2_alg».proof.Proof.Gen.KernelIdeal.Frame.Runs
import proofs.«129199_j15135464751874_2_alg».proof.Proof.Gen.ReferenceIdeal.Read
import proofs.«129199_j15135464751874_2_alg».proof.Proof.Spec
import Idealize.ShloMosaic.Lib.KernelVsHost
import Idealize.ShloMosaic.Lib.ValueLayout

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx
open Cert.VoxelSpec (featP cxP cyzP blockPt cell)

/-! ## Layout operations at literal shapes, read at an index -/

section Layout
variable {α : Type}

/-- The row-major flattening of an `[8, 102400]` array, read at position `b * 102400 + n`. -/
theorem flatten_apply (x : (⟨2, ![8, 102400]⟩ : Shape).Idx → α)
    (h : (⟨2, ![8, 102400]⟩ : Shape).ShapeCasts ⟨1, ![819200]⟩) (b : Fin 8) (n : Fin 102400)
    (hlt : b.val * 102400 + n.val < 819200) :
    shapeCast ⟨1, ![819200]⟩ x h (ix1 ⟨b.val * 102400 + n.val, hlt⟩) = x (ix2 b n) :=
  shapeCast_apply x h _ _ (by rw [Shape.rowMajor_val_two, Shape.rowMajor_val_one]; rfl)

/-- An `[8, 1, 100000]` array with its unit axis dropped, read at `(b, n)`. -/
theorem squeeze_apply (x : (⟨3, ![8, 1, 100000]⟩ : Shape).Idx → α)
    (h : (⟨3, ![8, 1, 100000]⟩ : Shape).ShapeCasts ⟨2, ![8, 100000]⟩) (b : Fin 8) (n : Fin 100000) :
    shapeCast ⟨2, ![8, 100000]⟩ x h (ix2 b n) = x (ix3 b (0 : Fin 1) n) :=
  shapeCast_apply x h _ _ (by
    rw [Shape.rowMajor_val_three, Shape.rowMajor_val_two]
    show (b.val * 1 + 0) * 100000 + n.val = b.val * 100000 + n.val
    omega)

/-- An `[8, 100000]` array padded behind its last axis to `[8, 102400]`, read at `(b, n)`. -/
theorem pad2_apply (x : (⟨2, ![8, 100000]⟩ : Shape).Idx → α) {u : Shape} (v : u.Idx → α)
    (hp : (⟨2, ![8, 100000]⟩ : Shape).Pads (![0, 0] : Fin 2 → Nat) ![0, 2400] ![0, 0] ⟨2, ![8, 102400]⟩)
    (hu : 0 < u.numel) (b : Fin 8) (n : Fin 102400) :
    pad ⟨2, ![8, 102400]⟩ ![0, 0] ![0, 2400] ![0, 0] x v hp hu (ix2 b n)
      = if h : n.val < 100000 then x (ix2 b ⟨n.val, h⟩) else v (Shape.Idx.first hu) := by
  by_cases h : n.val < 100000
  · rw [dif_pos h]
    exact pad_apply_of_inside _ _ _ x v hp hu _ (ix2 b ⟨n.val, h⟩) (fun a => by
      match a with
      | ⟨0, _⟩ => show b.val = 0 + b.val * (0 + 1); omega
      | ⟨1, _⟩ => show n.val = 0 + n.val * (0 + 1); omega)
  · rw [dif_neg h]
    exact pad_apply_of_not_inside _ _ _ x v hp hu _ (1 : Fin 2) (by
      show ¬(0 ≤ n.val ∧ (n.val - 0) % (0 + 1) = 0 ∧ (n.val - 0) / (0 + 1) < 100000)
      omega)

/-- An `[8, 64, 100000]` array padded behind its last axis to `[8, 64, 102400]`, read at `(b, ch, n)`. -/
theorem pad3_apply (x : (⟨3, ![8, 64, 100000]⟩ : Shape).Idx → α) {u : Shape} (v : u.Idx → α)
    (hp : (⟨3, ![8, 64, 100000]⟩ : Shape).Pads (![0, 0, 0] : Fin 3 → Nat) ![0, 0, 2400] ![0, 0, 0] ⟨3, ![8, 64, 102400]⟩)
    (hu : 0 < u.numel) (b : Fin 8) (ch : Fin 64) (n : Fin 102400) :
    pad ⟨3, ![8, 64, 102400]⟩ ![0, 0, 0] ![0, 0, 2400] ![0, 0, 0] x v hp hu (ix3 b ch n)
      = if h : n.val < 100000 then x (ix3 b ch ⟨n.val, h⟩) else v (Shape.Idx.first hu) := by
  by_cases h : n.val < 100000
  · rw [dif_pos h]
    exact pad_apply_of_inside _ _ _ x v hp hu _ (ix3 b ch ⟨n.val, h⟩) (fun a => by
      match a with
      | ⟨0, _⟩ => show b.val = 0 + b.val * (0 + 1); omega
      | ⟨1, _⟩ => show ch.val = 0 + ch.val * (0 + 1); omega
      | ⟨2, _⟩ => show n.val = 0 + n.val * (0 + 1); omega)
  · rw [dif_neg h]
    exact pad_apply_of_not_inside _ _ _ x v hp hu _ (2 : Fin 3) (by
      show ¬(0 ≤ n.val ∧ (n.val - 0) % (0 + 1) = 0 ∧ (n.val - 0) / (0 + 1) < 100000)
      omega)

end Layout

/-! ## Typed references are read through

An operation of a module-local function reads and writes its buffers through typed references; the transport
along a reference's type equation is the identity. Each lemma states it for one stretch of such operations, over a variable
for what the stretch reads. -/

/-- The clip's six operations. -/
theorem clip_unwrap (y : FVec Ideal S8x3x100000 .f32) :
    (((TRef.of main_v22 : TRef sig ⟨S8x3x100000, .f32⟩).toBuf (Val := Elt Ideal) (minimumf (F := Ideal) (s := S8x3x100000) (φ := .f32) ((TRef.of main_call0_v4 : TRef sig ⟨S8x3x100000, .f32⟩).ofBuf (Val := Elt Ideal) ((TRef.of main_call0_v4 : TRef sig ⟨S8x3x100000, .f32⟩).toBuf (Val := Elt Ideal) (broadcastInDim S8x3x100000 ![] bcast_S_S8x3x100000 ((TRef.of main_call0_v3 : TRef sig ⟨S_, .f32⟩).ofBuf (Val := Elt Ideal) ((TRef.of main_call0_v3 : TRef sig ⟨S_, .f32⟩).toBuf (Val := Elt Ideal) (sitofp (F := Ideal) FTy.f32 ((TRef.of main_c : TRef sig ⟨S_, .i32⟩).ofBuf (Val := Elt Ideal) (constantI S_ 32 31#32)))))))) ((TRef.of main_call0_v2 : TRef sig ⟨S8x3x100000, .f32⟩).ofBuf (Val := Elt Ideal) ((TRef.of main_call0_v2 : TRef sig ⟨S8x3x100000, .f32⟩).toBuf (Val := Elt Ideal) (maximumf (F := Ideal) (s := S8x3x100000) (φ := .f32) ((TRef.of main_call0_v1 : TRef sig ⟨S8x3x100000, .f32⟩).ofBuf (Val := Elt Ideal) ((TRef.of main_call0_v1 : TRef sig ⟨S8x3x100000, .f32⟩).toBuf (Val := Elt Ideal) (broadcastInDim S8x3x100000 ![] bcast_S_S8x3x100000 ((TRef.of main_call0_v0 : TRef sig ⟨S_, .f32⟩).ofBuf (Val := Elt Ideal) ((TRef.of main_call0_v0 : TRef sig ⟨S_, .f32⟩).toBuf (Val := Elt Ideal) (id ((TRef.of main_cst_7 : TRef sig ⟨S_, .f32⟩).ofBuf (Val := Elt Ideal) (constant (F := Ideal) S_ FTy.f32 0#32)))))))) ((TRef.of main_v21 : TRef sig ⟨S8x3x100000, .f32⟩).ofBuf (Val := Elt Ideal) y)))))) : FVec Ideal S8x3x100000 .f32)
      = minimumf (broadcastInDim S8x3x100000 ![] bcast_S_S8x3x100000 (sitofp (F := Ideal) FTy.f32 (constantI S_ 32 31#32))) (maximumf (broadcastInDim S8x3x100000 ![] bcast_S_S8x3x100000 (id (constant (F := Ideal) S_ FTy.f32 0#32))) y) := rfl

/-- Rounding, then the conversion to integers. -/
theorem round_unwrap (y : FVec Ideal S8x3x100000 .f32) :
    fptosi (F := Ideal) (s := S8x3x100000) (φ := .f32) 32 ((TRef.of main_v23 : TRef sig ⟨S8x3x100000, .f32⟩).toBuf (Val := Elt Ideal) (Host.roundeven (F := Ideal) (s := S8x3x100000) (φ := .f32) ((TRef.of main_v22 : TRef sig ⟨S8x3x100000, .f32⟩).ofBuf (Val := Elt Ideal) ((TRef.of main_v22 : TRef sig ⟨S8x3x100000, .f32⟩).toBuf (Val := Elt Ideal) y))))
      = fptosi (F := Ideal) (s := S8x3x100000) (φ := .f32) 32 (Host.roundeven (F := Ideal) (s := S8x3x100000) (φ := .f32) ((TRef.of main_v22 : TRef sig ⟨S8x3x100000, .f32⟩).toBuf (Val := Elt Ideal) y)) := rfl

/-- The plane keys: slice, drop the unit axis, pad, flatten. -/
theorem planeKeys_unwrap (y : IVec S8x3x100000 32) :
    ((fun i => shapeCast main_v37.ty.shape ((TRef.of main_v35 : TRef sig ⟨S8x102400, .i32⟩).toBuf (Val := Elt Ideal) (pad S8x102400 ![0, 0] ![0, 2400] ![0, 0] ((TRef.of main_v26 : TRef sig ⟨S8x100000, .i32⟩).ofBuf (Val := Elt Ideal) (fun i => shapeCast main_v26.ty.shape (extractStridedSlice S8x1x100000 ![0, 0, 0] y slices_S8x3x100000_S8x1x100000_0_0_0) shapeCasts_S8x1x100000_S8x100000 i)) ((TRef.of main_call3_v0 : TRef sig ⟨S_, .i32⟩).ofBuf (Val := Elt Ideal) ((TRef.of main_call3_v0 : TRef sig ⟨S_, .i32⟩).toBuf (Val := Elt Ideal) (id ((TRef.of main_c_10 : TRef sig ⟨S_, .i32⟩).ofBuf (Val := Elt Ideal) (constantI S_ 32 4294967295#32))))) pads_S8x100000_S8x102400_000_024000 h_S_)) shapeCasts_S8x102400_S819200 i) : S819200.Idx → BitVec 32)
      = shapeCast S819200 (pad S8x102400 ![0, 0] ![0, 2400] ![0, 0] (shapeCast S8x100000 (extractStridedSlice S8x1x100000 ![0, 0, 0] y slices_S8x3x100000_S8x1x100000_0_0_0) shapeCasts_S8x1x100000_S8x100000) (constantI S_ 32 4294967295#32) pads_S8x100000_S8x102400_000_024000 h_S_) shapeCasts_S8x102400_S819200 := rfl

/-- The in-plane keys: two slices, the product with 32 and the sum, pad, flatten. -/
theorem cellKeys_unwrap (y : IVec S8x3x100000 32) :
    ((fun i => shapeCast main_v38.ty.shape ((TRef.of main_v36 : TRef sig ⟨S8x102400, .i32⟩).toBuf (Val := Elt Ideal) (pad S8x102400 ![0, 0] ![0, 2400] ![0, 0] ((TRef.of main_v33 : TRef sig ⟨S8x100000, .i32⟩).ofBuf (Val := Elt Ideal) (addi (muli (fun i => shapeCast main_v28.ty.shape (extractStridedSlice S8x1x100000 ![0, 1, 0] y slices_S8x3x100000_S8x1x100000_0_1_0) shapeCasts_S8x1x100000_S8x100000 i) (broadcastInDim S8x100000 ![] bcast_S_S8x100000 (constantI S_ 32 32#32))) (fun i => shapeCast main_v32.ty.shape (extractStridedSlice S8x1x100000 ![0, 2, 0] y slices_S8x3x100000_S8x1x100000_0_2_0) shapeCasts_S8x1x100000_S8x100000 i))) ((TRef.of main_call4_v0 : TRef sig ⟨S_, .i32⟩).ofBuf (Val := Elt Ideal) ((TRef.of main_call4_v0 : TRef sig ⟨S_, .i32⟩).toBuf (Val := Elt Ideal) (id ((TRef.of main_c_11 : TRef sig ⟨S_, .i32⟩).ofBuf (Val := Elt Ideal) (constantI S_ 32 4294967295#32))))) pads_S8x100000_S8x102400_000_024000 h_S_)) shapeCasts_S8x102400_S819200 i) : S819200.Idx → BitVec 32)
      = shapeCast S819200 (pad S8x102400 ![0, 0] ![0, 2400] ![0, 0] (addi (muli (shapeCast S8x100000 (extractStridedSlice S8x1x100000 ![0, 1, 0] y slices_S8x3x100000_S8x1x100000_0_1_0) shapeCasts_S8x1x100000_S8x100000) (broadcastInDim S8x100000 ![] bcast_S_S8x100000 (constantI S_ 32 32#32))) (shapeCast S8x100000 (extractStridedSlice S8x1x100000 ![0, 2, 0] y slices_S8x3x100000_S8x1x100000_0_2_0) shapeCasts_S8x1x100000_S8x100000)) (constantI S_ 32 4294967295#32) pads_S8x100000_S8x102400_000_024000 h_S_) shapeCasts_S8x102400_S819200 := rfl

/-! ## The arrays the region reads -/

variable (m : (ℓ : Loc nD τ sig) → Buf (Elt Ideal) ℓ) (c : Dev nD)

/-- The feature argument and the coordinate argument as launched. -/
abbrev feat : S8x64x100000.Idx → EReal := m ((c : Thread nD τ).loc main_arg0)
abbrev coords : S8x3x100000.Idx → EReal := m ((c : Thread nD τ).loc main_arg1)
/-- The integer voxel coordinates: the reference's chain of operations applied to the coordinate argument. -/
abbrev vox : S8x3x100000.Idx → BitVec 32 := Cert.ReferenceIdeal.Read.val_main_v24 (F := Ideal) (coords m c)

/-- The normalized, scaled coordinates before clipping: operation for operation the reference's. -/
theorem V_scaled : (V m c main_v21 : S8x3x100000.Idx → EReal)
    = Cert.ReferenceIdeal.Read.val_main_v21 (F := Ideal) (coords m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- Clipping to `[0, 31]`: the maximum with the broadcast zero, then the minimum with the broadcast 31. -/
theorem V_clipped_step : (V m c main_v22 : S8x3x100000.Idx → EReal)
    = minimumf (broadcastInDim S8x3x100000 ![] bcast_S_S8x3x100000 (sitofp (F := Ideal) .f32 (constantI S_ 32 31#32)))
        (maximumf (broadcastInDim S8x3x100000 ![] bcast_S_S8x3x100000 (id (constant (F := Ideal) S_ .f32 0x00000000#32)))
          (V m c main_v21)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  generalize (mulf (addf _ _) _ : FVec Ideal S8x3x100000 .f32) = y
  exact clip_unwrap y

/-- The second result: the clipped normalized coordinates, the reference's. -/
theorem V_clipped : (V m c main_v22 : S8x3x100000.Idx → EReal)
    = Cert.ReferenceIdeal.Read.val_main_v22 (F := Ideal) (coords m c) := by
  rw [V_clipped_step, V_scaled]
  rfl

/-- Rounding to the nearest even integer and converting to 32-bit integers. -/
theorem V_vox_step : (V m c main_v24 : S8x3x100000.Idx → BitVec 32)
    = fptosi (F := Ideal) (φ := .f32) 32 (Host.roundeven (F := Ideal) (V m c main_v22 : FVec Ideal S8x3x100000 .f32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  generalize (minimumf _ _ : FVec Ideal S8x3x100000 .f32) = y
  exact round_unwrap y

/-- The integer voxel coordinates are the reference's. -/
theorem V_vox : (V m c main_v24 : S8x3x100000.Idx → BitVec 32) = vox m c := by
  rw [V_vox_step, V_clipped]
  rfl

/-- The padded feature array. -/
theorem V_features : (V m c main_v34 : S8x64x102400.Idx → EReal)
    = pad S8x64x102400 ![0, 0, 0] ![0, 0, 2400] ![0, 0, 0] (feat m c)
        (sitofp (F := Ideal) .f32 (constantI S_ 32 0#32)) pads_S8x64x100000_S8x64x102400_000_000_024000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- The padded, flattened plane keys, from the integer voxel coordinates. -/
theorem V_planeKeys_step : (V m c main_v37 : S819200.Idx → BitVec 32)
    = shapeCast S819200 (pad S8x102400 ![0, 0] ![0, 2400] ![0, 0]
        (shapeCast S8x100000 (extractStridedSlice S8x1x100000 ![0, 0, 0] (V m c main_v24) slices_S8x3x100000_S8x1x100000_0_0_0)
          shapeCasts_S8x1x100000_S8x100000)
        (constantI S_ 32 4294967295#32) pads_S8x100000_S8x102400_000_024000 h_S_) shapeCasts_S8x102400_S819200 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  generalize (fptosi (F := Ideal) (φ := .f32) 32 _ : IVec S8x3x100000 32) = y
  exact planeKeys_unwrap y

/-- The padded, flattened in-plane keys, from the integer voxel coordinates. -/
theorem V_cellKeys_step : (V m c main_v38 : S819200.Idx → BitVec 32)
    = shapeCast S819200 (pad S8x102400 ![0, 0] ![0, 2400] ![0, 0]
        (addi
          (muli
            (shapeCast S8x100000 (extractStridedSlice S8x1x100000 ![0, 1, 0] (V m c main_v24) slices_S8x3x100000_S8x1x100000_0_1_0)
              shapeCasts_S8x1x100000_S8x100000)
            (broadcastInDim S8x100000 ![] bcast_S_S8x100000 (constantI S_ 32 32#32)))
          (shapeCast S8x100000 (extractStridedSlice S8x1x100000 ![0, 2, 0] (V m c main_v24) slices_S8x3x100000_S8x1x100000_0_2_0)
            shapeCasts_S8x1x100000_S8x100000))
        (constantI S_ 32 4294967295#32) pads_S8x100000_S8x102400_000_024000 h_S_) shapeCasts_S8x102400_S819200 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  generalize (fptosi (F := Ideal) (φ := .f32) 32 _ : IVec S8x3x100000 32) = y
  exact cellKeys_unwrap y

/-! ## The three arrays read at an index -/

/-- The padded feature array at batch `b`, channel `ch`, padded point `n`. -/
theorem V_features_apply (b : Fin 8) (ch : Fin 64) (n : Fin 102400) :
    (V m c main_v34 : S8x64x102400.Idx → EReal) (ix3 b ch n) = featP (feat m c) b ch n := by
  rw [V_features]
  refine (pad3_apply _ _ _ _ b ch n).trans ?_
  unfold Cert.VoxelSpec.featP
  by_cases h : n.val < 100000
  · rw [dif_pos h, dif_pos h]
  · rw [dif_neg h, dif_neg h]
    show ((((0#32 : BitVec 32).toInt : ℤ) : ℝ) : EReal) = 0
    simp

/-- The plane keys at batch `b`, padded point `n`: position `b * 102400 + n` of the flattened array. -/
theorem V_planeKeys_apply (b : Fin 8) (n : Fin 102400) (hlt : b.val * 102400 + n.val < 819200) :
    (V m c main_v37 : S819200.Idx → BitVec 32) (ix1 ⟨b.val * 102400 + n.val, hlt⟩) = cxP (vox m c) b n := by
  rw [V_planeKeys_step, V_vox]
  refine (flatten_apply _ _ b n hlt).trans ?_
  refine (pad2_apply _ _ _ _ b n).trans ?_
  unfold Cert.VoxelSpec.cxP
  by_cases h : n.val < 100000
  · rw [dif_pos h, dif_pos h]
    refine (squeeze_apply _ _ b ⟨n.val, h⟩).trans ?_
    exact slice3_axis1_apply 0 (vox m c) slices_S8x3x100000_S8x1x100000_0_0_0 b (0 : Fin 1) ⟨n.val, h⟩ (0 : Fin 3) rfl
  · rw [dif_neg h, dif_neg h]
    rfl

/-- The in-plane keys at batch `b`, padded point `n`. -/
theorem V_cellKeys_apply (b : Fin 8) (n : Fin 102400) (hlt : b.val * 102400 + n.val < 819200) :
    (V m c main_v38 : S819200.Idx → BitVec 32) (ix1 ⟨b.val * 102400 + n.val, hlt⟩) = cyzP (vox m c) b n := by
  rw [V_cellKeys_step, V_vox]
  refine (flatten_apply _ _ b n hlt).trans ?_
  refine (pad2_apply _ _ _ _ b n).trans ?_
  unfold Cert.VoxelSpec.cyzP
  by_cases h : n.val < 100000
  · rw [dif_pos h, dif_pos h]
    have e1 : shapeCast S8x100000 (extractStridedSlice S8x1x100000 ![0, 1, 0] (vox m c) slices_S8x3x100000_S8x1x100000_0_1_0)
        shapeCasts_S8x1x100000_S8x100000 (ix2 b ⟨n.val, h⟩) = vox m c (ix3 b (1 : Fin 3) ⟨n.val, h⟩) := by
      refine (squeeze_apply _ _ b ⟨n.val, h⟩).trans ?_
      exact slice3_axis1_apply 1 (vox m c) slices_S8x3x100000_S8x1x100000_0_1_0 b (0 : Fin 1) ⟨n.val, h⟩ (1 : Fin 3) rfl
    have e2 : shapeCast S8x100000 (extractStridedSlice S8x1x100000 ![0, 2, 0] (vox m c) slices_S8x3x100000_S8x1x100000_0_2_0)
        shapeCasts_S8x1x100000_S8x100000 (ix2 b ⟨n.val, h⟩) = vox m c (ix3 b (2 : Fin 3) ⟨n.val, h⟩) := by
      refine (squeeze_apply _ _ b ⟨n.val, h⟩).trans ?_
      exact slice3_axis1_apply 2 (vox m c) slices_S8x3x100000_S8x1x100000_0_2_0 b (0 : Fin 1) ⟨n.val, h⟩ (2 : Fin 3) rfl
    exact congrArg₂ (· + ·) (congrArg (· * 32#32) e1) e2
  · rw [dif_neg h, dif_neg h]
    rfl

end Cert.KernelIdeal.HostValue

end
-- ==== Proof.KernelBlocks.lean ====
/-
  The blocks of its three input arrays that the region reads at a grid point, as functions of the two arguments:
  the features, the plane keys and the in-plane keys of 4096 consecutive padded points of one batch.
-/
import proofs.«129199_j15135464751874_2_alg».proof.Proof.KernelHost

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx
open Cert.VoxelSpec (featP cxP cyzP blockPt cell)

variable (m : (ℓ : Loc nD τ sig) → Buf (Elt Ideal) ℓ) (c : Dev nD)

/-! ## The blocks the region reads at a grid point

Grid point `t` is batch `t / 25`, block `t % 25`. The feature window's block is `[1, 64, 4096]` at block index
`(t / 25, 0, t % 25)`; the two key windows' blocks are `[4096]` at block index `t` of the flattened arrays, which is
position `(t / 25) * 102400 + (t % 25) * 4096`. -/

/-- The windows' index maps, decided over the grid. -/
theorem index_facts : ∀ t : Fin cfg0.N,
    win0_0.index t (0 : Fin 3) = t.val / 25 ∧ win0_0.index t (1 : Fin 3) = 0 ∧ win0_0.index t (2 : Fin 3) = t.val % 25
    ∧ win0_1.index t (0 : Fin 1) = t.val ∧ win0_2.index t (0 : Fin 1) = t.val :=
  (by decide +kernel : ∀ t : Fin grid0.N, _)

/-- The feature block at point `t`, channel `ch`, point `p` of the block. -/
theorem iblk0_apply (t : Fin cfg0.N) (b : Fin 8) (s : Fin 25) (hb : b.val = t.val / 25) (hs : s.val = t.val % 25)
    (ch : Fin 64) (p : Fin 4096) :
    (iblk m c 0 t : Vec Ideal S1x64x4096 .f32) (ix3 (0 : Fin 1) ch p) = featP (feat m c) b ch (blockPt s p) := by
  have e : ((cfg0.win 0).blk t).view.emb (ix3 (0 : Fin 1) ch p) = ix3 b ch (blockPt s p) := by
    obtain ⟨e0, e1, e2, -, -⟩ := index_facts t
    funext a; apply Fin.ext
    match a with
    | ⟨0, _⟩ => show win0_0.index t (0 : Fin 3) * 1 + 1 * 0 = b.val; rw [e0]; omega
    | ⟨1, _⟩ => show win0_0.index t (1 : Fin 3) * 64 + 1 * ch.val = ch.val; rw [e1]; omega
    | ⟨2, _⟩ => show win0_0.index t (2 : Fin 3) * 4096 + 1 * p.val = s.val * 4096 + p.val; rw [e2]; omega
  show (V m c main_v34 : S8x64x102400.Idx → EReal) (((cfg0.win 0).blk t).view.emb (ix3 (0 : Fin 1) ch p)) = _
  exact (congrArg (V m c main_v34 : S8x64x102400.Idx → EReal) e).trans (V_features_apply m c b ch (blockPt s p))

/-- The plane-key block at point `t`, point `p` of the block. -/
theorem iblk1_apply (t : Fin cfg0.N) (b : Fin 8) (s : Fin 25) (hb : b.val = t.val / 25) (hs : s.val = t.val % 25)
    (p : Fin 4096) :
    (iblk m c 1 t : Vec Ideal S4096 .i32) (ix1 p) = cxP (vox m c) b (blockPt s p) := by
  have hlt : b.val * 102400 + (blockPt s p).val < 819200 := by
    have := b.isLt; have := (blockPt s p).isLt; omega
  have e : ((cfg0.win 1).blk t).view.emb (ix1 p) = ix1 ⟨b.val * 102400 + (blockPt s p).val, hlt⟩ := by
    obtain ⟨-, -, -, e3, -⟩ := index_facts t
    funext a; apply Fin.ext
    match a with
    | ⟨0, _⟩ => show win0_1.index t (0 : Fin 1) * 4096 + 1 * p.val = b.val * 102400 + (s.val * 4096 + p.val); rw [e3]; omega
  show (V m c main_v37 : S819200.Idx → BitVec 32) (((cfg0.win 1).blk t).view.emb (ix1 p)) = _
  exact (congrArg (V m c main_v37 : S819200.Idx → BitVec 32) e).trans (V_planeKeys_apply m c b (blockPt s p) hlt)

/-- The in-plane-key block at point `t`, point `p` of the block. -/
theorem iblk2_apply (t : Fin cfg0.N) (b : Fin 8) (s : Fin 25) (hb : b.val = t.val / 25) (hs : s.val = t.val % 25)
    (p : Fin 4096) :
    (iblk m c 2 t : Vec Ideal S4096 .i32) (ix1 p) = cyzP (vox m c) b (blockPt s p) := by
  have hlt : b.val * 102400 + (blockPt s p).val < 819200 := by
    have := b.isLt; have := (blockPt s p).isLt; omega
  have e : ((cfg0.win 2).blk t).view.emb (ix1 p) = ix1 ⟨b.val * 102400 + (blockPt s p).val, hlt⟩ := by
    obtain ⟨-, -, -, -, e4⟩ := index_facts t
    funext a; apply Fin.ext
    match a with
    | ⟨0, _⟩ => show win0_2.index t (0 : Fin 1) * 4096 + 1 * p.val = b.val * 102400 + (s.val * 4096 + p.val); rw [e4]; omega
  show (V m c main_v38 : S819200.Idx → BitVec 32) (((cfg0.win 2).blk t).view.emb (ix1 p)) = _
  exact (congrArg (V m c main_v38 : S819200.Idx → BitVec 32) e).trans (V_cellKeys_apply m c b (blockPt s p) hlt)

end Cert.KernelIdeal.HostValue

end
-- ==== Proof.KernelOut.lean ====
/-
  The output block a batch's last block stores, with the input blocks read through the host's operations.

  The pallas call's three inputs are the features padded with zeros along the point axis and the two integer keys padded
  with `-1` and flattened; the block the body loads at block `s` of batch `b` holds, at point `p`, the padded values of
  point `4096 s + p` of that batch. With these the output block is the slab of the voxel grid for the batch, computed from
  the voxel coordinates every one of which lies in `0 … 31`.
-/
import proofs.«129199_j15135464751874_2_alg».proof.Proof.KernelValue
import proofs.«129199_j15135464751874_2_alg».proof.Proof.KernelBlocks
import proofs.«129199_j15135464751874_2_alg».proof.Proof.VoxRange
import proofs.«129199_j15135464751874_2_alg».proof.Proof.OutputCover

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Cert.VoxelSpec

/-- The output block of the last block of batch `t / 25` is the voxel grid's slab of that batch. -/
theorem out_value (m : (ℓ : Loc nD τ sig) → Buf (Elt Ideal) ℓ) (c : Dev nD) :
    ∀ (t : Fin cfg0.N), t.val % 25 = 24 → ∀ (u : Fin 1) (ch : Fin 64) (x y z : Fin 32),
      (outsAt0 m c t.val t.isLt).1 (ix4 u ch x (cell y z))
        = grid (Cert.ReferenceIdeal.Read.val_main_v24 (F := Ideal) (m ((c.tc : Thread nD τ).loc main_arg1)))
            (m ((c.tc : Thread nD τ).loc main_arg0))
            (ix5 (⟨t.val / 25, Cert.KernelIdeal.OutValue.batch_lt t⟩ : Fin 8) ch x y z) :=
  fun t h1 u ch x y z =>
    out_value_of m c _ _ (Cert.VoxRange.vox_inRange _)
      (fun t b s hb hs ch p => Cert.KernelIdeal.HostValue.iblk0_apply m c t b s hb hs ch p)
      (fun t b s hb hs p => Cert.KernelIdeal.HostValue.iblk1_apply m c t b s hb hs p)
      (fun t b s hb hs p => Cert.KernelIdeal.HostValue.iblk2_apply m c t b s hb hs p)
      t h1 ⟨t.val / 25, Cert.KernelIdeal.OutValue.batch_lt t⟩ rfl u ch x y z

end Cert.KernelIdeal.Body

end
-- ==== Proof.lean ====
/-
  Voxelization of a point cloud: the Pallas kernel against its jnp reference, at the exact extended reals.

  Both programs normalise the coordinates of 8 × 100000 points, clip and round them to integer voxel coordinates in
  `0 … 31`, and return, besides the clipped coordinates, a `32 × 32 × 32` grid per batch and channel: each voxel holds the
  sum of the features of the points lying in it divided by their number, the number raised to at least one.

  The reference keys every point by `b·32768 + x·1024 + y·32 + z` and accumulates features and ones with two scatters; a
  point lands on a voxel's row exactly when its batch and its three coordinates are the voxel's, because the coordinates
  are below 32 and the 32-bit arithmetic does not wrap. The kernel pads the point axis to 25 blocks of 4096, keys every
  point by its plane `x` and its in-plane cell `32 y + z` (padding keyed `-1`, which is no plane and no cell), and at each
  block multiplies a one-hot matrix of the cells against the features masked by a one-hot row of the plane, adding the
  product into a per-batch accumulator that it resets at the batch's first block and normalises at its last. Entry by
  entry the accumulated products are the sum over the batch's points of the feature times the two `0/1` weights, that is
  the sum over the points lying in the voxel; sums over the extended reals do not depend on order or grouping, and a
  `0/1` weight times any extended real is that real or zero, so no finiteness is used. The integer voxel coordinates and the
  clipped coordinates are computed by the same host operations in both programs.

  The frames of the two kernel programs are the generated ones; the reference's frame is its generated run with the results
  dropped; the idealization rewrote no operation.
-/
import proofs.«129199_j15135464751874_2_alg».proof.Defs
import proofs.«129199_j15135464751874_2_alg».proof.Proof.Gen.Kernel
import proofs.«129199_j15135464751874_2_alg».proof.Proof.Gen.Kernel.Skeleton
import proofs.«129199_j15135464751874_2_alg».proof.Proof.Gen.Kernel.Launch
import proofs.«129199_j15135464751874_2_alg».proof.Proof.Gen.Kernel.Points
import proofs.«129199_j15135464751874_2_alg».proof.Proof.Gen.Kernel.Frame
import proofs.«129199_j15135464751874_2_alg».proof.Proof.Gen.KernelIdeal
import proofs.«129199_j15135464751874_2_alg».proof.Proof.Gen.KernelIdeal.Skeleton
import proofs.«129199_j15135464751874_2_alg».proof.Proof.Gen.KernelIdeal.Launch
import proofs.«129199_j15135464751874_2_alg».proof.Proof.Gen.KernelIdeal.Points
import proofs.«129199_j15135464751874_2_alg».proof.Proof.Gen.KernelIdeal.Frame
import proofs.«129199_j15135464751874_2_alg».proof.Proof.Gen.ReferenceIdeal
import proofs.«129199_j15135464751874_2_alg».proof.Proof.Gen.ReferenceIdeal.Run
import proofs.«129199_j15135464751874_2_alg».proof.Proof.Gen.ReferenceIdeal.Read
import proofs.«129199_j15135464751874_2_alg».proof.Proof.Gen.Pre_finite_inputs
import proofs.«129199_j15135464751874_2_alg».proof.Proof.RefGrid
import proofs.«129199_j15135464751874_2_alg».proof.Proof.KernelGrid
import proofs.«129199_j15135464751874_2_alg».proof.Proof.KernelOut
import proofs.«129199_j15135464751874_2_alg».proof.Proof.KernelHost
import Idealize.ShloMosaic.Adequacy
import Idealize.ShloMosaic.Init

noncomputable section

open Idealize.ShloMosaic Idealize.ShloMosaic.TcCoe Idealize.SL.Sem Idealize.ShloMosaic.ValueIdx

namespace Cert.Proof

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- At the exact extended reals both programs end with the voxel grid of the features and of the integer voxel
    coordinates, and with the same clipped coordinates. -/
theorem algebraic : Cert.algebraic_KernelIdeal_ReferenceIdeal := by
  intro m ρ m' ρ' _ hagree
  refine ⟨fun c => Cert.VoxelSpec.grid
      (Cert.ReferenceIdeal.Read.val_main_v24 (F := Ideal)
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)),
    fun c => Cert.ReferenceIdeal.Read.val_main_v22 (F := Ideal)
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2.1.trans ?_, (h c).2.2.1, (h c).2.2.2⟩)
      (Cert.KernelIdeal.Tail.kernel_run_named m ρ)
    · exact Cert.KernelIdeal.Tail.tail_is_grid m c _ _ (Cert.KernelIdeal.Body.out_value m c)
    · exact (Cert.KernelIdeal.Tail.tail_coords m c).trans (Cert.KernelIdeal.HostValue.V_clipped m c)
  · refine (θ_run Cert.ReferenceIdeal.defs _ _).mono (fun _ h c => ⟨(h c).1.trans ?_, (h c).2.1.trans ?_, (h c).2.2.1, (h c).2.2.2⟩)
      (Cert.ReferenceIdeal.Value.run (F := Ideal) m' ρ')
    · rw [Cert.ReferenceIdeal.Read.val_main_v59_eq, (hagree c).1, (hagree c).2]
      exact Cert.RefGrid.ref_grid _ _
    · exact (Cert.ReferenceIdeal.Read.val_main_v22_eq _).trans
        (congrArg (Cert.ReferenceIdeal.Read.val_main_v22 (F := Ideal)) (hagree c).2)

theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
